-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x1024 : Shape := ⟨3, ![4, 4096, 1024]⟩
abbrev S1024x64 : Shape := ⟨2, ![1024, 64]⟩
abbrev S_ : Shape := ⟨0, ![]⟩

class Facts : Prop where
  bcast_S_S4x4096x1024 : S_.BroadcastsInDim S4x4096x1024 (![] : Fin 0 → Fin S4x4096x1024.rank)
  reducesTo_S4x4096x1024_S_d0_1_2 : S4x4096x1024.ReducesTo [0, 1, 2] S_
  h_S_ : 0 < S_.numel
  bcast_S_S1024x64 : S_.BroadcastsInDim S1024x64 (![] : Fin 0 → Fin S1024x64.rank)
  reducesTo_S1024x64_S_d0_1 : S1024x64.ReducesTo [0, 1] S_

variable [Facts]

def fn_part1 {F : FTy → Type} [FloatOps F] (main_v13 : IVec S_ 1) (main_v16 : IVec S1024x64 1) : IVec S_ 1 :=
  let main_c_5 : IVec S_ 1 := constantI S_ 1 1#1
  let main_v17 : IVec S_ 1 := (fun x v => Host.reduce IntOp.andi x v reducesTo_S1024x64_S_d0_1 h_S_) main_v16 main_c_5
  let main_v18 : IVec S_ 1 := andi main_v13 main_v17
  main_v18

def fn {F : FTy → Type} [FloatOps F] (main_arg0 : FVec F S4x4096x1024 .f32) (main_arg1 : FVec F S1024x64 .f32) (main_arg2 : FVec F S1024x64 .f32) (main_arg3 : FVec F S1024x64 .f32) : IVec S_ 1 :=
  let main_v0 : FVec F S4x4096x1024 .f32 := Host.absf main_arg0
  let main_cst : FVec F S_ .f32 := constant S_ .f32 0x7F800000#32
  let main_v1 : FVec F S4x4096x1024 .f32 := broadcastInDim S4x4096x1024 ![] bcast_S_S4x4096x1024 main_cst
  let main_v2 : IVec S4x4096x1024 1 := cmpf .olt main_v0 main_v1
  let main_c : IVec S_ 1 := constantI S_ 1 1#1
  let main_v3 : IVec S_ 1 := (fun x v => Host.reduce IntOp.andi x v reducesTo_S4x4096x1024_S_d0_1_2 h_S_) main_v2 main_c
  let main_v4 : FVec F S1024x64 .f32 := Host.absf main_arg1
  let main_cst_0 : FVec F S_ .f32 := constant S_ .f32 0x7F800000#32
  let main_v5 : FVec F S1024x64 .f32 := broadcastInDim S1024x64 ![] bcast_S_S1024x64 main_cst_0
  let main_v6 : IVec S1024x64 1 := cmpf .olt main_v4 main_v5
  let main_c_1 : IVec S_ 1 := constantI S_ 1 1#1
  let main_v7 : IVec S_ 1 := (fun x v => Host.reduce IntOp.andi x v reducesTo_S1024x64_S_d0_1 h_S_) main_v6 main_c_1
  let main_v8 : IVec S_ 1 := andi main_v3 main_v7
  let main_v9 : FVec F S1024x64 .f32 := Host.absf main_arg2
  let main_cst_2 : FVec F S_ .f32 := constant S_ .f32 0x7F800000#32
  let main_v10 : FVec F S1024x64 .f32 := broadcastInDim S1024x64 ![] bcast_S_S1024x64 main_cst_2
  let main_v11 : IVec S1024x64 1 := cmpf .olt main_v9 main_v10
  let main_c_3 : IVec S_ 1 := constantI S_ 1 1#1
  let main_v12 : IVec S_ 1 := (fun x v => Host.reduce IntOp.andi x v reducesTo_S1024x64_S_d0_1 h_S_) main_v11 main_c_3
  let main_v13 : IVec S_ 1 := andi main_v8 main_v12
  let main_v14 : FVec F S1024x64 .f32 := Host.absf main_arg3
  let main_cst_4 : FVec F S_ .f32 := constant S_ .f32 0x7F800000#32
  let main_v15 : FVec F S1024x64 .f32 := broadcastInDim S1024x64 ![] bcast_S_S1024x64 main_cst_4
  let main_v16 : IVec S1024x64 1 := cmpf .olt main_v14 main_v15
  fn_part1 (F := F) main_v13 main_v16
-- ==== Kernel.lean ====
abbrev S4x4096x1024 : Shape := ⟨3, ![4, 4096, 1024]⟩
abbrev S1024x64 : Shape := ⟨2, ![1024, 64]⟩
abbrev S4x4096x64 : Shape := ⟨3, ![4, 4096, 64]⟩
abbrev S4x64x4096 : Shape := ⟨3, ![4, 64, 4096]⟩
abbrev S1x1024x1024 : Shape := ⟨3, ![1, 1024, 1024]⟩
abbrev S1x1024x64 : Shape := ⟨3, ![1, 1024, 64]⟩
abbrev S1x64x1024 : Shape := ⟨3, ![1, 64, 1024]⟩
abbrev S1024x1024 : Shape := ⟨2, ![1024, 1024]⟩
abbrev S64x1024 : Shape := ⟨2, ![64, 1024]⟩
abbrev S1024x1 : Shape := ⟨2, ![1024, 1]⟩
abbrev S1024 : Shape := ⟨1, ![1024]⟩

abbrev nBuf : Space → Nat
  | .hbm => 8
  | .vmem => 22
  | .smem => 0
  | _ => 0

abbrev bufTy : (tb : Table) → Fin (tcTables nBuf tb) → BufTy
  | .hbm, ⟨0, _⟩ => ⟨S4x4096x1024, .f32⟩
  | .hbm, ⟨1, _⟩ => ⟨S1024x64, .f32⟩
  | .hbm, ⟨2, _⟩ => ⟨S1024x64, .f32⟩
  | .hbm, ⟨3, _⟩ => ⟨S1024x64, .f32⟩
  | .hbm, ⟨4, _⟩ => ⟨S4x4096x64, .bf16⟩
  | .hbm, ⟨5, _⟩ => ⟨S4x64x4096, .bf16⟩
  | .hbm, ⟨6, _⟩ => ⟨S4x4096x64, .bf16⟩
  | .hbm, ⟨7, _⟩ => ⟨S4x4096x64, .f32⟩
  | .local _ .vmem, ⟨0, _⟩ => ⟨S1x1024x1024, .f32⟩
  | .local _ .vmem, ⟨1, _⟩ => ⟨S1x1024x1024, .f32⟩
  | .local _ .vmem, ⟨2, _⟩ => ⟨S1024x64, .f32⟩
  | .local _ .vmem, ⟨3, _⟩ => ⟨S1024x64, .f32⟩
  | .local _ .vmem, ⟨4, _⟩ => ⟨S1024x64, .f32⟩
  | .local _ .vmem, ⟨5, _⟩ => ⟨S1x1024x64, .bf16⟩
  | .local _ .vmem, ⟨6, _⟩ => ⟨S1x1024x64, .bf16⟩
  | .local _ .vmem, ⟨7, _⟩ => ⟨S1x64x1024, .bf16⟩
  | .local _ .vmem, ⟨8, _⟩ => ⟨S1x64x1024, .bf16⟩
  | .local _ .vmem, ⟨9, _⟩ => ⟨S1x1024x64, .bf16⟩
  | .local _ .vmem, ⟨10, _⟩ => ⟨S1x1024x64, .bf16⟩
  | .local _ .vmem, ⟨11, _⟩ => ⟨S1x1024x64, .bf16⟩
  | .local _ .vmem, ⟨12, _⟩ => ⟨S1x1024x64, .bf16⟩
  | .local _ .vmem, ⟨13, _⟩ => ⟨S1x64x1024, .bf16⟩
  | .local _ .vmem, ⟨14, _⟩ => ⟨S1x64x1024, .bf16⟩
  | .local _ .vmem, ⟨15, _⟩ => ⟨S1x1024x64, .bf16⟩
  | .local _ .vmem, ⟨16, _⟩ => ⟨S1x1024x64, .bf16⟩
  | .local _ .vmem, ⟨17, _⟩ => ⟨S1x1024x64, .f32⟩
  | .local _ .vmem, ⟨18, _⟩ => ⟨S1x1024x64, .f32⟩
  | .local _ .vmem, ⟨19, _⟩ => ⟨S1024x1, .f32⟩
  | .local _ .vmem, ⟨20, _⟩ => ⟨S1024x1, .f32⟩
  | .local _ .vmem, ⟨21, _⟩ => ⟨S1024x64, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg3_1 : Ref sig .tc := ⟨.vmem, 18, rfl⟩
abbrev cc1_scratch0 : Ref sig .tc := ⟨.vmem, 19, rfl⟩
abbrev cc1_scratch1 : Ref sig .tc := ⟨.vmem, 20, rfl⟩
abbrev cc1_scratch2 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem3_1 : DmaSem sig := 18

abbrev nD : Nat := 1
abbrev τ : Topo := Topo.v7x

variable {F : FTy → Type} [FloatOps F]

abbrev grid0 : Pipeline.Grid := ⟨2, ![4, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x1024x64 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x64x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1024x64 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev grid1 : Pipeline.Grid := ⟨3, ![4, 4, 4], ![false, false, false]⟩

def k1_cond2 (i : grid1.Coords) : BitVec 1 :=
  let arg2 : BitVec 32 := BitVec.ofNat 32 (i 2).val
  let c3_i32 : BitVec 32 := 3#32
  let v42 : BitVec 1 := Scalar.cmpi .eq arg2 c3_i32
  let v43 : BitVec 32 := Scalar.extui v42
  let c0_i32_27 : BitVec 32 := 0#32
  let v44 : BitVec 1 := Scalar.cmpi .ne v43 c0_i32_27
  v44

def cc1_transform_0 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc1_transform_2 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc1_transform_3 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage1_0 : Fin 2 → Memref sig .tc .vmem S1x1024x64 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true, false]

abbrev stage1_1 : Fin 2 → Memref sig .tc .vmem S1x64x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false, true]

abbrev stage1_2 : Fin 2 → Memref sig .tc .vmem S1x1024x64 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false, true]

abbrev stage1_3 : Fin 2 → Memref sig .tc .vmem S1x1024x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, false]

class Facts₀ : Prop where
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  bitsLt_bf16_f32 : FTy.bits .bf16 < FTy.bits .f32
  inb_S1024x64_S1024x64_0_0 : ∀ a, (![0, 0] : Fin 2 → Nat) a + S1024x64.size a ≤ S1024x64.size a
  h_S1024x64 : 0 < S1024x64.numel
  inb_S1x1024x64_S1x1024x64_0_0_0 : ∀ a, (![0, 0, 0] : Fin 3 → Nat) a + S1x1024x64.size a ≤ S1x1024x64.size a
  h_S1x1024x64 : 0 < S1x1024x64.numel
  shapeCasts_S1x1024x64_S1024x64 : S1x1024x64.ShapeCasts S1024x64
  shapeCasts_S1024x64_S1x1024x64 : S1024x64.ShapeCasts S1x1024x64
  packedbf16_S1x1024x64_S1x1024x64_0_0_0 : (Rect.unit (s := S1x1024x64) ![0, 0, 0] S1x1024x64.size inb_S1x1024x64_S1x1024x64_0_0_0).PackedRows (EltTy.packing .bf16)
  inb_S1x64x1024_S1x64x1024_0_0_0 : ∀ a, (![0, 0, 0] : Fin 3 → Nat) a + S1x64x1024.size a ≤ S1x64x1024.size a
  h_S1x64x1024 : 0 < S1x64x1024.numel
  shapeCasts_S1x64x1024_S64x1024 : S1x64x1024.ShapeCasts S64x1024
  shapeCasts_S64x1024_S1x64x1024 : S64x1024.ShapeCasts S1x64x1024
  packedbf16_S1x64x1024_S1x64x1024_0_0_0 : (Rect.unit (s := S1x64x1024) ![0, 0, 0] S1x64x1024.size inb_S1x64x1024_S1x64x1024_0_0_0).PackedRows (EltTy.packing .bf16)
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  shapeCasts_S1024x64_S1024x64 : S1024x64.ShapeCasts S1024x64
  reduces_S1024x1024_S1024 : S1024x1024.Reduces [1] S1024
  shapeCasts_S1024_S1024x1 : S1024.ShapeCasts S1024x1
  broadcasts_S1024x1_S1024x1024 : S1024x1.Broadcasts S1024x1024
  broadcasts_S1024x1_S1024x64 : S1024x1.Broadcasts S1024x64
  dot_S1024x1024_S1024x64_S1024x64_1_0_0_1_n_n_wf : DotDims.WF S1024x1024 S1024x64 S1024x64 [1] [0] [0] [1] [] []
  dot_S1024x64_S1024x1024_S64x1024_0_1_1_0_n_n_wf : DotDims.WF S1024x64 S1024x1024 S64x1024 [0] [1] [1] [0] [] []
  dot_S1024x64_S64x1024_S1024x1024_1_0_0_1_n_n_wf : DotDims.WF S1024x64 S64x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x1024.size a ≤ S4x4096x1024.size a
  hwx0_0 : ∀ i : grid0.Coords, EltTy.bits .f32 = 32 ∨ (Rect.block (s := S4x4096x1024) S1x1024x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x64.size a ≤ S1024x64.size a
  hwx0_1 : ∀ i : grid0.Coords, EltTy.bits .f32 = 32 ∨ (Rect.block (s := S1024x64) S1024x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x64.size a ≤ S1024x64.size a
  hwx0_2 : ∀ i : grid0.Coords, EltTy.bits .f32 = 32 ∨ (Rect.block (s := S1024x64) S1024x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x64.size a ≤ S1024x64.size a
  hwx0_3 : ∀ i : grid0.Coords, EltTy.bits .f32 = 32 ∨ (Rect.block (s := S1024x64) S1024x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1024x64.size a ≤ S4x4096x64.size a
  hwx0_4 : ∀ i : grid0.Coords, EltTy.bits .bf16 = 32 ∨ (Rect.block (s := S4x4096x64) S1x1024x64.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x64x1024.size a ≤ S4x64x4096.size a
  hwx0_5 : ∀ i : grid0.Coords, EltTy.bits .bf16 = 32 ∨ (Rect.block (s := S4x64x4096) S1x64x1024.size (cc0_transform_5 i) (hinb0_5 i)).WholeWords (EltTy.packing .bf16)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x1024x64.size a ≤ S4x4096x64.size a
  hwx0_6 : ∀ i : grid0.Coords, EltTy.bits .bf16 = 32 ∨ (Rect.block (s := S4x4096x64) S1x1024x64.size (cc0_transform_6 i) (hinb0_6 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x1024x64.size a ≤ S4x4096x64.size a
  hwx1_0 : ∀ i : grid1.Coords, EltTy.bits .bf16 = 32 ∨ (Rect.block (s := S4x4096x64) S1x1024x64.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x64x1024.size a ≤ S4x64x4096.size a
  hwx1_1 : ∀ i : grid1.Coords, EltTy.bits .bf16 = 32 ∨ (Rect.block (s := S4x64x4096) S1x64x1024.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1024x64.size a ≤ S4x4096x64.size a
  hwx1_2 : ∀ i : grid1.Coords, EltTy.bits .bf16 = 32 ∨ (Rect.block (s := S4x4096x64) S1x1024x64.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x1024x64.size a ≤ S4x4096x64.size a
  hwx1_3 : ∀ i : grid1.Coords, EltTy.bits .f32 = 32 ∨ (Rect.block (s := S4x4096x64) S1x1024x64.size (cc1_transform_3 i) (hinb1_3 i)).WholeWords (EltTy.packing .f32)

variable [Facts₀]

def dot_S1024x1024_S1024x64_S1024x64_1_0_0_1_n_n : DotDims S1024x1024 S1024x64 S1024x64 where
  lhsContracting := [1]
  rhsContracting := [0]
  lhsNonContracting := [0]
  rhsNonContracting := [1]
  lhsBatch := []
  rhsBatch := []
  wf := dot_S1024x1024_S1024x64_S1024x64_1_0_0_1_n_n_wf
def dot_S1024x64_S1024x1024_S64x1024_0_1_1_0_n_n : DotDims S1024x64 S1024x1024 S64x1024 where
  lhsContracting := [0]
  rhsContracting := [1]
  lhsNonContracting := [1]
  rhsNonContracting := [0]
  lhsBatch := []
  rhsBatch := []
  wf := dot_S1024x64_S1024x1024_S64x1024_0_1_1_0_n_n_wf
def dot_S1024x64_S64x1024_S1024x1024_1_0_0_1_n_n : DotDims S1024x64 S64x1024 S1024x1024 where
  lhsContracting := [1]
  rhsContracting := [0]
  lhsNonContracting := [0]
  rhsNonContracting := [1]
  lhsBatch := []
  rhsBatch := []
  wf := dot_S1024x64_S64x1024_S1024x1024_1_0_0_1_n_n_wf

abbrev win0_0 : Pipeline.Window sig grid0 :=
  Pipeline.Window.ofSpec (Memref.whole main_arg0) S1x1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1024x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1024x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v0_0) S1x1024x64.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v0_1) S1x64x1024.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v0_2) S1x1024x64.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v0_0) S1x1024x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0_1) S1x64x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v0_2) S1x1024x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v1) S1x1024x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

class Facts : Prop extends Facts₀ where

variable [Facts]
-- ==== ReferenceIdeal.lean ====
abbrev S4x4096x1024 : Shape := ⟨3, ![4, 4096, 1024]⟩
abbrev S1024x64 : Shape := ⟨2, ![1024, 64]⟩
abbrev S4x4096x64 : Shape := ⟨3, ![4, 4096, 64]⟩
abbrev S4x4096x4096 : Shape := ⟨3, ![4, 4096, 4096]⟩
abbrev S_ : Shape := ⟨0, ![]⟩
abbrev S4x4096 : Shape := ⟨2, ![4, 4096]⟩
abbrev S4x4096x1 : Shape := ⟨3, ![4, 4096, 1]⟩

abbrev nBuf : Space → Nat
  | .hbm => 26
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S1024x64, .f32⟩
  | .hbm, ⟨2, _⟩ => ⟨S1024x64, .f32⟩
  | .hbm, ⟨3, _⟩ => ⟨S1024x64, .f32⟩
  | .hbm, ⟨4, _⟩ => ⟨S4x4096x64, .f32⟩
  | .hbm, ⟨5, _⟩ => ⟨S4x4096x64, .f32⟩
  | .hbm, ⟨6, _⟩ => ⟨S4x4096x64, .f32⟩
  | .hbm, ⟨7, _⟩ => ⟨S4x4096x4096, .f32⟩
  | .hbm, ⟨8, _⟩ => ⟨S_, .f32⟩
  | .hbm, ⟨9, _⟩ => ⟨S4x4096x4096, .f32⟩
  | .hbm, ⟨10, _⟩ => ⟨S4x4096x4096, .f32⟩
  | .hbm, ⟨11, _⟩ => ⟨S_, .f32⟩
  | .hbm, ⟨12, _⟩ => ⟨S4x4096, .f32⟩
  | .hbm, ⟨13, _⟩ => ⟨S_, .f32⟩
  | .hbm, ⟨14, _⟩ => ⟨S4x4096, .f32⟩
  | .hbm, ⟨15, _⟩ => ⟨S4x4096, .f32⟩
  | .hbm, ⟨16, _⟩ => ⟨S4x4096x1, .f32⟩
  | .hbm, ⟨17, _⟩ => ⟨S4x4096x4096, .f32⟩
  | .hbm, ⟨18, _⟩ => ⟨S4x4096x4096, .f32⟩
  | .hbm, ⟨19, _⟩ => ⟨S4x4096x4096, .f32⟩
  | .hbm, ⟨20, _⟩ => ⟨S_, .f32⟩
  | .hbm, ⟨21, _⟩ => ⟨S4x4096, .f32⟩
  | .hbm, ⟨22, _⟩ => ⟨S4x4096x1, .f32⟩
  | .hbm, ⟨23, _⟩ => ⟨S4x4096x4096, .f32⟩
  | .hbm, ⟨24, _⟩ => ⟨S4x4096x4096, .f32⟩
  | .hbm, ⟨25, _⟩ => ⟨S4x4096x64, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_2 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩

abbrev nD : Nat := 1
abbrev τ : Topo := Topo.v7x

variable {F : FTy → Type} [FloatOps F]

class Facts₀ : Prop where
  bcast_S_S4x4096x4096 : S_.BroadcastsInDim S4x4096x4096 (![] : Fin 0 → Fin S4x4096x4096.rank)
  reducesTo_S4x4096x4096_S4x4096_d2 : S4x4096x4096.ReducesTo [2] S4x4096
  h_S_ : 0 < S_.numel
  bcast_S_S4x4096 : S_.BroadcastsInDim S4x4096 (![] : Fin 0 → Fin S4x4096.rank)
  bcast_S4x4096_S4x4096x1_0_1 : S4x4096.BroadcastsInDim S4x4096x1 (![0, 1] : Fin 2 → Fin S4x4096x1.rank)
  bcast_S4x4096x1_S4x4096x4096_0_1_2 : S4x4096x1.BroadcastsInDim S4x4096x4096 (![0, 1, 2] : Fin 3 → Fin S4x4096x4096.rank)
  dot_S4x4096x1024_S1024x64_S4x4096x64_2_0_01_1_n_n_wf : DotDims.WF S4x4096x1024 S1024x64 S4x4096x64 [2] [0] [0, 1] [1] [] []
  dot_S4x4096x64_S4x4096x64_S4x4096x4096_2_2_1_1_0_0_wf : DotDims.WF S4x4096x64 S4x4096x64 S4x4096x4096 [2] [2] [1] [1] [0] [0]
  dot_S4x4096x4096_S4x4096x64_S4x4096x64_2_1_1_2_0_0_wf : DotDims.WF S4x4096x4096 S4x4096x64 S4x4096x64 [2] [1] [1] [2] [0] [0]

variable [Facts₀]

def dot_S4x4096x1024_S1024x64_S4x4096x64_2_0_01_1_n_n : DotDims S4x4096x1024 S1024x64 S4x4096x64 where
  lhsContracting := [2]
  rhsContracting := [0]
  lhsNonContracting := [0, 1]
  rhsNonContracting := [1]
  lhsBatch := []
  rhsBatch := []
  wf := dot_S4x4096x1024_S1024x64_S4x4096x64_2_0_01_1_n_n_wf
def dot_S4x4096x64_S4x4096x64_S4x4096x4096_2_2_1_1_0_0 : DotDims S4x4096x64 S4x4096x64 S4x4096x4096 where
  lhsContracting := [2]
  rhsContracting := [2]
  lhsNonContracting := [1]
  rhsNonContracting := [1]
  lhsBatch := [0]
  rhsBatch := [0]
  wf := dot_S4x4096x64_S4x4096x64_S4x4096x4096_2_2_1_1_0_0_wf
def dot_S4x4096x4096_S4x4096x64_S4x4096x64_2_1_1_2_0_0 : DotDims S4x4096x4096 S4x4096x64 S4x4096x64 where
  lhsContracting := [2]
  rhsContracting := [1]
  lhsNonContracting := [1]
  rhsNonContracting := [2]
  lhsBatch := [0]
  rhsBatch := [0]
  wf := dot_S4x4096x4096_S4x4096x64_S4x4096x64_2_1_1_2_0_0_wf

class Facts : Prop extends Facts₀ where

variable [Facts]
-- ==== Proof.KRegion0.lean ====
/-
  The projection stage as one pipelined region: at each of its 16 grid points (batch b, row block i) the body
  reads a [1024, 1024] block of x and the three whole weight matrices, and stores three blocks — the query
  and value projections [1024, 64] and the transposed key projection [64, 1024] — each a matrix product of
  what it read. Stated here at any float instance: what each output's staging buffer holds after the body, as
  a function of the input blocks; the body's triple; the proof data of the pipeline; the body obligation.
-/
import proofs.«162099_j9010841387309_2_alg».proof.Proof.Gen.Kernel.Launch
import proofs.«162099_j9010841387309_2_alg».proof.Proof.Gen.Kernel.Skeleton
import proofs.«162099_j9010841387309_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, whether the point fetches it or not
    (an unfetched window's block index has not moved); one statement per input window. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: every load and store is of a whole staging buffer -/

abbrev rX : Rect S1x1024x1024 := Rect.unit (s := S1x1024x1024) ![0, 0, 0] S1x1024x1024.size inb_S1x1024x1024_S1x1024x1024_0_0_0
abbrev rW : Rect S1024x64 := Rect.unit (s := S1024x64) ![0, 0] S1024x64.size inb_S1024x64_S1024x64_0_0
abbrev rQ : Rect S1x1024x64 := Rect.unit (s := S1x1024x64) ![0, 0, 0] S1x1024x64.size inb_S1x1024x64_S1x1024x64_0_0_0
abbrev rK : Rect S1x64x1024 := Rect.unit (s := S1x64x1024) ![0, 0, 0] S1x64x1024.size inb_S1x64x1024_S1x64x1024_0_0_0

/-! ## What the body leaves in each output window's buffer -/

/-- The query projection's buffer: the block of x times Wq. -/
def out0_4 (x0 : Vec F S1x1024x1024 .f32) (x1 : Vec F S1024x64 .f32) : Vec F S1x1024x64 .bf16 :=
  View.canon [⟨rQ, k0_pay2 (View.ld x0 rX) (View.ld x1 rW)⟩]
/-- The transposed key projection's buffer: Wk transposed times the block of x transposed. -/
def out0_5 (x0 : Vec F S1x1024x1024 .f32) (x2 : Vec F S1024x64 .f32) : Vec F S1x64x1024 .bf16 :=
  View.canon [⟨rK, k0_pay4 (View.ld x0 rX) (View.ld x2 rW)⟩]
/-- The value projection's buffer: the block of x times Wv. -/
def out0_6 (x0 : Vec F S1x1024x1024 .f32) (x3 : Vec F S1024x64 .f32) : Vec F S1x1024x64 .bf16 :=
  View.canon [⟨rQ, k0_pay3 (View.ld x0 rX) (View.ld x3 rW)⟩]

/-- One whole-buffer store covers the buffer. -/
theorem coverQ (p0 : Vec F S1x1024x64 .bf16) (y : S1x1024x64.Idx) :
    ∃ pc ∈ ([⟨rQ, p0⟩] : List (View.Piece (Elt F) S1x1024x64 .bf16)), y ∈ pc.1.set :=
  View.cover_of_tiled [⟨rQ, p0⟩] S1x1024x64.size (by rfl) y
theorem coverK (p0 : Vec F S1x64x1024 .bf16) (y : S1x64x1024.Idx) :
    ∃ pc ∈ ([⟨rK, p0⟩] : List (View.Piece (Elt F) S1x64x1024 .bf16)), y ∈ pc.1.set :=
  View.cover_of_tiled [⟨rK, p0⟩] S1x64x1024.size (by rfl) y

/-! ## The body's triple -/

set_option maxHeartbeats 4000000 in
/-- The body on whole staging memrefs — the four inputs' at read contents, the three outputs' at anything — runs to
    the continuation holding the inputs' as they were and each output's at its product. -/
theorem sound_kernel0 (c : Dev nD) (E : Set ℕ) (i : grid0.Coords)
    (arg2 : Memref sig .tc .vmem S1x1024x1024 .f32) (harg2 : arg2.IsWhole) (arg3 : Memref sig .tc .vmem S1024x64 .f32) (harg3 : arg3.IsWhole)
    (arg4 : Memref sig .tc .vmem S1024x64 .f32) (harg4 : arg4.IsWhole) (arg5 : Memref sig .tc .vmem S1024x64 .f32) (harg5 : arg5.IsWhole)
    (arg6 : Memref sig .tc .vmem S1x1024x64 .bf16) (harg6 : arg6.IsWhole) (arg7 : Memref sig .tc .vmem S1x64x1024 .bf16) (harg7 : arg7.IsWhole)
    (arg8 : Memref sig .tc .vmem S1x1024x64 .bf16) (harg8 : arg8.IsWhole)
    (x0 : Vec F S1x1024x1024 .f32) (x1 x2 x3 : Vec F S1024x64 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3
        ∗ (∃ d, owns (c : Thread nD τ) arg6 fullShare d) ∗ (∃ d, owns (c : Thread nD τ) arg7 fullShare d) ∗ (∃ d, owns (c : Thread nD τ) arg8 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3
            ∗ owns (c : Thread nD τ) arg6 fullShare (out0_4 x0 x1) ∗ owns (c : Thread nD τ) arg7 fullShare (out0_5 x0 x2)
            ∗ owns (c : Thread nD τ) arg8 fullShare (out0_6 x0 x3)) -∗ K ⟨⟩))
      ⊢ wp frame (wpE (defs₀ (F := F)) Variants.none c none) E (cc0__proj_kernel i arg2 harg2 arg3 harg3 arg4 harg4 arg5 harg5 arg6 harg6 arg7 harg7 arg8 harg8) K := by
  simp only [cc0__proj_kernel_eq_skeleton]; unfold cc0__proj_kernel_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (coverQ _)
  isplitl [H5]
  · iexists _; isplitr
    swap; · iexact H5
    ipureintro
    exact View.read_writes_eq_canon _ _ _ (coverK _)
  iexists _; isplitr
  swap; · iexact H6
  ipureintro
  exact View.read_writes_eq_canon _ _ _ (coverQ _)

/-! ## The pipeline's proof data -/

/-- The proof data of the projection pipeline on core `c`: the arrays as the region finds them; after the body at
    point `t` each input's buffer at its block and each output's at its product of the input blocks; the invariant
    the scoped rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => out0_4 (iblk0 V c 0 t) (iblk0 V c 1 t)
    | ⟨5, _⟩ => out0_5 (iblk0 V c 0 t) (iblk0 V c 2 t)
    | ⟨6, _⟩ => out0_6 (iblk0 V c 0 t) (iblk0 V c 3 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = out0_4 (iblk0 V c 0 t) (iblk0 V c 1 t) := by dsimp only [dat0]
theorem after0_5 (c : Dev nD) (t : Fin cfg0.N) : (dat0 V c).after 5 t = out0_5 (iblk0 V c 0 t) (iblk0 V c 2 t) := by dsimp only [dat0]
theorem after0_6 (c : Dev nD) (t : Fin cfg0.N) : (dat0 V c).after 6 t = out0_6 (iblk0 V c 0 t) (iblk0 V c 3 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-! ## The body obligation, at a generic point -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

set_option maxHeartbeats 1000000 in
/-- The body at any point: the inputs' memrefs hold their blocks, so `sound_kernel0` applies; the invariant and the
    core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel0 c Set.univ _ _ _ _ _ _ _ _ _ _ _ _ _ _ _ (iblk0 V c 0 t) (iblk0 V c 1 t) (iblk0 V c 2 t) (iblk0 V c 3 t) _)
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Frame

end
-- ==== Proof.KRegion1Runs.lean ====
/-
  The attention stage's body, run symbolically in each of the three situations a grid point (batch b, query
  block i, key block k) can be in: k = 0 (the three carried buffers — running maximum, running denominator,
  running numerator — are first reset), k = 1, 2 (they are updated from what the point before left), k = 3
  (updated, and the quotient numerator / denominator stored into the output block). Each run states what the
  body needs and what it leaves: the input blocks untouched, the output block untouched where the body does not
  store it, and each carried buffer (and at k = 3 the output) as the list of pieces its stores wrote.
-/
import proofs.«162099_j9010841387309_2_alg».proof.Proof.Gen.Kernel.Launch
import proofs.«162099_j9010841387309_2_alg».proof.Proof.Gen.Kernel.Skeleton
import proofs.«162099_j9010841387309_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two branch conditions, over the grid coordinates -/

/-- `k == 0`, as the body computes it. -/
abbrev cond1_0 (i : grid1.Coords) : Prop := (Scalar.cmpi .ne (Scalar.extui (Scalar.cmpi .eq (BitVec.ofNat 32 (i 2).val) 0#32)) 0#32) = 1#1
/-- `k == 3`, as the body computes it. -/
abbrev cond1_1 (i : grid1.Coords) : Prop := k1_cond2 i = 1#1

theorem hcond1_0 : ∀ t : Fin cfg1.N, cond1_0 (grid1.coords t) ↔ t.val % 4 = 0 :=
  (by decide +kernel : ∀ t : Fin grid1.N, cond1_0 (grid1.coords t) ↔ t.val % 4 = 0)
theorem hcond1_1 : ∀ t : Fin cfg1.N, cond1_1 (grid1.coords t) ↔ t.val % 4 = 3 :=
  (by decide +kernel : ∀ t : Fin grid1.N, cond1_1 (grid1.coords t) ↔ t.val % 4 = 3)

/-! ## Where the output window is idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
/-- Where `k ≠ 3` the body stores nothing into the output block and the pipeline does not write it back. -/
theorem idleAt1_3 : ∀ t : Fin cfg1.N, ¬cond1_1 (grid1.coords t) → cfg1.idle 3 (grid1.coords t) = true := by decide +kernel
theorem noFlush1_3 : ∀ t : Fin cfg1.N, ¬cond1_1 (grid1.coords t) → (cfg1.win 3).flush t = false := by decide +kernel
theorem liveAt1_3 : ∀ t : Fin cfg1.N, cond1_1 (grid1.coords t) → cfg1.idle 3 (grid1.coords t) = false := by decide +kernel

/-! ## The memrefs the body is called with -/

abbrev ms1_0 (t : Fin cfg1.N) : Memref sig .tc .vmem S1x1024x64 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x64x1024 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x1024x64 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x1024x64 .f32 := win1_3.stage (cfg1.slots t 3)
abbrev hs1_3 (t : Fin cfg1.N) : (ms1_3 t).IsWhole := hstage1_3 ((cfg1.slots t 3).cast nbuf1_3)
/-- The three carried buffers: running maximum, running denominator, running numerator. -/
abbrev scM : Memref sig .tc .vmem S1024x1 .f32 := Memref.whole cc1_scratch0
abbrev scL : Memref sig .tc .vmem S1024x1 .f32 := Memref.whole cc1_scratch1
abbrev scA : Memref sig .tc .vmem S1024x64 .f32 := Memref.whole cc1_scratch2
abbrev VM : View sig .tc .vmem S1024x1 .f32 := scM.view
abbrev VL : View sig .tc .vmem S1024x1 .f32 := scL.view
abbrev VA : View sig .tc .vmem S1024x64 .f32 := scA.view
/-- One staging buffer of the output window, through which its contents are stated. -/
abbrev VO : View sig .tc .vmem S1x1024x64 .f32 := (Memref.whole cc1_stg3_0 : Memref sig .tc .vmem S1x1024x64 .f32).view

/-- The projection stage's staging buffers, which this stage never touches: each whole at some contents. -/
def others (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg6_1), ((c : Thread nD τ).loc cc0_stg6_1) ↦{fullShare} f))

/-- The invariant with the carried buffers at contents nobody names: before a point with k = 0 (which resets them)
    and after a point with k = 3. -/
def PhiF (c : Dev nD) : sProp 𝕄 :=
  iprop(iprop(others (F := F) c ∗ (∃ d, owns (c : Thread nD τ) scM fullShare d) ∗ (∃ d, owns (c : Thread nD τ) scL fullShare d) ∗ (∃ d, owns (c : Thread nD τ) scA fullShare d)) ∗ (∃ r, prngReg c r))

/-- The invariant with the carried buffers at named contents. -/
def PhiN (c : Dev nD) (sm sl : Vec F S1024x1 .f32) (sa : Vec F S1024x64 .f32) : sProp 𝕄 :=
  iprop(iprop(others (F := F) c ∗ owns (c : Thread nD τ) scM fullShare sm ∗ owns (c : Thread nD τ) scL fullShare sl ∗ owns (c : Thread nD τ) scA fullShare sa) ∗ (∃ r, prngReg c r))

/-- What the launch hands the region is the unnamed form, -/
theorem PhiA1_split (c : Dev nD) : (Pipeline.ΦA spec1 c : sProp 𝕄) ⊢ PhiF (F := F) c := by
  unfold Pipeline.ΦA PhiF others; rw [scopedRest1_eq]; simp only [scM, scL, scA, owns_whole]
  iintro ⟨⟨R0, R1, R2, R3, R4, R5, R6, R7, R8, R9, R10, HM, HL, HA⟩, Hg⟩
  isplitr [Hg]
  · isplitr [HM HL HA]
    · isplitl [R0]; · iexact R0
      isplitl [R1]; · iexact R1
      isplitl [R2]; · iexact R2
      isplitl [R3]; · iexact R3
      isplitl [R4]; · iexact R4
      isplitl [R5]; · iexact R5
      isplitl [R6]; · iexact R6
      isplitl [R7]; · iexact R7
      isplitl [R8]; · iexact R8
      isplitl [R9]; · iexact R9
      iexact R10
    isplitl [HM]; · iexact HM
    isplitl [HL]; · iexact HL
    iexact HA
  iexact Hg

/-- and the unnamed form gives it back. -/
theorem PhiA1_join (c : Dev nD) : PhiF (F := F) c ⊢ (Pipeline.ΦA spec1 c : sProp 𝕄) := by
  unfold Pipeline.ΦA PhiF others; rw [scopedRest1_eq]; simp only [scM, scL, scA, owns_whole]
  iintro ⟨⟨⟨R0, R1, R2, R3, R4, R5, R6, R7, R8, R9, R10⟩, HM, HL, HA⟩, Hg⟩
  isplitr [Hg]
  · isplitl [R0]; · iexact R0
    isplitl [R1]; · iexact R1
    isplitl [R2]; · iexact R2
    isplitl [R3]; · iexact R3
    isplitl [R4]; · iexact R4
    isplitl [R5]; · iexact R5
    isplitl [R6]; · iexact R6
    isplitl [R7]; · iexact R7
    isplitl [R8]; · iexact R8
    isplitl [R9]; · iexact R9
    isplitl [R10]; · iexact R10
    isplitl [HM]; · iexact HM
    isplitl [HL]; · iexact HL
    iexact HA
  iexact Hg

/-! ## The three runs -/

set_option maxHeartbeats 4000000 in
/-- k = 0: the carried buffers at anything in; reset, then updated. The output block is handed back untouched. -/
noncomputable def runFirst (c : Dev nD) (i : grid1.Coords) (arg3 : Memref sig .tc .vmem S1x1024x64 .bf16) (harg3 : arg3.IsWhole) (arg4 : Memref sig .tc .vmem S1x64x1024 .bf16) (harg4 : arg4.IsWhole)
    (arg5 : Memref sig .tc .vmem S1x1024x64 .bf16) (harg5 : arg5.IsWhole) (arg6 : Memref sig .tc .vmem S1x1024x64 .f32) (harg6 : arg6.IsWhole)
    (arg7 : Memref sig .tc .vmem S1024x1 .f32) (harg7 : arg7.IsWhole) (arg8 : Memref sig .tc .vmem S1024x1 .f32) (harg8 : arg8.IsWhole)
    (arg9 : Memref sig .tc .vmem S1024x64 .f32) (harg9 : arg9.IsWhole) (hc0 : cond1_0 i) (hc1 : ¬cond1_1 i) (x0 : Vec F S1x1024x64 .bf16) (x1 : Vec F S1x64x1024 .bf16) (x2 : Vec F S1x1024x64 .bf16) :
    Σ' (LM LL : List (View.Piece (Elt F) S1024x1 .f32)), { LA : List (View.Piece (Elt F) S1024x64 .f32) //
      ∀ (xi3 : Vec F S1x1024x64 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3
            ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg3 fullShare x0 ∗ owns (c : Thread nD τ) arg4 fullShare x1 ∗ owns (c : Thread nD τ) arg5 fullShare x2 ∗ owns (c : Thread nD τ) arg6 fullShare xi3
                ∗ (∃ f, arg7.view.loc (c : Thread nD τ) ↦[arg7.view.set]{fullShare} arg7.view.writes (Elt F) f LM) ∗ (∃ f, arg8.view.loc (c : Thread nD τ) ↦[arg8.view.set]{fullShare} arg8.view.writes (Elt F) f LL) ∗ (∃ f, arg9.view.loc (c : Thread nD τ) ↦[arg9.view.set]{fullShare} arg9.view.writes (Elt F) f LA)) -∗ K ⟨⟩))
          ⊢ wp frame (wpE (defs₀ (F := F)) Variants.none c none) E (cc1_kernel i arg3 harg3 arg4 harg4 arg5 harg5 arg6 harg6 arg7 harg7 arg8 harg8 arg9 harg9) K } := by
  refine ⟨?_, ?_, ?_, fun xi3 E K => ?run⟩
  case run =>
    simp only [cc1_kernel_eq_skeleton]; unfold cc1_kernel_skel
    unfold owns
    iintro ⟨⟨%f0, %hf0, H0⟩, ⟨%f1, %hf1, H1⟩, ⟨%f2, %hf2, H2⟩, ⟨%f3, %hf3, H3⟩, ⟨%dm, %fm, -, HM⟩, ⟨%dl, %fl, -, HL⟩, ⟨%da, %fa, -, HA⟩, Hk⟩
    obtain rfl := harg3.eq_unread hf0; obtain rfl := harg4.eq_unread hf1; obtain rfl := harg5.eq_unread hf2; obtain rfl := harg6.eq_unread hf3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [HM]; · iexists _; iexact HM
    isplitl [HL]; · iexists _; iexact HL
    iexists _; iexact HA

set_option maxHeartbeats 4000000 in
/-- k = 1, 2: the carried buffers at what the point before left; updated. The output block is handed back untouched. -/
noncomputable def runMid (c : Dev nD) (i : grid1.Coords) (arg3 : Memref sig .tc .vmem S1x1024x64 .bf16) (harg3 : arg3.IsWhole) (arg4 : Memref sig .tc .vmem S1x64x1024 .bf16) (harg4 : arg4.IsWhole)
    (arg5 : Memref sig .tc .vmem S1x1024x64 .bf16) (harg5 : arg5.IsWhole) (arg6 : Memref sig .tc .vmem S1x1024x64 .f32) (harg6 : arg6.IsWhole)
    (arg7 : Memref sig .tc .vmem S1024x1 .f32) (harg7 : arg7.IsWhole) (arg8 : Memref sig .tc .vmem S1024x1 .f32) (harg8 : arg8.IsWhole)
    (arg9 : Memref sig .tc .vmem S1024x64 .f32) (harg9 : arg9.IsWhole) (hc0 : ¬cond1_0 i) (hc1 : ¬cond1_1 i) (x0 : Vec F S1x1024x64 .bf16) (x1 : Vec F S1x64x1024 .bf16) (x2 : Vec F S1x1024x64 .bf16) (xm xl : Vec F S1024x1 .f32) (xa : Vec F S1024x64 .f32) :
    Σ' (LM LL : List (View.Piece (Elt F) S1024x1 .f32)), { LA : List (View.Piece (Elt F) S1024x64 .f32) //
      ∀ (xi3 : Vec F S1x1024x64 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3
            ∗ owns (c : Thread nD τ) arg7 fullShare xm ∗ owns (c : Thread nD τ) arg8 fullShare xl ∗ owns (c : Thread nD τ) arg9 fullShare xa
            ∗ (iprop(owns (c : Thread nD τ) arg3 fullShare x0 ∗ owns (c : Thread nD τ) arg4 fullShare x1 ∗ owns (c : Thread nD τ) arg5 fullShare x2 ∗ owns (c : Thread nD τ) arg6 fullShare xi3
                ∗ (∃ f, arg7.view.loc (c : Thread nD τ) ↦[arg7.view.set]{fullShare} arg7.view.writes (Elt F) f LM) ∗ (∃ f, arg8.view.loc (c : Thread nD τ) ↦[arg8.view.set]{fullShare} arg8.view.writes (Elt F) f LL) ∗ (∃ f, arg9.view.loc (c : Thread nD τ) ↦[arg9.view.set]{fullShare} arg9.view.writes (Elt F) f LA)) -∗ K ⟨⟩))
          ⊢ wp frame (wpE (defs₀ (F := F)) Variants.none c none) E (cc1_kernel i arg3 harg3 arg4 harg4 arg5 harg5 arg6 harg6 arg7 harg7 arg8 harg8 arg9 harg9) K } := by
  refine ⟨?_, ?_, ?_, fun xi3 E K => ?run⟩
  case run =>
    simp only [cc1_kernel_eq_skeleton]; unfold cc1_kernel_skel
    unfold owns
    iintro ⟨⟨%f0, %hf0, H0⟩, ⟨%f1, %hf1, H1⟩, ⟨%f2, %hf2, H2⟩, ⟨%f3, %hf3, H3⟩, ⟨%fm, %hfm, HM⟩, ⟨%fl, %hfl, HL⟩, ⟨%fa, %hfa, HA⟩, Hk⟩
    obtain rfl := harg3.eq_unread hf0; obtain rfl := harg4.eq_unread hf1; obtain rfl := harg5.eq_unread hf2; obtain rfl := harg6.eq_unread hf3
    obtain rfl := harg7.eq_unread hfm; obtain rfl := harg8.eq_unread hfl; obtain rfl := harg9.eq_unread hfa
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [HM]; · iexists _; iexact HM
    isplitl [HL]; · iexists _; iexact HL
    iexists _; iexact HA

set_option maxHeartbeats 4000000 in
/-- k = 3: the carried buffers at what the point before left; updated, and the output block stored. -/
noncomputable def runLast (c : Dev nD) (i : grid1.Coords) (arg3 : Memref sig .tc .vmem S1x1024x64 .bf16) (harg3 : arg3.IsWhole) (arg4 : Memref sig .tc .vmem S1x64x1024 .bf16) (harg4 : arg4.IsWhole)
    (arg5 : Memref sig .tc .vmem S1x1024x64 .bf16) (harg5 : arg5.IsWhole) (arg6 : Memref sig .tc .vmem S1x1024x64 .f32) (harg6 : arg6.IsWhole)
    (arg7 : Memref sig .tc .vmem S1024x1 .f32) (harg7 : arg7.IsWhole) (arg8 : Memref sig .tc .vmem S1024x1 .f32) (harg8 : arg8.IsWhole)
    (arg9 : Memref sig .tc .vmem S1024x64 .f32) (harg9 : arg9.IsWhole) (hc0 : ¬cond1_0 i) (hc1 : cond1_1 i) (x0 : Vec F S1x1024x64 .bf16) (x1 : Vec F S1x64x1024 .bf16) (x2 : Vec F S1x1024x64 .bf16) (xm xl : Vec F S1024x1 .f32) (xa : Vec F S1024x64 .f32) :
    Σ' (LO : List (View.Piece (Elt F) S1x1024x64 .f32)) (LM LL : List (View.Piece (Elt F) S1024x1 .f32)), { LA : List (View.Piece (Elt F) S1024x64 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d)
            ∗ owns (c : Thread nD τ) arg7 fullShare xm ∗ owns (c : Thread nD τ) arg8 fullShare xl ∗ owns (c : Thread nD τ) arg9 fullShare xa
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f LO)
                ∗ (∃ f, arg7.view.loc (c : Thread nD τ) ↦[arg7.view.set]{fullShare} arg7.view.writes (Elt F) f LM) ∗ (∃ f, arg8.view.loc (c : Thread nD τ) ↦[arg8.view.set]{fullShare} arg8.view.writes (Elt F) f LL) ∗ (∃ f, arg9.view.loc (c : Thread nD τ) ↦[arg9.view.set]{fullShare} arg9.view.writes (Elt F) f LA)) -∗ K ⟨⟩))
          ⊢ wp frame (wpE (defs₀ (F := F)) Variants.none c none) E (cc1_kernel i arg3 harg3 arg4 harg4 arg5 harg5 arg6 harg6 arg7 harg7 arg8 harg8 arg9 harg9) K } := by
  refine ⟨?_, ?_, ?_, ?_, fun E K => ?run⟩
  case run =>
    simp only [cc1_kernel_eq_skeleton]; unfold cc1_kernel_skel
    unfold owns
    iintro ⟨⟨%f0, %hf0, H0⟩, ⟨%f1, %hf1, H1⟩, ⟨%f2, %hf2, H2⟩, ⟨%d3, %f3, -, H3⟩, ⟨%fm, %hfm, HM⟩, ⟨%fl, %hfl, HL⟩, ⟨%fa, %hfa, HA⟩, Hk⟩
    obtain rfl := harg3.eq_unread hf0; obtain rfl := harg4.eq_unread hf1; obtain rfl := harg5.eq_unread hf2
    obtain rfl := harg7.eq_unread hfm; obtain rfl := harg8.eq_unread hfl; obtain rfl := harg9.eq_unread hfa
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    isplitl [HM]; · iexists _; iexact HM
    isplitl [HL]; · iexists _; iexact HL
    iexists _; iexact HA

end Cert.Kernel.Frame

end
-- ==== Proof.KRegion1.lean ====
/-
  The attention stage as one pipelined region of 64 grid points (batch b, query block i, key block k; k the
  fastest). What the three carried buffers — running maximum, running denominator, running numerator — and the
  output block hold after each point, by recursion on the point: at k = 0 the body's run from reset buffers, at
  k = 1, 2 its run from what the point before left, at k = 3 the same and the output block stored. Then the
  pipeline's proof data (the invariant names the carried contents between points), the body obligation at every
  point, and how the invariant starts and ends.
-/
import proofs.«162099_j9010841387309_2_alg».proof.Proof.KRegion1Runs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, whether the point fetches it or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## What each run leaves: its pieces read back -/

section Pieces
variable (c : Dev nD) (i : grid1.Coords) (arg3 : Memref sig .tc .vmem S1x1024x64 .bf16) (harg3 : arg3.IsWhole) (arg4 : Memref sig .tc .vmem S1x64x1024 .bf16) (harg4 : arg4.IsWhole)
    (arg5 : Memref sig .tc .vmem S1x1024x64 .bf16) (harg5 : arg5.IsWhole) (arg6 : Memref sig .tc .vmem S1x1024x64 .f32) (harg6 : arg6.IsWhole)
    (arg7 : Memref sig .tc .vmem S1024x1 .f32) (harg7 : arg7.IsWhole) (arg8 : Memref sig .tc .vmem S1024x1 .f32) (harg8 : arg8.IsWhole)
    (arg9 : Memref sig .tc .vmem S1024x64 .f32) (harg9 : arg9.IsWhole) (x0 : Vec F S1x1024x64 .bf16) (x1 : Vec F S1x64x1024 .bf16) (x2 : Vec F S1x1024x64 .bf16)

def mFirst (hc0 : cond1_0 i) (hc1 : ¬cond1_1 i) : Vec F S1024x1 .f32 :=
  VM.read (Elt F) (VM.writes (Elt F) VM.junk (runFirst c i arg3 harg3 arg4 harg4 arg5 harg5 arg6 harg6 arg7 harg7 arg8 harg8 arg9 harg9 hc0 hc1 x0 x1 x2).1)
def lFirst (hc0 : cond1_0 i) (hc1 : ¬cond1_1 i) : Vec F S1024x1 .f32 :=
  VL.read (Elt F) (VL.writes (Elt F) VL.junk (runFirst c i arg3 harg3 arg4 harg4 arg5 harg5 arg6 harg6 arg7 harg7 arg8 harg8 arg9 harg9 hc0 hc1 x0 x1 x2).2.1)
def aFirst (hc0 : cond1_0 i) (hc1 : ¬cond1_1 i) : Vec F S1024x64 .f32 :=
  VA.read (Elt F) (VA.writes (Elt F) VA.junk (runFirst c i arg3 harg3 arg4 harg4 arg5 harg5 arg6 harg6 arg7 harg7 arg8 harg8 arg9 harg9 hc0 hc1 x0 x1 x2).2.2.1)
theorem mcoverFirst (hc0 : cond1_0 i) (hc1 : ¬cond1_1 i) (y : S1024x1.Idx) :
    ∃ pc ∈ (runFirst c i arg3 harg3 arg4 harg4 arg5 harg5 arg6 harg6 arg7 harg7 arg8 harg8 arg9 harg9 hc0 hc1 x0 x1 x2).1, y ∈ pc.1.set :=
  View.cover_of_tiledL (runFirst c i arg3 harg3 arg4 harg4 arg5 harg5 arg6 harg6 arg7 harg7 arg8 harg8 arg9 harg9 hc0 hc1 x0 x1 x2).1 S1024x1.size (by sl_kernel_rfl) y
theorem lcoverFirst (hc0 : cond1_0 i) (hc1 : ¬cond1_1 i) (y : S1024x1.Idx) :
    ∃ pc ∈ (runFirst c i arg3 harg3 arg4 harg4 arg5 harg5 arg6 harg6 arg7 harg7 arg8 harg8 arg9 harg9 hc0 hc1 x0 x1 x2).2.1, y ∈ pc.1.set :=
  View.cover_of_tiledL (runFirst c i arg3 harg3 arg4 harg4 arg5 harg5 arg6 harg6 arg7 harg7 arg8 harg8 arg9 harg9 hc0 hc1 x0 x1 x2).2.1 S1024x1.size (by sl_kernel_rfl) y
theorem acoverFirst (hc0 : cond1_0 i) (hc1 : ¬cond1_1 i) (y : S1024x64.Idx) :
    ∃ pc ∈ (runFirst c i arg3 harg3 arg4 harg4 arg5 harg5 arg6 harg6 arg7 harg7 arg8 harg8 arg9 harg9 hc0 hc1 x0 x1 x2).2.2.1, y ∈ pc.1.set :=
  View.cover_of_tiledL (runFirst c i arg3 harg3 arg4 harg4 arg5 harg5 arg6 harg6 arg7 harg7 arg8 harg8 arg9 harg9 hc0 hc1 x0 x1 x2).2.2.1 S1024x64.size (by sl_kernel_rfl) y

variable (xm xl : Vec F S1024x1 .f32) (xa : Vec F S1024x64 .f32)

def mMid (hc0 : ¬cond1_0 i) (hc1 : ¬cond1_1 i) : Vec F S1024x1 .f32 :=
  VM.read (Elt F) (VM.writes (Elt F) VM.junk (runMid c i arg3 harg3 arg4 harg4 arg5 harg5 arg6 harg6 arg7 harg7 arg8 harg8 arg9 harg9 hc0 hc1 x0 x1 x2 xm xl xa).1)
def lMid (hc0 : ¬cond1_0 i) (hc1 : ¬cond1_1 i) : Vec F S1024x1 .f32 :=
  VL.read (Elt F) (VL.writes (Elt F) VL.junk (runMid c i arg3 harg3 arg4 harg4 arg5 harg5 arg6 harg6 arg7 harg7 arg8 harg8 arg9 harg9 hc0 hc1 x0 x1 x2 xm xl xa).2.1)
def aMid (hc0 : ¬cond1_0 i) (hc1 : ¬cond1_1 i) : Vec F S1024x64 .f32 :=
  VA.read (Elt F) (VA.writes (Elt F) VA.junk (runMid c i arg3 harg3 arg4 harg4 arg5 harg5 arg6 harg6 arg7 harg7 arg8 harg8 arg9 harg9 hc0 hc1 x0 x1 x2 xm xl xa).2.2.1)
theorem mcoverMid (hc0 : ¬cond1_0 i) (hc1 : ¬cond1_1 i) (y : S1024x1.Idx) :
    ∃ pc ∈ (runMid c i arg3 harg3 arg4 harg4 arg5 harg5 arg6 harg6 arg7 harg7 arg8 harg8 arg9 harg9 hc0 hc1 x0 x1 x2 xm xl xa).1, y ∈ pc.1.set :=
  View.cover_of_tiledL (runMid c i arg3 harg3 arg4 harg4 arg5 harg5 arg6 harg6 arg7 harg7 arg8 harg8 arg9 harg9 hc0 hc1 x0 x1 x2 xm xl xa).1 S1024x1.size (by sl_kernel_rfl) y
theorem lcoverMid (hc0 : ¬cond1_0 i) (hc1 : ¬cond1_1 i) (y : S1024x1.Idx) :
    ∃ pc ∈ (runMid c i arg3 harg3 arg4 harg4 arg5 harg5 arg6 harg6 arg7 harg7 arg8 harg8 arg9 harg9 hc0 hc1 x0 x1 x2 xm xl xa).2.1, y ∈ pc.1.set :=
  View.cover_of_tiledL (runMid c i arg3 harg3 arg4 harg4 arg5 harg5 arg6 harg6 arg7 harg7 arg8 harg8 arg9 harg9 hc0 hc1 x0 x1 x2 xm xl xa).2.1 S1024x1.size (by sl_kernel_rfl) y
theorem acoverMid (hc0 : ¬cond1_0 i) (hc1 : ¬cond1_1 i) (y : S1024x64.Idx) :
    ∃ pc ∈ (runMid c i arg3 harg3 arg4 harg4 arg5 harg5 arg6 harg6 arg7 harg7 arg8 harg8 arg9 harg9 hc0 hc1 x0 x1 x2 xm xl xa).2.2.1, y ∈ pc.1.set :=
  View.cover_of_tiledL (runMid c i arg3 harg3 arg4 harg4 arg5 harg5 arg6 harg6 arg7 harg7 arg8 harg8 arg9 harg9 hc0 hc1 x0 x1 x2 xm xl xa).2.2.1 S1024x64.size (by sl_kernel_rfl) y

def oLast (hc0 : ¬cond1_0 i) (hc1 : cond1_1 i) : Vec F S1x1024x64 .f32 :=
  VO.read (Elt F) (VO.writes (Elt F) VO.junk (runLast c i arg3 harg3 arg4 harg4 arg5 harg5 arg6 harg6 arg7 harg7 arg8 harg8 arg9 harg9 hc0 hc1 x0 x1 x2 xm xl xa).1)
def mLast (hc0 : ¬cond1_0 i) (hc1 : cond1_1 i) : Vec F S1024x1 .f32 :=
  VM.read (Elt F) (VM.writes (Elt F) VM.junk (runLast c i arg3 harg3 arg4 harg4 arg5 harg5 arg6 harg6 arg7 harg7 arg8 harg8 arg9 harg9 hc0 hc1 x0 x1 x2 xm xl xa).2.1)
def lLast (hc0 : ¬cond1_0 i) (hc1 : cond1_1 i) : Vec F S1024x1 .f32 :=
  VL.read (Elt F) (VL.writes (Elt F) VL.junk (runLast c i arg3 harg3 arg4 harg4 arg5 harg5 arg6 harg6 arg7 harg7 arg8 harg8 arg9 harg9 hc0 hc1 x0 x1 x2 xm xl xa).2.2.1)
def aLast (hc0 : ¬cond1_0 i) (hc1 : cond1_1 i) : Vec F S1024x64 .f32 :=
  VA.read (Elt F) (VA.writes (Elt F) VA.junk (runLast c i arg3 harg3 arg4 harg4 arg5 harg5 arg6 harg6 arg7 harg7 arg8 harg8 arg9 harg9 hc0 hc1 x0 x1 x2 xm xl xa).2.2.2.1)
theorem ocoverLast (hc0 : ¬cond1_0 i) (hc1 : cond1_1 i) (y : S1x1024x64.Idx) :
    ∃ pc ∈ (runLast c i arg3 harg3 arg4 harg4 arg5 harg5 arg6 harg6 arg7 harg7 arg8 harg8 arg9 harg9 hc0 hc1 x0 x1 x2 xm xl xa).1, y ∈ pc.1.set :=
  View.cover_of_tiledL (runLast c i arg3 harg3 arg4 harg4 arg5 harg5 arg6 harg6 arg7 harg7 arg8 harg8 arg9 harg9 hc0 hc1 x0 x1 x2 xm xl xa).1 S1x1024x64.size (by sl_kernel_rfl) y

end Pieces

/-! ## What the buffers hold after each point -/

/-- After the body at position `n`: (the output block's buffer, running maximum, running denominator, running
    numerator). Where `k ≠ 3` the output component is a placeholder nothing consults (the window is idle there and
    not written back). -/
def stAt (c : Dev nD) : (n : ℕ) → n < cfg1.N → Vec F S1x1024x64 .f32 × Vec F S1024x1 .f32 × Vec F S1024x1 .f32 × Vec F S1024x64 .f32
  | 0, hn =>
    have hc0 : cond1_0 (grid1.coords ⟨0, hn⟩) := (hcond1_0 ⟨0, hn⟩).mpr (Nat.zero_mod _)
    have hc1 : ¬cond1_1 (grid1.coords ⟨0, hn⟩) := fun h => (fun h => by (try dsimp only at h); omega) ((hcond1_1 ⟨0, hn⟩).mp h)
    (VO.read (Elt F) VO.junk,
      mFirst c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM (Memref.isWhole_whole _) scL (Memref.isWhole_whole _) scA (Memref.isWhole_whole _) (iblk1 V c 0 ⟨0, hn⟩) (iblk1 V c 1 ⟨0, hn⟩) (iblk1 V c 2 ⟨0, hn⟩) hc0 hc1,
      lFirst c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM (Memref.isWhole_whole _) scL (Memref.isWhole_whole _) scA (Memref.isWhole_whole _) (iblk1 V c 0 ⟨0, hn⟩) (iblk1 V c 1 ⟨0, hn⟩) (iblk1 V c 2 ⟨0, hn⟩) hc0 hc1,
      aFirst c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM (Memref.isWhole_whole _) scL (Memref.isWhole_whole _) scA (Memref.isWhole_whole _) (iblk1 V c 0 ⟨0, hn⟩) (iblk1 V c 1 ⟨0, hn⟩) (iblk1 V c 2 ⟨0, hn⟩) hc0 hc1)
  | n + 1, hn =>
    if h0 : (n + 1) % 4 = 0 then
      have hc0 : cond1_0 (grid1.coords ⟨n + 1, hn⟩) := (hcond1_0 ⟨n + 1, hn⟩).mpr h0
      have hc1 : ¬cond1_1 (grid1.coords ⟨n + 1, hn⟩) := fun h => (fun h => by (try dsimp only at h); omega) ((hcond1_1 ⟨n + 1, hn⟩).mp h)
      (VO.read (Elt F) VO.junk,
        mFirst c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM (Memref.isWhole_whole _) scL (Memref.isWhole_whole _) scA (Memref.isWhole_whole _) (iblk1 V c 0 ⟨n + 1, hn⟩) (iblk1 V c 1 ⟨n + 1, hn⟩) (iblk1 V c 2 ⟨n + 1, hn⟩) hc0 hc1,
        lFirst c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM (Memref.isWhole_whole _) scL (Memref.isWhole_whole _) scA (Memref.isWhole_whole _) (iblk1 V c 0 ⟨n + 1, hn⟩) (iblk1 V c 1 ⟨n + 1, hn⟩) (iblk1 V c 2 ⟨n + 1, hn⟩) hc0 hc1,
        aFirst c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM (Memref.isWhole_whole _) scL (Memref.isWhole_whole _) scA (Memref.isWhole_whole _) (iblk1 V c 0 ⟨n + 1, hn⟩) (iblk1 V c 1 ⟨n + 1, hn⟩) (iblk1 V c 2 ⟨n + 1, hn⟩) hc0 hc1)
    else if h1 : (n + 1) % 4 = 3 then
      have hc0 : ¬cond1_0 (grid1.coords ⟨n + 1, hn⟩) := fun h => h0 ((hcond1_0 ⟨n + 1, hn⟩).mp h)
      have hc1 : cond1_1 (grid1.coords ⟨n + 1, hn⟩) := (hcond1_1 ⟨n + 1, hn⟩).mpr h1
      (oLast c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM (Memref.isWhole_whole _) scL (Memref.isWhole_whole _) scA (Memref.isWhole_whole _) (iblk1 V c 0 ⟨n + 1, hn⟩) (iblk1 V c 1 ⟨n + 1, hn⟩) (iblk1 V c 2 ⟨n + 1, hn⟩) (stAt c n (Nat.lt_of_succ_lt hn)).2.1 (stAt c n (Nat.lt_of_succ_lt hn)).2.2.1 (stAt c n (Nat.lt_of_succ_lt hn)).2.2.2 hc0 hc1,
        mLast c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM (Memref.isWhole_whole _) scL (Memref.isWhole_whole _) scA (Memref.isWhole_whole _) (iblk1 V c 0 ⟨n + 1, hn⟩) (iblk1 V c 1 ⟨n + 1, hn⟩) (iblk1 V c 2 ⟨n + 1, hn⟩) (stAt c n (Nat.lt_of_succ_lt hn)).2.1 (stAt c n (Nat.lt_of_succ_lt hn)).2.2.1 (stAt c n (Nat.lt_of_succ_lt hn)).2.2.2 hc0 hc1,
        lLast c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM (Memref.isWhole_whole _) scL (Memref.isWhole_whole _) scA (Memref.isWhole_whole _) (iblk1 V c 0 ⟨n + 1, hn⟩) (iblk1 V c 1 ⟨n + 1, hn⟩) (iblk1 V c 2 ⟨n + 1, hn⟩) (stAt c n (Nat.lt_of_succ_lt hn)).2.1 (stAt c n (Nat.lt_of_succ_lt hn)).2.2.1 (stAt c n (Nat.lt_of_succ_lt hn)).2.2.2 hc0 hc1,
        aLast c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM (Memref.isWhole_whole _) scL (Memref.isWhole_whole _) scA (Memref.isWhole_whole _) (iblk1 V c 0 ⟨n + 1, hn⟩) (iblk1 V c 1 ⟨n + 1, hn⟩) (iblk1 V c 2 ⟨n + 1, hn⟩) (stAt c n (Nat.lt_of_succ_lt hn)).2.1 (stAt c n (Nat.lt_of_succ_lt hn)).2.2.1 (stAt c n (Nat.lt_of_succ_lt hn)).2.2.2 hc0 hc1)
    else
      have hc0 : ¬cond1_0 (grid1.coords ⟨n + 1, hn⟩) := fun h => h0 ((hcond1_0 ⟨n + 1, hn⟩).mp h)
      have hc1 : ¬cond1_1 (grid1.coords ⟨n + 1, hn⟩) := fun h => h1 ((hcond1_1 ⟨n + 1, hn⟩).mp h)
      (VO.read (Elt F) VO.junk,
        mMid c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM (Memref.isWhole_whole _) scL (Memref.isWhole_whole _) scA (Memref.isWhole_whole _) (iblk1 V c 0 ⟨n + 1, hn⟩) (iblk1 V c 1 ⟨n + 1, hn⟩) (iblk1 V c 2 ⟨n + 1, hn⟩) (stAt c n (Nat.lt_of_succ_lt hn)).2.1 (stAt c n (Nat.lt_of_succ_lt hn)).2.2.1 (stAt c n (Nat.lt_of_succ_lt hn)).2.2.2 hc0 hc1,
        lMid c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM (Memref.isWhole_whole _) scL (Memref.isWhole_whole _) scA (Memref.isWhole_whole _) (iblk1 V c 0 ⟨n + 1, hn⟩) (iblk1 V c 1 ⟨n + 1, hn⟩) (iblk1 V c 2 ⟨n + 1, hn⟩) (stAt c n (Nat.lt_of_succ_lt hn)).2.1 (stAt c n (Nat.lt_of_succ_lt hn)).2.2.1 (stAt c n (Nat.lt_of_succ_lt hn)).2.2.2 hc0 hc1,
        aMid c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM (Memref.isWhole_whole _) scL (Memref.isWhole_whole _) scA (Memref.isWhole_whole _) (iblk1 V c 0 ⟨n + 1, hn⟩) (iblk1 V c 1 ⟨n + 1, hn⟩) (iblk1 V c 2 ⟨n + 1, hn⟩) (stAt c n (Nat.lt_of_succ_lt hn)).2.1 (stAt c n (Nat.lt_of_succ_lt hn)).2.2.1 (stAt c n (Nat.lt_of_succ_lt hn)).2.2.2 hc0 hc1)

/-- The previous position of a point that is not the first. -/
abbrev prevLt (t : Fin cfg1.N) : t.val - 1 < cfg1.N := Nat.lt_of_le_of_lt (Nat.sub_le _ _) t.isLt

/-- `stAt` at a point with k = 0. -/
theorem stAt_first (c : Dev nD) (t : Fin cfg1.N) (h0 : t.val % 4 = 0) :
    stAt V c t.val t.isLt = (VO.read (Elt F) VO.junk,
      mFirst c (grid1.coords t) (ms1_0 t) (hs1_0 t) (ms1_1 t) (hs1_1 t) (ms1_2 t) (hs1_2 t) (ms1_3 t) (hs1_3 t) scM (Memref.isWhole_whole _) scL (Memref.isWhole_whole _) scA (Memref.isWhole_whole _) (iblk1 V c 0 t) (iblk1 V c 1 t) (iblk1 V c 2 t) ((hcond1_0 t).mpr h0) (fun h => by have := (hcond1_1 t).mp h; omega),
      lFirst c (grid1.coords t) (ms1_0 t) (hs1_0 t) (ms1_1 t) (hs1_1 t) (ms1_2 t) (hs1_2 t) (ms1_3 t) (hs1_3 t) scM (Memref.isWhole_whole _) scL (Memref.isWhole_whole _) scA (Memref.isWhole_whole _) (iblk1 V c 0 t) (iblk1 V c 1 t) (iblk1 V c 2 t) ((hcond1_0 t).mpr h0) (fun h => by have := (hcond1_1 t).mp h; omega),
      aFirst c (grid1.coords t) (ms1_0 t) (hs1_0 t) (ms1_1 t) (hs1_1 t) (ms1_2 t) (hs1_2 t) (ms1_3 t) (hs1_3 t) scM (Memref.isWhole_whole _) scL (Memref.isWhole_whole _) scA (Memref.isWhole_whole _) (iblk1 V c 0 t) (iblk1 V c 1 t) (iblk1 V c 2 t) ((hcond1_0 t).mpr h0) (fun h => by have := (hcond1_1 t).mp h; omega)) := by
  obtain ⟨n, hn⟩ := t
  cases n with
  | zero => exact rfl
  | succ n => exact (dif_pos h0).trans rfl

/-- `stAt` at a point with k = 1, 2: over what the point before left. -/
theorem stAt_mid (c : Dev nD) (t : Fin cfg1.N) (h0 : ¬t.val % 4 = 0) (h1 : ¬t.val % 4 = 3) :
    stAt V c t.val t.isLt = (VO.read (Elt F) VO.junk,
      mMid c (grid1.coords t) (ms1_0 t) (hs1_0 t) (ms1_1 t) (hs1_1 t) (ms1_2 t) (hs1_2 t) (ms1_3 t) (hs1_3 t) scM (Memref.isWhole_whole _) scL (Memref.isWhole_whole _) scA (Memref.isWhole_whole _) (iblk1 V c 0 t) (iblk1 V c 1 t) (iblk1 V c 2 t) (stAt V c (t.val - 1) (prevLt t)).2.1 (stAt V c (t.val - 1) (prevLt t)).2.2.1 (stAt V c (t.val - 1) (prevLt t)).2.2.2 (fun h => h0 ((hcond1_0 t).mp h)) (fun h => h1 ((hcond1_1 t).mp h)),
      lMid c (grid1.coords t) (ms1_0 t) (hs1_0 t) (ms1_1 t) (hs1_1 t) (ms1_2 t) (hs1_2 t) (ms1_3 t) (hs1_3 t) scM (Memref.isWhole_whole _) scL (Memref.isWhole_whole _) scA (Memref.isWhole_whole _) (iblk1 V c 0 t) (iblk1 V c 1 t) (iblk1 V c 2 t) (stAt V c (t.val - 1) (prevLt t)).2.1 (stAt V c (t.val - 1) (prevLt t)).2.2.1 (stAt V c (t.val - 1) (prevLt t)).2.2.2 (fun h => h0 ((hcond1_0 t).mp h)) (fun h => h1 ((hcond1_1 t).mp h)),
      aMid c (grid1.coords t) (ms1_0 t) (hs1_0 t) (ms1_1 t) (hs1_1 t) (ms1_2 t) (hs1_2 t) (ms1_3 t) (hs1_3 t) scM (Memref.isWhole_whole _) scL (Memref.isWhole_whole _) scA (Memref.isWhole_whole _) (iblk1 V c 0 t) (iblk1 V c 1 t) (iblk1 V c 2 t) (stAt V c (t.val - 1) (prevLt t)).2.1 (stAt V c (t.val - 1) (prevLt t)).2.2.1 (stAt V c (t.val - 1) (prevLt t)).2.2.2 (fun h => h0 ((hcond1_0 t).mp h)) (fun h => h1 ((hcond1_1 t).mp h))) := by
  obtain ⟨n, hn⟩ := t
  cases n with
  | zero => exact (by exfalso; (try dsimp only at h0); exact absurd (Nat.zero_mod _) h0)
  | succ n => exact (dif_neg h0).trans ((dif_neg h1).trans rfl)

/-- `stAt` at a point with k = 3: over what the point before left. -/
theorem stAt_last (c : Dev nD) (t : Fin cfg1.N) (h0 : ¬t.val % 4 = 0) (h1 : t.val % 4 = 3) :
    stAt V c t.val t.isLt = (
      oLast c (grid1.coords t) (ms1_0 t) (hs1_0 t) (ms1_1 t) (hs1_1 t) (ms1_2 t) (hs1_2 t) (ms1_3 t) (hs1_3 t) scM (Memref.isWhole_whole _) scL (Memref.isWhole_whole _) scA (Memref.isWhole_whole _) (iblk1 V c 0 t) (iblk1 V c 1 t) (iblk1 V c 2 t) (stAt V c (t.val - 1) (prevLt t)).2.1 (stAt V c (t.val - 1) (prevLt t)).2.2.1 (stAt V c (t.val - 1) (prevLt t)).2.2.2 (fun h => h0 ((hcond1_0 t).mp h)) ((hcond1_1 t).mpr h1),
      mLast c (grid1.coords t) (ms1_0 t) (hs1_0 t) (ms1_1 t) (hs1_1 t) (ms1_2 t) (hs1_2 t) (ms1_3 t) (hs1_3 t) scM (Memref.isWhole_whole _) scL (Memref.isWhole_whole _) scA (Memref.isWhole_whole _) (iblk1 V c 0 t) (iblk1 V c 1 t) (iblk1 V c 2 t) (stAt V c (t.val - 1) (prevLt t)).2.1 (stAt V c (t.val - 1) (prevLt t)).2.2.1 (stAt V c (t.val - 1) (prevLt t)).2.2.2 (fun h => h0 ((hcond1_0 t).mp h)) ((hcond1_1 t).mpr h1),
      lLast c (grid1.coords t) (ms1_0 t) (hs1_0 t) (ms1_1 t) (hs1_1 t) (ms1_2 t) (hs1_2 t) (ms1_3 t) (hs1_3 t) scM (Memref.isWhole_whole _) scL (Memref.isWhole_whole _) scA (Memref.isWhole_whole _) (iblk1 V c 0 t) (iblk1 V c 1 t) (iblk1 V c 2 t) (stAt V c (t.val - 1) (prevLt t)).2.1 (stAt V c (t.val - 1) (prevLt t)).2.2.1 (stAt V c (t.val - 1) (prevLt t)).2.2.2 (fun h => h0 ((hcond1_0 t).mp h)) ((hcond1_1 t).mpr h1),
      aLast c (grid1.coords t) (ms1_0 t) (hs1_0 t) (ms1_1 t) (hs1_1 t) (ms1_2 t) (hs1_2 t) (ms1_3 t) (hs1_3 t) scM (Memref.isWhole_whole _) scL (Memref.isWhole_whole _) scA (Memref.isWhole_whole _) (iblk1 V c 0 t) (iblk1 V c 1 t) (iblk1 V c 2 t) (stAt V c (t.val - 1) (prevLt t)).2.1 (stAt V c (t.val - 1) (prevLt t)).2.2.1 (stAt V c (t.val - 1) (prevLt t)).2.2.2 (fun h => h0 ((hcond1_0 t).mp h)) ((hcond1_1 t).mpr h1)) := by
  obtain ⟨n, hn⟩ := t
  cases n with
  | zero => exact (by exfalso; (try dsimp only at h0); exact absurd (Nat.zero_mod _) h0)
  | succ n => exact (dif_neg h0).trans ((dif_pos h1).trans rfl)

/-! ## The invariant between points -/

/-- Before position `n`: where `n` is a multiple of 4 (a point with k = 0 follows, or the region is over) the
    carried buffers at anything; elsewhere at what the point before left. -/
def Phi1 (c : Dev nD) (n : ℕ) (hn : n ≤ cfg1.N) : sProp 𝕄 :=
  if h : n % 4 = 0 then PhiF (F := F) c
  else PhiN c (stAt V c (n - 1) (by omega)).2.1 (stAt V c (n - 1) (by omega)).2.2.1 (stAt V c (n - 1) (by omega)).2.2.2

theorem Phi1_zero (c : Dev nD) (n : ℕ) (hn : n ≤ cfg1.N) (h : n % 4 = 0) : Phi1 V c n hn = PhiF (F := F) c := dif_pos h
theorem Phi1_pos (c : Dev nD) (n : ℕ) (hn : n ≤ cfg1.N) (h : ¬n % 4 = 0) :
    Phi1 V c n hn = PhiN c (stAt V c (n - 1) (by omega)).2.1 (stAt V c (n - 1) (by omega)).2.2.1 (stAt V c (n - 1) (by omega)).2.2.2 := dif_neg h

/-! ## The pipeline's proof data -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (stAt V c t.val t.isLt).1
  Φ t := Phi1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem Phi1_castSucc (c : Dev nD) (t : Fin cfg1.N) :
    (dat1 V c).Φ t.castSucc = Phi1 V c t.val (Nat.le_of_lt t.isLt) := by
  dsimp only [dat1]; simp only [Fin.coe_castSucc]
theorem Phi1_succ (c : Dev nD) (t : Fin cfg1.N) :
    (dat1 V c).Φ t.succ = Phi1 V c (t.val + 1) t.isLt := rfl

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (stAt V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 8000000 in
/-- The body at any point: the inputs' memrefs hold their blocks; `k` decides which run applies; the invariant hands
    the body the carried buffers (at anything where k = 0, at what the point before left elsewhere) and takes them
    back at this point's contents (unnamed after k = 3); the projection stage's buffers and the generator register ride
    along; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [Phi1_succ, Phi1_castSucc]
  have hN : t.val < 64 := lt_of_lt_of_eq t.isLt (show cfg1.N = 64 from N_1)
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  by_cases h0 : t.val % 4 = 0
  · have h1 : ¬t.val % 4 = 3 := by omega
    rw [Dat.leavesExact_idle (dat1 V c) 3 t (idleAt1_3 t (fun h => h1 ((hcond1_1 t).mp h))) (noFlush1_3 t (fun h => h1 ((hcond1_1 t).mp h)))]
    rw [Phi1_zero V c _ _ h0, Phi1_pos V c (t.val + 1) _ (by omega)]
    simp only [Nat.add_sub_cancel]
    rw [stAt_first V c t h0]
    unfold PhiF PhiN mFirst lFirst aFirst; (try dsimp only)
    iintro ⟨⟨⟨HR, HM, HL, HA⟩, Hg⟩, Ho, ⟨%d0, H0⟩, ⟨%d1, H1⟩, ⟨%d2, H2⟩, ⟨%d3, H3⟩⟩
    iapply ((runFirst c (grid1.coords t) _ _ _ _ _ _ _ _ _ _ _ _ _ _ ((hcond1_0 t).mpr h0) (fun h => h1 ((hcond1_1 t).mp h)) (iblk1 V c 0 t) (iblk1 V c 1 t) (iblk1 V c 2 t)).2.2.2 _ Set.univ _)
    isplitl [H0]; · iexact H0
    isplitl [H1]; · iexact H1
    isplitl [H2]; · iexact H2
    isplitl [H3]; · iexact H3
    isplitl [HM]; · iexact HM
    isplitl [HL]; · iexact HL
    isplitl [HA]; · iexact HA
    iintro ⟨H0, H1, H2, H3, ⟨%em, HM⟩, ⟨%el, HL⟩, ⟨%ea, HA⟩⟩
    isplitl [HR HM HL HA Hg]
    · isplitr [Hg]
      · isplitl [HR]; · iexact HR
        isplitl [HM]
        · unfold owns; iexists _; isplitr
          swap; · iexact HM
          ipureintro; exact View.read_writes_of_cover _ _ _ _ _ (mcoverFirst c _ _ _ _ _ _ _ _ _ _ _ _ _ _ _ _ _ _ _ _)
        isplitl [HL]
        · unfold owns; iexists _; isplitr
          swap; · iexact HL
          ipureintro; exact View.read_writes_of_cover _ _ _ _ _ (lcoverFirst c _ _ _ _ _ _ _ _ _ _ _ _ _ _ _ _ _ _ _ _)
        unfold owns; iexists _; isplitr
        swap; · iexact HA
        ipureintro; exact View.read_writes_of_cover _ _ _ _ _ (acoverFirst c _ _ _ _ _ _ _ _ _ _ _ _ _ _ _ _ _ _ _ _)
      iexact Hg
    isplitl [Ho]; · iexact Ho
    isplitl [H0]; · iexact H0
    isplitl [H1]; · iexact H1
    isplitl [H2]; · iexact H2
    iexists _; iexact H3
  · by_cases h1 : t.val % 4 = 3
    · rw [show (dat1 V c).leavesExact 3 t = owns (c : Thread nD τ) (ms1_3 t) fullShare ((dat1 V c).after 3 t) from by
        unfold Dat.leavesExact; rw [liveAt1_3 t ((hcond1_1 t).mpr h1)], after1_3]
      rw [Phi1_pos V c _ _ h0, Phi1_zero V c (t.val + 1) _ (by omega)]
      rw [stAt_last V c t h0 h1]
      unfold PhiF PhiN oLast; (try dsimp only)
      iintro ⟨⟨⟨HR, HM, HL, HA⟩, Hg⟩, Ho, ⟨%d0, H0⟩, ⟨%d1, H1⟩, ⟨%d2, H2⟩, ⟨%d3, H3⟩⟩
      iapply ((runLast c (grid1.coords t) _ _ _ _ _ _ _ _ _ _ _ _ _ _ (fun h => h0 ((hcond1_0 t).mp h)) ((hcond1_1 t).mpr h1) (iblk1 V c 0 t) (iblk1 V c 1 t) (iblk1 V c 2 t) _ _ _).2.2.2.2 Set.univ _)
      isplitl [H0]; · iexact H0
      isplitl [H1]; · iexact H1
      isplitl [H2]; · iexact H2
      isplitl [H3]; · iexists _; iexact H3
      isplitl [HM]; · iexact HM
      isplitl [HL]; · iexact HL
      isplitl [HA]; · iexact HA
      iintro ⟨H0, H1, H2, ⟨%e3, H3⟩, ⟨%em, HM⟩, ⟨%el, HL⟩, ⟨%ea, HA⟩⟩
      isplitl [HR HM HL HA Hg]
      · isplitr [Hg]
        · isplitl [HR]; · iexact HR
          isplitl [HM]
          · iexists _; unfold owns; iexists _; isplitr
            swap; · iexact HM
            ipureintro; rfl
          isplitl [HL]
          · iexists _; unfold owns; iexists _; isplitr
            swap; · iexact HL
            ipureintro; rfl
          iexists _; unfold owns; iexists _; isplitr
          swap; · iexact HA
          ipureintro; rfl
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (ocoverLast c _ _ _ _ _ _ _ _ _ _ _ _ _ _ _ _ _ _ _ _ _ _ _)
    · rw [Dat.leavesExact_idle (dat1 V c) 3 t (idleAt1_3 t (fun h => h1 ((hcond1_1 t).mp h))) (noFlush1_3 t (fun h => h1 ((hcond1_1 t).mp h)))]
      rw [Phi1_pos V c _ _ h0, Phi1_pos V c (t.val + 1) _ (by omega)]
      simp only [Nat.add_sub_cancel]
      rw [stAt_mid V c t h0 h1]
      unfold PhiN mMid lMid aMid; (try dsimp only)
      iintro ⟨⟨⟨HR, HM, HL, HA⟩, Hg⟩, Ho, ⟨%d0, H0⟩, ⟨%d1, H1⟩, ⟨%d2, H2⟩, ⟨%d3, H3⟩⟩
      iapply ((runMid c (grid1.coords t) _ _ _ _ _ _ _ _ _ _ _ _ _ _ (fun h => h0 ((hcond1_0 t).mp h)) (fun h => h1 ((hcond1_1 t).mp h)) (iblk1 V c 0 t) (iblk1 V c 1 t) (iblk1 V c 2 t) _ _ _).2.2.2 _ Set.univ _)
      isplitl [H0]; · iexact H0
      isplitl [H1]; · iexact H1
      isplitl [H2]; · iexact H2
      isplitl [H3]; · iexact H3
      isplitl [HM]; · iexact HM
      isplitl [HL]; · iexact HL
      isplitl [HA]; · iexact HA
      iintro ⟨H0, H1, H2, H3, ⟨%em, HM⟩, ⟨%el, HL⟩, ⟨%ea, HA⟩⟩
      isplitl [HR HM HL HA Hg]
      · isplitr [Hg]
        · isplitl [HR]; · iexact HR
          isplitl [HM]
          · unfold owns; iexists _; isplitr
            swap; · iexact HM
            ipureintro; exact View.read_writes_of_cover _ _ _ _ _ (mcoverMid c _ _ _ _ _ _ _ _ _ _ _ _ _ _ _ _ _ _ _ _ _ _ _)
          isplitl [HL]
          · unfold owns; iexists _; isplitr
            swap; · iexact HL
            ipureintro; exact View.read_writes_of_cover _ _ _ _ _ (lcoverMid c _ _ _ _ _ _ _ _ _ _ _ _ _ _ _ _ _ _ _ _ _ _ _)
          unfold owns; iexists _; isplitr
          swap; · iexact HA
          ipureintro; exact View.read_writes_of_cover _ _ _ _ _ (acoverMid c _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      iexists _; iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = Phi1 V c 0 (Nat.zero_le _) from rfl, Phi1_zero V c 0 _ rfl]
  exact PhiA1_split c

/-- After the last point the invariant gives it back. -/
theorem hout1 (c : Dev nD) : (dat1 V c).Φ (Fin.last cfg1.N) ⊢ Pipeline.ΦA spec1 c := by
  rw [show (dat1 V c).Φ (Fin.last cfg1.N) = Phi1 V c cfg1.N (le_refl _) from rfl, Phi1_zero V c _ _ (by rw [show cfg1.N = 64 from N_1])]
  exact PhiA1_join c

end Cert.Kernel.Frame

end
-- ==== Proof.KRun.lean ====
/-
  The whole program as two pipelined regions run one after the other. The unscoped buffers' contents at the three
  boundaries: as launched; after the projection stage (its three result arrays at what its write-backs leave,
  every other buffer as launched); after the attention stage (its result array at what its write-backs leave). Each
  region is entered from the contents the one before left. The run: every weakly fair execution terminates,
  nothing faults, the four argument arrays end as launched and the result array ends at the attention stage's
  written-back blocks.
-/
import proofs.«162099_j9010841387309_2_alg».proof.Proof.KRegion0
import proofs.«162099_j9010841387309_2_alg».proof.Proof.KRegion1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => m (c, b)
abbrev V0e : (c : Dev nD) → (b : Ref sig .tc) → Buf (Elt F) ((c : Thread nD τ).loc b) := fun c b => W0 m c b
/-- After the projection stage. -/
def W1 (c : Dev nD) : Valuation τ sig (Elt F) :=
  Pipeline.withArrays spec0 c (W0 m c) fun w => (dat0 (V0e m) c).arrAt w cfg0.N
theorem W1_arr (c : Dev nD) (w : Fin cfg0.W) :
    W1 m c (Proc.devRef .tc (Pipeline.arrRef spec0 w)) = (dat0 (V0e m) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m c (Proc.devRef .tc b) = W0 m c (Proc.devRef .tc b) := by
  unfold W1; exact Pipeline.withArrays_of_ne spec0 c _ _ b hb
abbrev V1e : (c : Dev nD) → (b : Ref sig .tc) → Buf (Elt F) ((c : Thread nD τ).loc b) := fun c b => W1 m c b
theorem hF0 (c : Dev nD) (w : Fin cfg0.W) : (dat0 (V0e m) c).arrAt w cfg0.N = V1e m c (Pipeline.arrRef spec0 w) :=
  (W1_arr m c w).symm
theorem hrest0 (c : Dev nD) : ∀ b, b ∉ Finset.univ.image (Pipeline.arrRef spec0) → V1e m c b = V0e m c b :=
  fun b hb => W1_of_ne m c b fun w e => hb (Finset.mem_image.mpr ⟨w, Finset.mem_univ _, e⟩)
/-- After the attention stage. -/
def W2 (c : Dev nD) : Valuation τ sig (Elt F) :=
  Pipeline.withArrays spec1 c (W1 m c) fun w => (dat1 (V1e m) c).arrAt w cfg1.N
theorem W2_arr (c : Dev nD) (w : Fin cfg1.W) :
    W2 m c (Proc.devRef .tc (Pipeline.arrRef spec1 w)) = (dat1 (V1e m) c).arrAt w cfg1.N := by
  unfold W2; exact Pipeline.withArrays_arr spec1 launch1.win.arr_inj c _ _ w
theorem W2_of_ne (c : Dev nD) (b : Ref sig .tc) (hb : ∀ w, Pipeline.arrRef spec1 w ≠ b) :
    W2 m c (Proc.devRef .tc b) = W1 m c (Proc.devRef .tc b) := by
  unfold W2; exact Pipeline.withArrays_of_ne spec1 c _ _ b hb
abbrev V2e : (c : Dev nD) → (b : Ref sig .tc) → Buf (Elt F) ((c : Thread nD τ).loc b) := fun c b => W2 m c b
theorem hF1 (c : Dev nD) (w : Fin cfg1.W) : (dat1 (V1e m) c).arrAt w cfg1.N = V2e m c (Pipeline.arrRef spec1 w) :=
  (W2_arr m c w).symm
theorem hrest1 (c : Dev nD) : ∀ b, b ∉ Finset.univ.image (Pipeline.arrRef spec1) → V2e m c b = V1e m c b :=
  fun b hb => W2_of_ne m c b fun w e => hb (Finset.mem_image.mpr ⟨w, Finset.mem_univ _, e⟩)

/-! ### The arguments end as launched: the projection stage only reads them, the attention stage bypasses them -/

theorem W2_main_arg0 (c : Dev nD) : W2 m c (Proc.devRef .tc main_arg0) = m ((c : Thread nD τ).loc main_arg0) :=
  calc W2 m c (Proc.devRef .tc main_arg0)
    _ = W1 m c (Proc.devRef .tc main_arg0) := W2_of_ne m c main_arg0 (by decide)
    _ = W0 m c (Proc.devRef .tc main_arg0) := (W1_arr m c 0).trans (((dat0 (V0e m) c).arrAt_in 0 rfl _).trans (A_eq0 (V0e m) c 0))
    _ = m ((c : Thread nD τ).loc main_arg0) := rfl
theorem W2_main_arg1 (c : Dev nD) : W2 m c (Proc.devRef .tc main_arg1) = m ((c : Thread nD τ).loc main_arg1) :=
  calc W2 m c (Proc.devRef .tc main_arg1)
    _ = W1 m c (Proc.devRef .tc main_arg1) := W2_of_ne m c main_arg1 (by decide)
    _ = W0 m c (Proc.devRef .tc main_arg1) := (W1_arr m c 1).trans (((dat0 (V0e m) c).arrAt_in 1 rfl _).trans (A_eq0 (V0e m) c 1))
    _ = m ((c : Thread nD τ).loc main_arg1) := rfl
theorem W2_main_arg2 (c : Dev nD) : W2 m c (Proc.devRef .tc main_arg2) = m ((c : Thread nD τ).loc main_arg2) :=
  calc W2 m c (Proc.devRef .tc main_arg2)
    _ = W1 m c (Proc.devRef .tc main_arg2) := W2_of_ne m c main_arg2 (by decide)
    _ = W0 m c (Proc.devRef .tc main_arg2) := (W1_arr m c 2).trans (((dat0 (V0e m) c).arrAt_in 2 rfl _).trans (A_eq0 (V0e m) c 2))
    _ = m ((c : Thread nD τ).loc main_arg2) := rfl
theorem W2_main_arg3 (c : Dev nD) : W2 m c (Proc.devRef .tc main_arg3) = m ((c : Thread nD τ).loc main_arg3) :=
  calc W2 m c (Proc.devRef .tc main_arg3)
    _ = W1 m c (Proc.devRef .tc main_arg3) := W2_of_ne m c main_arg3 (by decide)
    _ = W0 m c (Proc.devRef .tc main_arg3) := (W1_arr m c 3).trans (((dat0 (V0e m) c).arrAt_in 3 rfl _).trans (A_eq0 (V0e m) c 3))
    _ = m ((c : Thread nD τ).loc main_arg3) := rfl

/-- The result array ends at what the attention stage's write-backs leave. -/
theorem W2_main_v1 (c : Dev nD) : W2 m c (Proc.devRef .tc main_v1) = (dat1 (V1e m) c).arrAt 3 cfg1.N := W2_arr m c 3

/-! ## The proof data family and the thread state -/

abbrev adm : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) adm p) c
  | ⟨0, _⟩ => fun c => dat0 (V0e m) c
  | ⟨1, _⟩ => fun c => dat1 (V1e m) c
abbrev 𝒱₀ : Variants := Variants.none
abbrev L : GSem nD τ sig → Finset Unit := fun _ => ∅
abbrev lv : GSem nD τ sig → Unit → ℕ := fun _ _ => 0
/-- What rides beside the buffers through both regions: the generator register at some state, nothing owed. -/
abbrev R (c : Dev nD) : sProp 𝕄 := iprop((∃ r, prngReg c r) ∗ ∃ W, owes (c : Thread nD τ) (0 : CellTallies nD τ sig Unit) W)
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W2 m c) ∗ ∃ r, prngReg c r)

/-! ## The regions as segments -/

set_option backward.isDefEq.respectTransparency.types false in
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0e m) c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W1 m c) ∗ R c)
  X c := iprop(∃ r, prngReg c r)
  Y c := iprop(∃ r, prngReg c r)
  Z c := Pipeline.unscopedRest (Ix := Unit) (Name := ℕ) (U := UR sig nD τ) (Lvl := ℕ) spec0 c (V0e m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V0e m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V0e m c) (V1e m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V1e m) c).loose
  hwaits := Pipeline.hwaits_of_owed_zero _ _ _ _ L lv 1 fun _ _ => rfl
  pre c := iprop(StableHlo.held (c : Thread nD τ) (Pipeline.ucRefs τ sig) (W1 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V1e m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V1e m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (show _ ⊢ (Pipeline.ΦA spec1 c : sProp 𝕄) from ?_).trans (hin1 (V1e m) c)
    unfold Pipeline.ΦA
    iintro ⟨Hp, -, Hr⟩
    isplitl [Hr]; · iexact Hr
    iexact Hp
  hout c := by
    rw [Pipeline.ownSems0_none]
    refine (hout1 (V1e m) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V1e m c) (V2e m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The run -/

abbrev segs : List (Pipeline.Seg (pcfgs (F := F)) adm (pdats m) () defs₀ 𝒱₀ L lv) :=
  [ .region (reg0 m), .region (reg1 m) ]
theorem main_run (c : Dev nD) : main (F := F) c = Pipeline.Seg.run (segs m) := (main_chain c).trans (by chain_rfl)

set_option backward.isDefEq.respectTransparency.types false in
/-- From any memory with zero counters every weakly fair execution terminates, nothing faulting, and every final
    state has the result array at the attention stage's written-back blocks and the argument arrays as launched. -/
theorem run : θ_run defs (onTc (τ := τ) (main (F := F))) ⟨m, fun _ => 0, ρ⟩ (fun r => ∀ c : Dev nD,
      r.2.mem ((c.tc : Thread nD τ).loc main_v1) = (dat1 (V1e m) c).arrAt 3 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W2 m c b)
    (hfin := fun c s' => by
      iintro ⟨⟨Hh, -⟩, HSI⟩
      unfold StableHlo.held
      imodintro
      iapply (pointsTo_read_all (Pipeline.ucRefs τ sig) (fun b => (((c : Thread nD τ)).1, b)) (W2 m c) s')
      isplitl [Hh] <;> iassumption)
    (hQ := fun s h c =>
      ⟨(h c _ (mem_uc main_v1 (by decide))).trans (W2_main_v1 m c),
       (h c _ (mem_uc main_arg0 (by decide))).trans (W2_main_arg0 m c),
       (h c _ (mem_uc main_arg1 (by decide))).trans (W2_main_arg1 m c),
       (h c _ (mem_uc main_arg2 (by decide))).trans (W2_main_arg2 m c),
       (h c _ (mem_uc main_arg3 (by decide))).trans (W2_main_arg3 m c)⟩)

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => (h c).2) (run m ρ)

end Cert.Kernel.Frame

end
-- ==== Proof.KIRegion0.lean ====
/-
  The projection stage as one pipelined region: at each of its 16 grid points (batch b, row block i) the body
  reads a [1024, 1024] block of x and the three whole weight matrices, and stores three blocks — the query
  and value projections [1024, 64] and the transposed key projection [64, 1024] — each a matrix product of
  what it read. Stated here at any float instance: what each output's staging buffer holds after the body, as
  a function of the input blocks; the body's triple; the proof data of the pipeline; the body obligation.
-/
import proofs.«162099_j9010841387309_2_alg».proof.Proof.Gen.KernelIdeal.Launch
import proofs.«162099_j9010841387309_2_alg».proof.Proof.Gen.KernelIdeal.Skeleton
import proofs.«162099_j9010841387309_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, whether the point fetches it or not
    (an unfetched window's block index has not moved); one statement per input window. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: every load and store is of a whole staging buffer -/

abbrev rX : Rect S1x1024x1024 := Rect.unit (s := S1x1024x1024) ![0, 0, 0] S1x1024x1024.size inb_S1x1024x1024_S1x1024x1024_0_0_0
abbrev rW : Rect S1024x64 := Rect.unit (s := S1024x64) ![0, 0] S1024x64.size inb_S1024x64_S1024x64_0_0
abbrev rQ : Rect S1x1024x64 := Rect.unit (s := S1x1024x64) ![0, 0, 0] S1x1024x64.size inb_S1x1024x64_S1x1024x64_0_0_0
abbrev rK : Rect S1x64x1024 := Rect.unit (s := S1x64x1024) ![0, 0, 0] S1x64x1024.size inb_S1x64x1024_S1x64x1024_0_0_0

/-! ## What the body leaves in each output window's buffer -/

/-- The query projection's buffer: the block of x times Wq. -/
def out0_4 (x0 : Vec F S1x1024x1024 .f32) (x1 : Vec F S1024x64 .f32) : Vec F S1x1024x64 .bf16 :=
  View.canon [⟨rQ, k0_pay2 (View.ld x0 rX) (View.ld x1 rW)⟩]
/-- The transposed key projection's buffer: Wk transposed times the block of x transposed. -/
def out0_5 (x0 : Vec F S1x1024x1024 .f32) (x2 : Vec F S1024x64 .f32) : Vec F S1x64x1024 .bf16 :=
  View.canon [⟨rK, k0_pay4 (View.ld x0 rX) (View.ld x2 rW)⟩]
/-- The value projection's buffer: the block of x times Wv. -/
def out0_6 (x0 : Vec F S1x1024x1024 .f32) (x3 : Vec F S1024x64 .f32) : Vec F S1x1024x64 .bf16 :=
  View.canon [⟨rQ, k0_pay3 (View.ld x0 rX) (View.ld x3 rW)⟩]

/-- One whole-buffer store covers the buffer. -/
theorem coverQ (p0 : Vec F S1x1024x64 .bf16) (y : S1x1024x64.Idx) :
    ∃ pc ∈ ([⟨rQ, p0⟩] : List (View.Piece (Elt F) S1x1024x64 .bf16)), y ∈ pc.1.set :=
  View.cover_of_tiled [⟨rQ, p0⟩] S1x1024x64.size (by rfl) y
theorem coverK (p0 : Vec F S1x64x1024 .bf16) (y : S1x64x1024.Idx) :
    ∃ pc ∈ ([⟨rK, p0⟩] : List (View.Piece (Elt F) S1x64x1024 .bf16)), y ∈ pc.1.set :=
  View.cover_of_tiled [⟨rK, p0⟩] S1x64x1024.size (by rfl) y

/-! ## The body's triple -/

set_option maxHeartbeats 4000000 in
/-- The body on whole staging memrefs — the four inputs' at read contents, the three outputs' at anything — runs to
    the continuation holding the inputs' as they were and each output's at its product. -/
theorem sound_kernel0 (c : Dev nD) (E : Set ℕ) (i : grid0.Coords)
    (arg2 : Memref sig .tc .vmem S1x1024x1024 .f32) (harg2 : arg2.IsWhole) (arg3 : Memref sig .tc .vmem S1024x64 .f32) (harg3 : arg3.IsWhole)
    (arg4 : Memref sig .tc .vmem S1024x64 .f32) (harg4 : arg4.IsWhole) (arg5 : Memref sig .tc .vmem S1024x64 .f32) (harg5 : arg5.IsWhole)
    (arg6 : Memref sig .tc .vmem S1x1024x64 .bf16) (harg6 : arg6.IsWhole) (arg7 : Memref sig .tc .vmem S1x64x1024 .bf16) (harg7 : arg7.IsWhole)
    (arg8 : Memref sig .tc .vmem S1x1024x64 .bf16) (harg8 : arg8.IsWhole)
    (x0 : Vec F S1x1024x1024 .f32) (x1 x2 x3 : Vec F S1024x64 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3
        ∗ (∃ d, owns (c : Thread nD τ) arg6 fullShare d) ∗ (∃ d, owns (c : Thread nD τ) arg7 fullShare d) ∗ (∃ d, owns (c : Thread nD τ) arg8 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3
            ∗ owns (c : Thread nD τ) arg6 fullShare (out0_4 x0 x1) ∗ owns (c : Thread nD τ) arg7 fullShare (out0_5 x0 x2)
            ∗ owns (c : Thread nD τ) arg8 fullShare (out0_6 x0 x3)) -∗ K ⟨⟩))
      ⊢ wp frame (wpE (defs₀ (F := F)) Variants.none c none) E (cc0__proj_kernel i arg2 harg2 arg3 harg3 arg4 harg4 arg5 harg5 arg6 harg6 arg7 harg7 arg8 harg8) K := by
  simp only [cc0__proj_kernel_eq_skeleton]; unfold cc0__proj_kernel_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (coverQ _)
  isplitl [H5]
  · iexists _; isplitr
    swap; · iexact H5
    ipureintro
    exact View.read_writes_eq_canon _ _ _ (coverK _)
  iexists _; isplitr
  swap; · iexact H6
  ipureintro
  exact View.read_writes_eq_canon _ _ _ (coverQ _)

/-! ## The pipeline's proof data -/

/-- The proof data of the projection pipeline on core `c`: the arrays as the region finds them; after the body at
    point `t` each input's buffer at its block and each output's at its product of the input blocks; the invariant
    the scoped rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => out0_4 (iblk0 V c 0 t) (iblk0 V c 1 t)
    | ⟨5, _⟩ => out0_5 (iblk0 V c 0 t) (iblk0 V c 2 t)
    | ⟨6, _⟩ => out0_6 (iblk0 V c 0 t) (iblk0 V c 3 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = out0_4 (iblk0 V c 0 t) (iblk0 V c 1 t) := by dsimp only [dat0]
theorem after0_5 (c : Dev nD) (t : Fin cfg0.N) : (dat0 V c).after 5 t = out0_5 (iblk0 V c 0 t) (iblk0 V c 2 t) := by dsimp only [dat0]
theorem after0_6 (c : Dev nD) (t : Fin cfg0.N) : (dat0 V c).after 6 t = out0_6 (iblk0 V c 0 t) (iblk0 V c 3 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-! ## The body obligation, at a generic point -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

set_option maxHeartbeats 1000000 in
/-- The body at any point: the inputs' memrefs hold their blocks, so `sound_kernel0` applies; the invariant and the
    core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel0 c Set.univ _ _ _ _ _ _ _ _ _ _ _ _ _ _ _ (iblk0 V c 0 t) (iblk0 V c 1 t) (iblk0 V c 2 t) (iblk0 V c 3 t) _)
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Frame

end
-- ==== Proof.KIRegion1Runs.lean ====
/-
  The attention stage's body, run symbolically in each of the three situations a grid point (batch b, query
  block i, key block k) can be in: k = 0 (the three carried buffers — running maximum, running denominator,
  running numerator — are first reset), k = 1, 2 (they are updated from what the point before left), k = 3
  (updated, and the quotient numerator / denominator stored into the output block). Each run states what the
  body needs and what it leaves: the input blocks untouched, the output block untouched where the body does not
  store it, and each carried buffer (and at k = 3 the output) as the list of pieces its stores wrote.
-/
import proofs.«162099_j9010841387309_2_alg».proof.Proof.Gen.KernelIdeal.Launch
import proofs.«162099_j9010841387309_2_alg».proof.Proof.Gen.KernelIdeal.Skeleton
import proofs.«162099_j9010841387309_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two branch conditions, over the grid coordinates -/

/-- `k == 0`, as the body computes it. -/
abbrev cond1_0 (i : grid1.Coords) : Prop := (Scalar.cmpi .ne (Scalar.extui (Scalar.cmpi .eq (BitVec.ofNat 32 (i 2).val) 0#32)) 0#32) = 1#1
/-- `k == 3`, as the body computes it. -/
abbrev cond1_1 (i : grid1.Coords) : Prop := k1_cond2 i = 1#1

theorem hcond1_0 : ∀ t : Fin cfg1.N, cond1_0 (grid1.coords t) ↔ t.val % 4 = 0 :=
  (by decide +kernel : ∀ t : Fin grid1.N, cond1_0 (grid1.coords t) ↔ t.val % 4 = 0)
theorem hcond1_1 : ∀ t : Fin cfg1.N, cond1_1 (grid1.coords t) ↔ t.val % 4 = 3 :=
  (by decide +kernel : ∀ t : Fin grid1.N, cond1_1 (grid1.coords t) ↔ t.val % 4 = 3)

/-! ## Where the output window is idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
/-- Where `k ≠ 3` the body stores nothing into the output block and the pipeline does not write it back. -/
theorem idleAt1_3 : ∀ t : Fin cfg1.N, ¬cond1_1 (grid1.coords t) → cfg1.idle 3 (grid1.coords t) = true := by decide +kernel
theorem noFlush1_3 : ∀ t : Fin cfg1.N, ¬cond1_1 (grid1.coords t) → (cfg1.win 3).flush t = false := by decide +kernel
theorem liveAt1_3 : ∀ t : Fin cfg1.N, cond1_1 (grid1.coords t) → cfg1.idle 3 (grid1.coords t) = false := by decide +kernel

/-! ## The memrefs the body is called with -/

abbrev ms1_0 (t : Fin cfg1.N) : Memref sig .tc .vmem S1x1024x64 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x64x1024 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x1024x64 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x1024x64 .f32 := win1_3.stage (cfg1.slots t 3)
abbrev hs1_3 (t : Fin cfg1.N) : (ms1_3 t).IsWhole := hstage1_3 ((cfg1.slots t 3).cast nbuf1_3)
/-- The three carried buffers: running maximum, running denominator, running numerator. -/
abbrev scM : Memref sig .tc .vmem S1024x1 .f32 := Memref.whole cc1_scratch0
abbrev scL : Memref sig .tc .vmem S1024x1 .f32 := Memref.whole cc1_scratch1
abbrev scA : Memref sig .tc .vmem S1024x64 .f32 := Memref.whole cc1_scratch2
abbrev VM : View sig .tc .vmem S1024x1 .f32 := scM.view
abbrev VL : View sig .tc .vmem S1024x1 .f32 := scL.view
abbrev VA : View sig .tc .vmem S1024x64 .f32 := scA.view
/-- One staging buffer of the output window, through which its contents are stated. -/
abbrev VO : View sig .tc .vmem S1x1024x64 .f32 := (Memref.whole cc1_stg3_0 : Memref sig .tc .vmem S1x1024x64 .f32).view

/-- The projection stage's staging buffers, which this stage never touches: each whole at some contents. -/
def others (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg6_1), ((c : Thread nD τ).loc cc0_stg6_1) ↦{fullShare} f))

/-- The invariant with the carried buffers at contents nobody names: before a point with k = 0 (which resets them)
    and after a point with k = 3. -/
def PhiF (c : Dev nD) : sProp 𝕄 :=
  iprop(iprop(others (F := F) c ∗ (∃ d, owns (c : Thread nD τ) scM fullShare d) ∗ (∃ d, owns (c : Thread nD τ) scL fullShare d) ∗ (∃ d, owns (c : Thread nD τ) scA fullShare d)) ∗ (∃ r, prngReg c r))

/-- The invariant with the carried buffers at named contents. -/
def PhiN (c : Dev nD) (sm sl : Vec F S1024x1 .f32) (sa : Vec F S1024x64 .f32) : sProp 𝕄 :=
  iprop(iprop(others (F := F) c ∗ owns (c : Thread nD τ) scM fullShare sm ∗ owns (c : Thread nD τ) scL fullShare sl ∗ owns (c : Thread nD τ) scA fullShare sa) ∗ (∃ r, prngReg c r))

/-- What the launch hands the region is the unnamed form, -/
theorem PhiA1_split (c : Dev nD) : (Pipeline.ΦA spec1 c : sProp 𝕄) ⊢ PhiF (F := F) c := by
  unfold Pipeline.ΦA PhiF others; rw [scopedRest1_eq]; simp only [scM, scL, scA, owns_whole]
  iintro ⟨⟨R0, R1, R2, R3, R4, R5, R6, R7, R8, R9, R10, HM, HL, HA⟩, Hg⟩
  isplitr [Hg]
  · isplitr [HM HL HA]
    · isplitl [R0]; · iexact R0
      isplitl [R1]; · iexact R1
      isplitl [R2]; · iexact R2
      isplitl [R3]; · iexact R3
      isplitl [R4]; · iexact R4
      isplitl [R5]; · iexact R5
      isplitl [R6]; · iexact R6
      isplitl [R7]; · iexact R7
      isplitl [R8]; · iexact R8
      isplitl [R9]; · iexact R9
      iexact R10
    isplitl [HM]; · iexact HM
    isplitl [HL]; · iexact HL
    iexact HA
  iexact Hg

/-- and the unnamed form gives it back. -/
theorem PhiA1_join (c : Dev nD) : PhiF (F := F) c ⊢ (Pipeline.ΦA spec1 c : sProp 𝕄) := by
  unfold Pipeline.ΦA PhiF others; rw [scopedRest1_eq]; simp only [scM, scL, scA, owns_whole]
  iintro ⟨⟨⟨R0, R1, R2, R3, R4, R5, R6, R7, R8, R9, R10⟩, HM, HL, HA⟩, Hg⟩
  isplitr [Hg]
  · isplitl [R0]; · iexact R0
    isplitl [R1]; · iexact R1
    isplitl [R2]; · iexact R2
    isplitl [R3]; · iexact R3
    isplitl [R4]; · iexact R4
    isplitl [R5]; · iexact R5
    isplitl [R6]; · iexact R6
    isplitl [R7]; · iexact R7
    isplitl [R8]; · iexact R8
    isplitl [R9]; · iexact R9
    isplitl [R10]; · iexact R10
    isplitl [HM]; · iexact HM
    isplitl [HL]; · iexact HL
    iexact HA
  iexact Hg

/-! ## The three runs -/

set_option maxHeartbeats 4000000 in
/-- k = 0: the carried buffers at anything in; reset, then updated. The output block is handed back untouched. -/
noncomputable def runFirst (c : Dev nD) (i : grid1.Coords) (arg3 : Memref sig .tc .vmem S1x1024x64 .bf16) (harg3 : arg3.IsWhole) (arg4 : Memref sig .tc .vmem S1x64x1024 .bf16) (harg4 : arg4.IsWhole)
    (arg5 : Memref sig .tc .vmem S1x1024x64 .bf16) (harg5 : arg5.IsWhole) (arg6 : Memref sig .tc .vmem S1x1024x64 .f32) (harg6 : arg6.IsWhole)
    (arg7 : Memref sig .tc .vmem S1024x1 .f32) (harg7 : arg7.IsWhole) (arg8 : Memref sig .tc .vmem S1024x1 .f32) (harg8 : arg8.IsWhole)
    (arg9 : Memref sig .tc .vmem S1024x64 .f32) (harg9 : arg9.IsWhole) (hc0 : cond1_0 i) (hc1 : ¬cond1_1 i) (x0 : Vec F S1x1024x64 .bf16) (x1 : Vec F S1x64x1024 .bf16) (x2 : Vec F S1x1024x64 .bf16) :
    Σ' (LM LL : List (View.Piece (Elt F) S1024x1 .f32)), { LA : List (View.Piece (Elt F) S1024x64 .f32) //
      ∀ (xi3 : Vec F S1x1024x64 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3
            ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg3 fullShare x0 ∗ owns (c : Thread nD τ) arg4 fullShare x1 ∗ owns (c : Thread nD τ) arg5 fullShare x2 ∗ owns (c : Thread nD τ) arg6 fullShare xi3
                ∗ (∃ f, arg7.view.loc (c : Thread nD τ) ↦[arg7.view.set]{fullShare} arg7.view.writes (Elt F) f LM) ∗ (∃ f, arg8.view.loc (c : Thread nD τ) ↦[arg8.view.set]{fullShare} arg8.view.writes (Elt F) f LL) ∗ (∃ f, arg9.view.loc (c : Thread nD τ) ↦[arg9.view.set]{fullShare} arg9.view.writes (Elt F) f LA)) -∗ K ⟨⟩))
          ⊢ wp frame (wpE (defs₀ (F := F)) Variants.none c none) E (cc1_kernel i arg3 harg3 arg4 harg4 arg5 harg5 arg6 harg6 arg7 harg7 arg8 harg8 arg9 harg9) K } := by
  refine ⟨?_, ?_, ?_, fun xi3 E K => ?run⟩
  case run =>
    simp only [cc1_kernel_eq_skeleton]; unfold cc1_kernel_skel
    unfold owns
    iintro ⟨⟨%f0, %hf0, H0⟩, ⟨%f1, %hf1, H1⟩, ⟨%f2, %hf2, H2⟩, ⟨%f3, %hf3, H3⟩, ⟨%dm, %fm, -, HM⟩, ⟨%dl, %fl, -, HL⟩, ⟨%da, %fa, -, HA⟩, Hk⟩
    obtain rfl := harg3.eq_unread hf0; obtain rfl := harg4.eq_unread hf1; obtain rfl := harg5.eq_unread hf2; obtain rfl := harg6.eq_unread hf3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [HM]; · iexists _; iexact HM
    isplitl [HL]; · iexists _; iexact HL
    iexists _; iexact HA

set_option maxHeartbeats 4000000 in
/-- k = 1, 2: the carried buffers at what the point before left; updated. The output block is handed back untouched. -/
noncomputable def runMid (c : Dev nD) (i : grid1.Coords) (arg3 : Memref sig .tc .vmem S1x1024x64 .bf16) (harg3 : arg3.IsWhole) (arg4 : Memref sig .tc .vmem S1x64x1024 .bf16) (harg4 : arg4.IsWhole)
    (arg5 : Memref sig .tc .vmem S1x1024x64 .bf16) (harg5 : arg5.IsWhole) (arg6 : Memref sig .tc .vmem S1x1024x64 .f32) (harg6 : arg6.IsWhole)
    (arg7 : Memref sig .tc .vmem S1024x1 .f32) (harg7 : arg7.IsWhole) (arg8 : Memref sig .tc .vmem S1024x1 .f32) (harg8 : arg8.IsWhole)
    (arg9 : Memref sig .tc .vmem S1024x64 .f32) (harg9 : arg9.IsWhole) (hc0 : ¬cond1_0 i) (hc1 : ¬cond1_1 i) (x0 : Vec F S1x1024x64 .bf16) (x1 : Vec F S1x64x1024 .bf16) (x2 : Vec F S1x1024x64 .bf16) (xm xl : Vec F S1024x1 .f32) (xa : Vec F S1024x64 .f32) :
    Σ' (LM LL : List (View.Piece (Elt F) S1024x1 .f32)), { LA : List (View.Piece (Elt F) S1024x64 .f32) //
      ∀ (xi3 : Vec F S1x1024x64 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3
            ∗ owns (c : Thread nD τ) arg7 fullShare xm ∗ owns (c : Thread nD τ) arg8 fullShare xl ∗ owns (c : Thread nD τ) arg9 fullShare xa
            ∗ (iprop(owns (c : Thread nD τ) arg3 fullShare x0 ∗ owns (c : Thread nD τ) arg4 fullShare x1 ∗ owns (c : Thread nD τ) arg5 fullShare x2 ∗ owns (c : Thread nD τ) arg6 fullShare xi3
                ∗ (∃ f, arg7.view.loc (c : Thread nD τ) ↦[arg7.view.set]{fullShare} arg7.view.writes (Elt F) f LM) ∗ (∃ f, arg8.view.loc (c : Thread nD τ) ↦[arg8.view.set]{fullShare} arg8.view.writes (Elt F) f LL) ∗ (∃ f, arg9.view.loc (c : Thread nD τ) ↦[arg9.view.set]{fullShare} arg9.view.writes (Elt F) f LA)) -∗ K ⟨⟩))
          ⊢ wp frame (wpE (defs₀ (F := F)) Variants.none c none) E (cc1_kernel i arg3 harg3 arg4 harg4 arg5 harg5 arg6 harg6 arg7 harg7 arg8 harg8 arg9 harg9) K } := by
  refine ⟨?_, ?_, ?_, fun xi3 E K => ?run⟩
  case run =>
    simp only [cc1_kernel_eq_skeleton]; unfold cc1_kernel_skel
    unfold owns
    iintro ⟨⟨%f0, %hf0, H0⟩, ⟨%f1, %hf1, H1⟩, ⟨%f2, %hf2, H2⟩, ⟨%f3, %hf3, H3⟩, ⟨%fm, %hfm, HM⟩, ⟨%fl, %hfl, HL⟩, ⟨%fa, %hfa, HA⟩, Hk⟩
    obtain rfl := harg3.eq_unread hf0; obtain rfl := harg4.eq_unread hf1; obtain rfl := harg5.eq_unread hf2; obtain rfl := harg6.eq_unread hf3
    obtain rfl := harg7.eq_unread hfm; obtain rfl := harg8.eq_unread hfl; obtain rfl := harg9.eq_unread hfa
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [HM]; · iexists _; iexact HM
    isplitl [HL]; · iexists _; iexact HL
    iexists _; iexact HA

set_option maxHeartbeats 4000000 in
/-- k = 3: the carried buffers at what the point before left; updated, and the output block stored. -/
noncomputable def runLast (c : Dev nD) (i : grid1.Coords) (arg3 : Memref sig .tc .vmem S1x1024x64 .bf16) (harg3 : arg3.IsWhole) (arg4 : Memref sig .tc .vmem S1x64x1024 .bf16) (harg4 : arg4.IsWhole)
    (arg5 : Memref sig .tc .vmem S1x1024x64 .bf16) (harg5 : arg5.IsWhole) (arg6 : Memref sig .tc .vmem S1x1024x64 .f32) (harg6 : arg6.IsWhole)
    (arg7 : Memref sig .tc .vmem S1024x1 .f32) (harg7 : arg7.IsWhole) (arg8 : Memref sig .tc .vmem S1024x1 .f32) (harg8 : arg8.IsWhole)
    (arg9 : Memref sig .tc .vmem S1024x64 .f32) (harg9 : arg9.IsWhole) (hc0 : ¬cond1_0 i) (hc1 : cond1_1 i) (x0 : Vec F S1x1024x64 .bf16) (x1 : Vec F S1x64x1024 .bf16) (x2 : Vec F S1x1024x64 .bf16) (xm xl : Vec F S1024x1 .f32) (xa : Vec F S1024x64 .f32) :
    Σ' (LO : List (View.Piece (Elt F) S1x1024x64 .f32)) (LM LL : List (View.Piece (Elt F) S1024x1 .f32)), { LA : List (View.Piece (Elt F) S1024x64 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d)
            ∗ owns (c : Thread nD τ) arg7 fullShare xm ∗ owns (c : Thread nD τ) arg8 fullShare xl ∗ owns (c : Thread nD τ) arg9 fullShare xa
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f LO)
                ∗ (∃ f, arg7.view.loc (c : Thread nD τ) ↦[arg7.view.set]{fullShare} arg7.view.writes (Elt F) f LM) ∗ (∃ f, arg8.view.loc (c : Thread nD τ) ↦[arg8.view.set]{fullShare} arg8.view.writes (Elt F) f LL) ∗ (∃ f, arg9.view.loc (c : Thread nD τ) ↦[arg9.view.set]{fullShare} arg9.view.writes (Elt F) f LA)) -∗ K ⟨⟩))
          ⊢ wp frame (wpE (defs₀ (F := F)) Variants.none c none) E (cc1_kernel i arg3 harg3 arg4 harg4 arg5 harg5 arg6 harg6 arg7 harg7 arg8 harg8 arg9 harg9) K } := by
  refine ⟨?_, ?_, ?_, ?_, fun E K => ?run⟩
  case run =>
    simp only [cc1_kernel_eq_skeleton]; unfold cc1_kernel_skel
    unfold owns
    iintro ⟨⟨%f0, %hf0, H0⟩, ⟨%f1, %hf1, H1⟩, ⟨%f2, %hf2, H2⟩, ⟨%d3, %f3, -, H3⟩, ⟨%fm, %hfm, HM⟩, ⟨%fl, %hfl, HL⟩, ⟨%fa, %hfa, HA⟩, Hk⟩
    obtain rfl := harg3.eq_unread hf0; obtain rfl := harg4.eq_unread hf1; obtain rfl := harg5.eq_unread hf2
    obtain rfl := harg7.eq_unread hfm; obtain rfl := harg8.eq_unread hfl; obtain rfl := harg9.eq_unread hfa
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    isplitl [HM]; · iexists _; iexact HM
    isplitl [HL]; · iexists _; iexact HL
    iexists _; iexact HA

end Cert.KernelIdeal.Frame

end
-- ==== Proof.KIRegion1.lean ====
/-
  The attention stage as one pipelined region of 64 grid points (batch b, query block i, key block k; k the
  fastest). What the three carried buffers — running maximum, running denominator, running numerator — and the
  output block hold after each point, by recursion on the point: at k = 0 the body's run from reset buffers, at
  k = 1, 2 its run from what the point before left, at k = 3 the same and the output block stored. Then the
  pipeline's proof data (the invariant names the carried contents between points), the body obligation at every
  point, and how the invariant starts and ends.
-/
import proofs.«162099_j9010841387309_2_alg».proof.Proof.KIRegion1Runs
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, whether the point fetches it or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## What each run leaves: its pieces read back -/

section Pieces
variable (c : Dev nD) (i : grid1.Coords) (arg3 : Memref sig .tc .vmem S1x1024x64 .bf16) (harg3 : arg3.IsWhole) (arg4 : Memref sig .tc .vmem S1x64x1024 .bf16) (harg4 : arg4.IsWhole)
    (arg5 : Memref sig .tc .vmem S1x1024x64 .bf16) (harg5 : arg5.IsWhole) (arg6 : Memref sig .tc .vmem S1x1024x64 .f32) (harg6 : arg6.IsWhole)
    (arg7 : Memref sig .tc .vmem S1024x1 .f32) (harg7 : arg7.IsWhole) (arg8 : Memref sig .tc .vmem S1024x1 .f32) (harg8 : arg8.IsWhole)
    (arg9 : Memref sig .tc .vmem S1024x64 .f32) (harg9 : arg9.IsWhole) (x0 : Vec F S1x1024x64 .bf16) (x1 : Vec F S1x64x1024 .bf16) (x2 : Vec F S1x1024x64 .bf16)

def mFirst (hc0 : cond1_0 i) (hc1 : ¬cond1_1 i) : Vec F S1024x1 .f32 :=
  VM.read (Elt F) (VM.writes (Elt F) VM.junk (runFirst c i arg3 harg3 arg4 harg4 arg5 harg5 arg6 harg6 arg7 harg7 arg8 harg8 arg9 harg9 hc0 hc1 x0 x1 x2).1)
def lFirst (hc0 : cond1_0 i) (hc1 : ¬cond1_1 i) : Vec F S1024x1 .f32 :=
  VL.read (Elt F) (VL.writes (Elt F) VL.junk (runFirst c i arg3 harg3 arg4 harg4 arg5 harg5 arg6 harg6 arg7 harg7 arg8 harg8 arg9 harg9 hc0 hc1 x0 x1 x2).2.1)
def aFirst (hc0 : cond1_0 i) (hc1 : ¬cond1_1 i) : Vec F S1024x64 .f32 :=
  VA.read (Elt F) (VA.writes (Elt F) VA.junk (runFirst c i arg3 harg3 arg4 harg4 arg5 harg5 arg6 harg6 arg7 harg7 arg8 harg8 arg9 harg9 hc0 hc1 x0 x1 x2).2.2.1)
theorem mcoverFirst (hc0 : cond1_0 i) (hc1 : ¬cond1_1 i) (y : S1024x1.Idx) :
    ∃ pc ∈ (runFirst c i arg3 harg3 arg4 harg4 arg5 harg5 arg6 harg6 arg7 harg7 arg8 harg8 arg9 harg9 hc0 hc1 x0 x1 x2).1, y ∈ pc.1.set :=
  View.cover_of_tiledL (runFirst c i arg3 harg3 arg4 harg4 arg5 harg5 arg6 harg6 arg7 harg7 arg8 harg8 arg9 harg9 hc0 hc1 x0 x1 x2).1 S1024x1.size (by sl_kernel_rfl) y
theorem lcoverFirst (hc0 : cond1_0 i) (hc1 : ¬cond1_1 i) (y : S1024x1.Idx) :
    ∃ pc ∈ (runFirst c i arg3 harg3 arg4 harg4 arg5 harg5 arg6 harg6 arg7 harg7 arg8 harg8 arg9 harg9 hc0 hc1 x0 x1 x2).2.1, y ∈ pc.1.set :=
  View.cover_of_tiledL (runFirst c i arg3 harg3 arg4 harg4 arg5 harg5 arg6 harg6 arg7 harg7 arg8 harg8 arg9 harg9 hc0 hc1 x0 x1 x2).2.1 S1024x1.size (by sl_kernel_rfl) y
theorem acoverFirst (hc0 : cond1_0 i) (hc1 : ¬cond1_1 i) (y : S1024x64.Idx) :
    ∃ pc ∈ (runFirst c i arg3 harg3 arg4 harg4 arg5 harg5 arg6 harg6 arg7 harg7 arg8 harg8 arg9 harg9 hc0 hc1 x0 x1 x2).2.2.1, y ∈ pc.1.set :=
  View.cover_of_tiledL (runFirst c i arg3 harg3 arg4 harg4 arg5 harg5 arg6 harg6 arg7 harg7 arg8 harg8 arg9 harg9 hc0 hc1 x0 x1 x2).2.2.1 S1024x64.size (by sl_kernel_rfl) y

variable (xm xl : Vec F S1024x1 .f32) (xa : Vec F S1024x64 .f32)

def mMid (hc0 : ¬cond1_0 i) (hc1 : ¬cond1_1 i) : Vec F S1024x1 .f32 :=
  VM.read (Elt F) (VM.writes (Elt F) VM.junk (runMid c i arg3 harg3 arg4 harg4 arg5 harg5 arg6 harg6 arg7 harg7 arg8 harg8 arg9 harg9 hc0 hc1 x0 x1 x2 xm xl xa).1)
def lMid (hc0 : ¬cond1_0 i) (hc1 : ¬cond1_1 i) : Vec F S1024x1 .f32 :=
  VL.read (Elt F) (VL.writes (Elt F) VL.junk (runMid c i arg3 harg3 arg4 harg4 arg5 harg5 arg6 harg6 arg7 harg7 arg8 harg8 arg9 harg9 hc0 hc1 x0 x1 x2 xm xl xa).2.1)
def aMid (hc0 : ¬cond1_0 i) (hc1 : ¬cond1_1 i) : Vec F S1024x64 .f32 :=
  VA.read (Elt F) (VA.writes (Elt F) VA.junk (runMid c i arg3 harg3 arg4 harg4 arg5 harg5 arg6 harg6 arg7 harg7 arg8 harg8 arg9 harg9 hc0 hc1 x0 x1 x2 xm xl xa).2.2.1)
theorem mcoverMid (hc0 : ¬cond1_0 i) (hc1 : ¬cond1_1 i) (y : S1024x1.Idx) :
    ∃ pc ∈ (runMid c i arg3 harg3 arg4 harg4 arg5 harg5 arg6 harg6 arg7 harg7 arg8 harg8 arg9 harg9 hc0 hc1 x0 x1 x2 xm xl xa).1, y ∈ pc.1.set :=
  View.cover_of_tiledL (runMid c i arg3 harg3 arg4 harg4 arg5 harg5 arg6 harg6 arg7 harg7 arg8 harg8 arg9 harg9 hc0 hc1 x0 x1 x2 xm xl xa).1 S1024x1.size (by sl_kernel_rfl) y
theorem lcoverMid (hc0 : ¬cond1_0 i) (hc1 : ¬cond1_1 i) (y : S1024x1.Idx) :
    ∃ pc ∈ (runMid c i arg3 harg3 arg4 harg4 arg5 harg5 arg6 harg6 arg7 harg7 arg8 harg8 arg9 harg9 hc0 hc1 x0 x1 x2 xm xl xa).2.1, y ∈ pc.1.set :=
  View.cover_of_tiledL (runMid c i arg3 harg3 arg4 harg4 arg5 harg5 arg6 harg6 arg7 harg7 arg8 harg8 arg9 harg9 hc0 hc1 x0 x1 x2 xm xl xa).2.1 S1024x1.size (by sl_kernel_rfl) y
theorem acoverMid (hc0 : ¬cond1_0 i) (hc1 : ¬cond1_1 i) (y : S1024x64.Idx) :
    ∃ pc ∈ (runMid c i arg3 harg3 arg4 harg4 arg5 harg5 arg6 harg6 arg7 harg7 arg8 harg8 arg9 harg9 hc0 hc1 x0 x1 x2 xm xl xa).2.2.1, y ∈ pc.1.set :=
  View.cover_of_tiledL (runMid c i arg3 harg3 arg4 harg4 arg5 harg5 arg6 harg6 arg7 harg7 arg8 harg8 arg9 harg9 hc0 hc1 x0 x1 x2 xm xl xa).2.2.1 S1024x64.size (by sl_kernel_rfl) y

def oLast (hc0 : ¬cond1_0 i) (hc1 : cond1_1 i) : Vec F S1x1024x64 .f32 :=
  VO.read (Elt F) (VO.writes (Elt F) VO.junk (runLast c i arg3 harg3 arg4 harg4 arg5 harg5 arg6 harg6 arg7 harg7 arg8 harg8 arg9 harg9 hc0 hc1 x0 x1 x2 xm xl xa).1)
def mLast (hc0 : ¬cond1_0 i) (hc1 : cond1_1 i) : Vec F S1024x1 .f32 :=
  VM.read (Elt F) (VM.writes (Elt F) VM.junk (runLast c i arg3 harg3 arg4 harg4 arg5 harg5 arg6 harg6 arg7 harg7 arg8 harg8 arg9 harg9 hc0 hc1 x0 x1 x2 xm xl xa).2.1)
def lLast (hc0 : ¬cond1_0 i) (hc1 : cond1_1 i) : Vec F S1024x1 .f32 :=
  VL.read (Elt F) (VL.writes (Elt F) VL.junk (runLast c i arg3 harg3 arg4 harg4 arg5 harg5 arg6 harg6 arg7 harg7 arg8 harg8 arg9 harg9 hc0 hc1 x0 x1 x2 xm xl xa).2.2.1)
def aLast (hc0 : ¬cond1_0 i) (hc1 : cond1_1 i) : Vec F S1024x64 .f32 :=
  VA.read (Elt F) (VA.writes (Elt F) VA.junk (runLast c i arg3 harg3 arg4 harg4 arg5 harg5 arg6 harg6 arg7 harg7 arg8 harg8 arg9 harg9 hc0 hc1 x0 x1 x2 xm xl xa).2.2.2.1)
theorem ocoverLast (hc0 : ¬cond1_0 i) (hc1 : cond1_1 i) (y : S1x1024x64.Idx) :
    ∃ pc ∈ (runLast c i arg3 harg3 arg4 harg4 arg5 harg5 arg6 harg6 arg7 harg7 arg8 harg8 arg9 harg9 hc0 hc1 x0 x1 x2 xm xl xa).1, y ∈ pc.1.set :=
  View.cover_of_tiledL (runLast c i arg3 harg3 arg4 harg4 arg5 harg5 arg6 harg6 arg7 harg7 arg8 harg8 arg9 harg9 hc0 hc1 x0 x1 x2 xm xl xa).1 S1x1024x64.size (by sl_kernel_rfl) y

end Pieces

/-! ## What the buffers hold after each point -/

/-- After the body at position `n`: (the output block's buffer, running maximum, running denominator, running
    numerator). Where `k ≠ 3` the output component is a placeholder nothing consults (the window is idle there and
    not written back). -/
def stAt (c : Dev nD) : (n : ℕ) → n < cfg1.N → Vec F S1x1024x64 .f32 × Vec F S1024x1 .f32 × Vec F S1024x1 .f32 × Vec F S1024x64 .f32
  | 0, hn =>
    have hc0 : cond1_0 (grid1.coords ⟨0, hn⟩) := (hcond1_0 ⟨0, hn⟩).mpr (Nat.zero_mod _)
    have hc1 : ¬cond1_1 (grid1.coords ⟨0, hn⟩) := fun h => (fun h => by (try dsimp only at h); omega) ((hcond1_1 ⟨0, hn⟩).mp h)
    (VO.read (Elt F) VO.junk,
      mFirst c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM (Memref.isWhole_whole _) scL (Memref.isWhole_whole _) scA (Memref.isWhole_whole _) (iblk1 V c 0 ⟨0, hn⟩) (iblk1 V c 1 ⟨0, hn⟩) (iblk1 V c 2 ⟨0, hn⟩) hc0 hc1,
      lFirst c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM (Memref.isWhole_whole _) scL (Memref.isWhole_whole _) scA (Memref.isWhole_whole _) (iblk1 V c 0 ⟨0, hn⟩) (iblk1 V c 1 ⟨0, hn⟩) (iblk1 V c 2 ⟨0, hn⟩) hc0 hc1,
      aFirst c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM (Memref.isWhole_whole _) scL (Memref.isWhole_whole _) scA (Memref.isWhole_whole _) (iblk1 V c 0 ⟨0, hn⟩) (iblk1 V c 1 ⟨0, hn⟩) (iblk1 V c 2 ⟨0, hn⟩) hc0 hc1)
  | n + 1, hn =>
    if h0 : (n + 1) % 4 = 0 then
      have hc0 : cond1_0 (grid1.coords ⟨n + 1, hn⟩) := (hcond1_0 ⟨n + 1, hn⟩).mpr h0
      have hc1 : ¬cond1_1 (grid1.coords ⟨n + 1, hn⟩) := fun h => (fun h => by (try dsimp only at h); omega) ((hcond1_1 ⟨n + 1, hn⟩).mp h)
      (VO.read (Elt F) VO.junk,
        mFirst c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM (Memref.isWhole_whole _) scL (Memref.isWhole_whole _) scA (Memref.isWhole_whole _) (iblk1 V c 0 ⟨n + 1, hn⟩) (iblk1 V c 1 ⟨n + 1, hn⟩) (iblk1 V c 2 ⟨n + 1, hn⟩) hc0 hc1,
        lFirst c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM (Memref.isWhole_whole _) scL (Memref.isWhole_whole _) scA (Memref.isWhole_whole _) (iblk1 V c 0 ⟨n + 1, hn⟩) (iblk1 V c 1 ⟨n + 1, hn⟩) (iblk1 V c 2 ⟨n + 1, hn⟩) hc0 hc1,
        aFirst c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM (Memref.isWhole_whole _) scL (Memref.isWhole_whole _) scA (Memref.isWhole_whole _) (iblk1 V c 0 ⟨n + 1, hn⟩) (iblk1 V c 1 ⟨n + 1, hn⟩) (iblk1 V c 2 ⟨n + 1, hn⟩) hc0 hc1)
    else if h1 : (n + 1) % 4 = 3 then
      have hc0 : ¬cond1_0 (grid1.coords ⟨n + 1, hn⟩) := fun h => h0 ((hcond1_0 ⟨n + 1, hn⟩).mp h)
      have hc1 : cond1_1 (grid1.coords ⟨n + 1, hn⟩) := (hcond1_1 ⟨n + 1, hn⟩).mpr h1
      (oLast c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM (Memref.isWhole_whole _) scL (Memref.isWhole_whole _) scA (Memref.isWhole_whole _) (iblk1 V c 0 ⟨n + 1, hn⟩) (iblk1 V c 1 ⟨n + 1, hn⟩) (iblk1 V c 2 ⟨n + 1, hn⟩) (stAt c n (Nat.lt_of_succ_lt hn)).2.1 (stAt c n (Nat.lt_of_succ_lt hn)).2.2.1 (stAt c n (Nat.lt_of_succ_lt hn)).2.2.2 hc0 hc1,
        mLast c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM (Memref.isWhole_whole _) scL (Memref.isWhole_whole _) scA (Memref.isWhole_whole _) (iblk1 V c 0 ⟨n + 1, hn⟩) (iblk1 V c 1 ⟨n + 1, hn⟩) (iblk1 V c 2 ⟨n + 1, hn⟩) (stAt c n (Nat.lt_of_succ_lt hn)).2.1 (stAt c n (Nat.lt_of_succ_lt hn)).2.2.1 (stAt c n (Nat.lt_of_succ_lt hn)).2.2.2 hc0 hc1,
        lLast c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM (Memref.isWhole_whole _) scL (Memref.isWhole_whole _) scA (Memref.isWhole_whole _) (iblk1 V c 0 ⟨n + 1, hn⟩) (iblk1 V c 1 ⟨n + 1, hn⟩) (iblk1 V c 2 ⟨n + 1, hn⟩) (stAt c n (Nat.lt_of_succ_lt hn)).2.1 (stAt c n (Nat.lt_of_succ_lt hn)).2.2.1 (stAt c n (Nat.lt_of_succ_lt hn)).2.2.2 hc0 hc1,
        aLast c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM (Memref.isWhole_whole _) scL (Memref.isWhole_whole _) scA (Memref.isWhole_whole _) (iblk1 V c 0 ⟨n + 1, hn⟩) (iblk1 V c 1 ⟨n + 1, hn⟩) (iblk1 V c 2 ⟨n + 1, hn⟩) (stAt c n (Nat.lt_of_succ_lt hn)).2.1 (stAt c n (Nat.lt_of_succ_lt hn)).2.2.1 (stAt c n (Nat.lt_of_succ_lt hn)).2.2.2 hc0 hc1)
    else
      have hc0 : ¬cond1_0 (grid1.coords ⟨n + 1, hn⟩) := fun h => h0 ((hcond1_0 ⟨n + 1, hn⟩).mp h)
      have hc1 : ¬cond1_1 (grid1.coords ⟨n + 1, hn⟩) := fun h => h1 ((hcond1_1 ⟨n + 1, hn⟩).mp h)
      (VO.read (Elt F) VO.junk,
        mMid c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM (Memref.isWhole_whole _) scL (Memref.isWhole_whole _) scA (Memref.isWhole_whole _) (iblk1 V c 0 ⟨n + 1, hn⟩) (iblk1 V c 1 ⟨n + 1, hn⟩) (iblk1 V c 2 ⟨n + 1, hn⟩) (stAt c n (Nat.lt_of_succ_lt hn)).2.1 (stAt c n (Nat.lt_of_succ_lt hn)).2.2.1 (stAt c n (Nat.lt_of_succ_lt hn)).2.2.2 hc0 hc1,
        lMid c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM (Memref.isWhole_whole _) scL (Memref.isWhole_whole _) scA (Memref.isWhole_whole _) (iblk1 V c 0 ⟨n + 1, hn⟩) (iblk1 V c 1 ⟨n + 1, hn⟩) (iblk1 V c 2 ⟨n + 1, hn⟩) (stAt c n (Nat.lt_of_succ_lt hn)).2.1 (stAt c n (Nat.lt_of_succ_lt hn)).2.2.1 (stAt c n (Nat.lt_of_succ_lt hn)).2.2.2 hc0 hc1,
        aMid c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM (Memref.isWhole_whole _) scL (Memref.isWhole_whole _) scA (Memref.isWhole_whole _) (iblk1 V c 0 ⟨n + 1, hn⟩) (iblk1 V c 1 ⟨n + 1, hn⟩) (iblk1 V c 2 ⟨n + 1, hn⟩) (stAt c n (Nat.lt_of_succ_lt hn)).2.1 (stAt c n (Nat.lt_of_succ_lt hn)).2.2.1 (stAt c n (Nat.lt_of_succ_lt hn)).2.2.2 hc0 hc1)

/-- The previous position of a point that is not the first. -/
abbrev prevLt (t : Fin cfg1.N) : t.val - 1 < cfg1.N := Nat.lt_of_le_of_lt (Nat.sub_le _ _) t.isLt

/-- `stAt` at a point with k = 0. -/
theorem stAt_first (c : Dev nD) (t : Fin cfg1.N) (h0 : t.val % 4 = 0) :
    stAt V c t.val t.isLt = (VO.read (Elt F) VO.junk,
      mFirst c (grid1.coords t) (ms1_0 t) (hs1_0 t) (ms1_1 t) (hs1_1 t) (ms1_2 t) (hs1_2 t) (ms1_3 t) (hs1_3 t) scM (Memref.isWhole_whole _) scL (Memref.isWhole_whole _) scA (Memref.isWhole_whole _) (iblk1 V c 0 t) (iblk1 V c 1 t) (iblk1 V c 2 t) ((hcond1_0 t).mpr h0) (fun h => by have := (hcond1_1 t).mp h; omega),
      lFirst c (grid1.coords t) (ms1_0 t) (hs1_0 t) (ms1_1 t) (hs1_1 t) (ms1_2 t) (hs1_2 t) (ms1_3 t) (hs1_3 t) scM (Memref.isWhole_whole _) scL (Memref.isWhole_whole _) scA (Memref.isWhole_whole _) (iblk1 V c 0 t) (iblk1 V c 1 t) (iblk1 V c 2 t) ((hcond1_0 t).mpr h0) (fun h => by have := (hcond1_1 t).mp h; omega),
      aFirst c (grid1.coords t) (ms1_0 t) (hs1_0 t) (ms1_1 t) (hs1_1 t) (ms1_2 t) (hs1_2 t) (ms1_3 t) (hs1_3 t) scM (Memref.isWhole_whole _) scL (Memref.isWhole_whole _) scA (Memref.isWhole_whole _) (iblk1 V c 0 t) (iblk1 V c 1 t) (iblk1 V c 2 t) ((hcond1_0 t).mpr h0) (fun h => by have := (hcond1_1 t).mp h; omega)) := by
  obtain ⟨n, hn⟩ := t
  cases n with
  | zero => exact rfl
  | succ n => exact (dif_pos h0).trans rfl

/-- `stAt` at a point with k = 1, 2: over what the point before left. -/
theorem stAt_mid (c : Dev nD) (t : Fin cfg1.N) (h0 : ¬t.val % 4 = 0) (h1 : ¬t.val % 4 = 3) :
    stAt V c t.val t.isLt = (VO.read (Elt F) VO.junk,
      mMid c (grid1.coords t) (ms1_0 t) (hs1_0 t) (ms1_1 t) (hs1_1 t) (ms1_2 t) (hs1_2 t) (ms1_3 t) (hs1_3 t) scM (Memref.isWhole_whole _) scL (Memref.isWhole_whole _) scA (Memref.isWhole_whole _) (iblk1 V c 0 t) (iblk1 V c 1 t) (iblk1 V c 2 t) (stAt V c (t.val - 1) (prevLt t)).2.1 (stAt V c (t.val - 1) (prevLt t)).2.2.1 (stAt V c (t.val - 1) (prevLt t)).2.2.2 (fun h => h0 ((hcond1_0 t).mp h)) (fun h => h1 ((hcond1_1 t).mp h)),
      lMid c (grid1.coords t) (ms1_0 t) (hs1_0 t) (ms1_1 t) (hs1_1 t) (ms1_2 t) (hs1_2 t) (ms1_3 t) (hs1_3 t) scM (Memref.isWhole_whole _) scL (Memref.isWhole_whole _) scA (Memref.isWhole_whole _) (iblk1 V c 0 t) (iblk1 V c 1 t) (iblk1 V c 2 t) (stAt V c (t.val - 1) (prevLt t)).2.1 (stAt V c (t.val - 1) (prevLt t)).2.2.1 (stAt V c (t.val - 1) (prevLt t)).2.2.2 (fun h => h0 ((hcond1_0 t).mp h)) (fun h => h1 ((hcond1_1 t).mp h)),
      aMid c (grid1.coords t) (ms1_0 t) (hs1_0 t) (ms1_1 t) (hs1_1 t) (ms1_2 t) (hs1_2 t) (ms1_3 t) (hs1_3 t) scM (Memref.isWhole_whole _) scL (Memref.isWhole_whole _) scA (Memref.isWhole_whole _) (iblk1 V c 0 t) (iblk1 V c 1 t) (iblk1 V c 2 t) (stAt V c (t.val - 1) (prevLt t)).2.1 (stAt V c (t.val - 1) (prevLt t)).2.2.1 (stAt V c (t.val - 1) (prevLt t)).2.2.2 (fun h => h0 ((hcond1_0 t).mp h)) (fun h => h1 ((hcond1_1 t).mp h))) := by
  obtain ⟨n, hn⟩ := t
  cases n with
  | zero => exact (by exfalso; (try dsimp only at h0); exact absurd (Nat.zero_mod _) h0)
  | succ n => exact (dif_neg h0).trans ((dif_neg h1).trans rfl)

/-- `stAt` at a point with k = 3: over what the point before left. -/
theorem stAt_last (c : Dev nD) (t : Fin cfg1.N) (h0 : ¬t.val % 4 = 0) (h1 : t.val % 4 = 3) :
    stAt V c t.val t.isLt = (
      oLast c (grid1.coords t) (ms1_0 t) (hs1_0 t) (ms1_1 t) (hs1_1 t) (ms1_2 t) (hs1_2 t) (ms1_3 t) (hs1_3 t) scM (Memref.isWhole_whole _) scL (Memref.isWhole_whole _) scA (Memref.isWhole_whole _) (iblk1 V c 0 t) (iblk1 V c 1 t) (iblk1 V c 2 t) (stAt V c (t.val - 1) (prevLt t)).2.1 (stAt V c (t.val - 1) (prevLt t)).2.2.1 (stAt V c (t.val - 1) (prevLt t)).2.2.2 (fun h => h0 ((hcond1_0 t).mp h)) ((hcond1_1 t).mpr h1),
      mLast c (grid1.coords t) (ms1_0 t) (hs1_0 t) (ms1_1 t) (hs1_1 t) (ms1_2 t) (hs1_2 t) (ms1_3 t) (hs1_3 t) scM (Memref.isWhole_whole _) scL (Memref.isWhole_whole _) scA (Memref.isWhole_whole _) (iblk1 V c 0 t) (iblk1 V c 1 t) (iblk1 V c 2 t) (stAt V c (t.val - 1) (prevLt t)).2.1 (stAt V c (t.val - 1) (prevLt t)).2.2.1 (stAt V c (t.val - 1) (prevLt t)).2.2.2 (fun h => h0 ((hcond1_0 t).mp h)) ((hcond1_1 t).mpr h1),
      lLast c (grid1.coords t) (ms1_0 t) (hs1_0 t) (ms1_1 t) (hs1_1 t) (ms1_2 t) (hs1_2 t) (ms1_3 t) (hs1_3 t) scM (Memref.isWhole_whole _) scL (Memref.isWhole_whole _) scA (Memref.isWhole_whole _) (iblk1 V c 0 t) (iblk1 V c 1 t) (iblk1 V c 2 t) (stAt V c (t.val - 1) (prevLt t)).2.1 (stAt V c (t.val - 1) (prevLt t)).2.2.1 (stAt V c (t.val - 1) (prevLt t)).2.2.2 (fun h => h0 ((hcond1_0 t).mp h)) ((hcond1_1 t).mpr h1),
      aLast c (grid1.coords t) (ms1_0 t) (hs1_0 t) (ms1_1 t) (hs1_1 t) (ms1_2 t) (hs1_2 t) (ms1_3 t) (hs1_3 t) scM (Memref.isWhole_whole _) scL (Memref.isWhole_whole _) scA (Memref.isWhole_whole _) (iblk1 V c 0 t) (iblk1 V c 1 t) (iblk1 V c 2 t) (stAt V c (t.val - 1) (prevLt t)).2.1 (stAt V c (t.val - 1) (prevLt t)).2.2.1 (stAt V c (t.val - 1) (prevLt t)).2.2.2 (fun h => h0 ((hcond1_0 t).mp h)) ((hcond1_1 t).mpr h1)) := by
  obtain ⟨n, hn⟩ := t
  cases n with
  | zero => exact (by exfalso; (try dsimp only at h0); exact absurd (Nat.zero_mod _) h0)
  | succ n => exact (dif_neg h0).trans ((dif_pos h1).trans rfl)

/-! ## The invariant between points -/

/-- Before position `n`: where `n` is a multiple of 4 (a point with k = 0 follows, or the region is over) the
    carried buffers at anything; elsewhere at what the point before left. -/
def Phi1 (c : Dev nD) (n : ℕ) (hn : n ≤ cfg1.N) : sProp 𝕄 :=
  if h : n % 4 = 0 then PhiF (F := F) c
  else PhiN c (stAt V c (n - 1) (by omega)).2.1 (stAt V c (n - 1) (by omega)).2.2.1 (stAt V c (n - 1) (by omega)).2.2.2

theorem Phi1_zero (c : Dev nD) (n : ℕ) (hn : n ≤ cfg1.N) (h : n % 4 = 0) : Phi1 V c n hn = PhiF (F := F) c := dif_pos h
theorem Phi1_pos (c : Dev nD) (n : ℕ) (hn : n ≤ cfg1.N) (h : ¬n % 4 = 0) :
    Phi1 V c n hn = PhiN c (stAt V c (n - 1) (by omega)).2.1 (stAt V c (n - 1) (by omega)).2.2.1 (stAt V c (n - 1) (by omega)).2.2.2 := dif_neg h

/-! ## The pipeline's proof data -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (stAt V c t.val t.isLt).1
  Φ t := Phi1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem Phi1_castSucc (c : Dev nD) (t : Fin cfg1.N) :
    (dat1 V c).Φ t.castSucc = Phi1 V c t.val (Nat.le_of_lt t.isLt) := by
  dsimp only [dat1]; simp only [Fin.coe_castSucc]
theorem Phi1_succ (c : Dev nD) (t : Fin cfg1.N) :
    (dat1 V c).Φ t.succ = Phi1 V c (t.val + 1) t.isLt := rfl

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (stAt V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 8000000 in
/-- The body at any point: the inputs' memrefs hold their blocks; `k` decides which run applies; the invariant hands
    the body the carried buffers (at anything where k = 0, at what the point before left elsewhere) and takes them
    back at this point's contents (unnamed after k = 3); the projection stage's buffers and the generator register ride
    along; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [Phi1_succ, Phi1_castSucc]
  have hN : t.val < 64 := lt_of_lt_of_eq t.isLt (show cfg1.N = 64 from N_1)
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  by_cases h0 : t.val % 4 = 0
  · have h1 : ¬t.val % 4 = 3 := by omega
    rw [Dat.leavesExact_idle (dat1 V c) 3 t (idleAt1_3 t (fun h => h1 ((hcond1_1 t).mp h))) (noFlush1_3 t (fun h => h1 ((hcond1_1 t).mp h)))]
    rw [Phi1_zero V c _ _ h0, Phi1_pos V c (t.val + 1) _ (by omega)]
    simp only [Nat.add_sub_cancel]
    rw [stAt_first V c t h0]
    unfold PhiF PhiN mFirst lFirst aFirst; (try dsimp only)
    iintro ⟨⟨⟨HR, HM, HL, HA⟩, Hg⟩, Ho, ⟨%d0, H0⟩, ⟨%d1, H1⟩, ⟨%d2, H2⟩, ⟨%d3, H3⟩⟩
    iapply ((runFirst c (grid1.coords t) _ _ _ _ _ _ _ _ _ _ _ _ _ _ ((hcond1_0 t).mpr h0) (fun h => h1 ((hcond1_1 t).mp h)) (iblk1 V c 0 t) (iblk1 V c 1 t) (iblk1 V c 2 t)).2.2.2 _ Set.univ _)
    isplitl [H0]; · iexact H0
    isplitl [H1]; · iexact H1
    isplitl [H2]; · iexact H2
    isplitl [H3]; · iexact H3
    isplitl [HM]; · iexact HM
    isplitl [HL]; · iexact HL
    isplitl [HA]; · iexact HA
    iintro ⟨H0, H1, H2, H3, ⟨%em, HM⟩, ⟨%el, HL⟩, ⟨%ea, HA⟩⟩
    isplitl [HR HM HL HA Hg]
    · isplitr [Hg]
      · isplitl [HR]; · iexact HR
        isplitl [HM]
        · unfold owns; iexists _; isplitr
          swap; · iexact HM
          ipureintro; exact View.read_writes_of_cover _ _ _ _ _ (mcoverFirst c _ _ _ _ _ _ _ _ _ _ _ _ _ _ _ _ _ _ _ _)
        isplitl [HL]
        · unfold owns; iexists _; isplitr
          swap; · iexact HL
          ipureintro; exact View.read_writes_of_cover _ _ _ _ _ (lcoverFirst c _ _ _ _ _ _ _ _ _ _ _ _ _ _ _ _ _ _ _ _)
        unfold owns; iexists _; isplitr
        swap; · iexact HA
        ipureintro; exact View.read_writes_of_cover _ _ _ _ _ (acoverFirst c _ _ _ _ _ _ _ _ _ _ _ _ _ _ _ _ _ _ _ _)
      iexact Hg
    isplitl [Ho]; · iexact Ho
    isplitl [H0]; · iexact H0
    isplitl [H1]; · iexact H1
    isplitl [H2]; · iexact H2
    iexists _; iexact H3
  · by_cases h1 : t.val % 4 = 3
    · rw [show (dat1 V c).leavesExact 3 t = owns (c : Thread nD τ) (ms1_3 t) fullShare ((dat1 V c).after 3 t) from by
        unfold Dat.leavesExact; rw [liveAt1_3 t ((hcond1_1 t).mpr h1)], after1_3]
      rw [Phi1_pos V c _ _ h0, Phi1_zero V c (t.val + 1) _ (by omega)]
      rw [stAt_last V c t h0 h1]
      unfold PhiF PhiN oLast; (try dsimp only)
      iintro ⟨⟨⟨HR, HM, HL, HA⟩, Hg⟩, Ho, ⟨%d0, H0⟩, ⟨%d1, H1⟩, ⟨%d2, H2⟩, ⟨%d3, H3⟩⟩
      iapply ((runLast c (grid1.coords t) _ _ _ _ _ _ _ _ _ _ _ _ _ _ (fun h => h0 ((hcond1_0 t).mp h)) ((hcond1_1 t).mpr h1) (iblk1 V c 0 t) (iblk1 V c 1 t) (iblk1 V c 2 t) _ _ _).2.2.2.2 Set.univ _)
      isplitl [H0]; · iexact H0
      isplitl [H1]; · iexact H1
      isplitl [H2]; · iexact H2
      isplitl [H3]; · iexists _; iexact H3
      isplitl [HM]; · iexact HM
      isplitl [HL]; · iexact HL
      isplitl [HA]; · iexact HA
      iintro ⟨H0, H1, H2, ⟨%e3, H3⟩, ⟨%em, HM⟩, ⟨%el, HL⟩, ⟨%ea, HA⟩⟩
      isplitl [HR HM HL HA Hg]
      · isplitr [Hg]
        · isplitl [HR]; · iexact HR
          isplitl [HM]
          · iexists _; unfold owns; iexists _; isplitr
            swap; · iexact HM
            ipureintro; rfl
          isplitl [HL]
          · iexists _; unfold owns; iexists _; isplitr
            swap; · iexact HL
            ipureintro; rfl
          iexists _; unfold owns; iexists _; isplitr
          swap; · iexact HA
          ipureintro; rfl
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (ocoverLast c _ _ _ _ _ _ _ _ _ _ _ _ _ _ _ _ _ _ _ _ _ _ _)
    · rw [Dat.leavesExact_idle (dat1 V c) 3 t (idleAt1_3 t (fun h => h1 ((hcond1_1 t).mp h))) (noFlush1_3 t (fun h => h1 ((hcond1_1 t).mp h)))]
      rw [Phi1_pos V c _ _ h0, Phi1_pos V c (t.val + 1) _ (by omega)]
      simp only [Nat.add_sub_cancel]
      rw [stAt_mid V c t h0 h1]
      unfold PhiN mMid lMid aMid; (try dsimp only)
      iintro ⟨⟨⟨HR, HM, HL, HA⟩, Hg⟩, Ho, ⟨%d0, H0⟩, ⟨%d1, H1⟩, ⟨%d2, H2⟩, ⟨%d3, H3⟩⟩
      iapply ((runMid c (grid1.coords t) _ _ _ _ _ _ _ _ _ _ _ _ _ _ (fun h => h0 ((hcond1_0 t).mp h)) (fun h => h1 ((hcond1_1 t).mp h)) (iblk1 V c 0 t) (iblk1 V c 1 t) (iblk1 V c 2 t) _ _ _).2.2.2 _ Set.univ _)
      isplitl [H0]; · iexact H0
      isplitl [H1]; · iexact H1
      isplitl [H2]; · iexact H2
      isplitl [H3]; · iexact H3
      isplitl [HM]; · iexact HM
      isplitl [HL]; · iexact HL
      isplitl [HA]; · iexact HA
      iintro ⟨H0, H1, H2, H3, ⟨%em, HM⟩, ⟨%el, HL⟩, ⟨%ea, HA⟩⟩
      isplitl [HR HM HL HA Hg]
      · isplitr [Hg]
        · isplitl [HR]; · iexact HR
          isplitl [HM]
          · unfold owns; iexists _; isplitr
            swap; · iexact HM
            ipureintro; exact View.read_writes_of_cover _ _ _ _ _ (mcoverMid c _ _ _ _ _ _ _ _ _ _ _ _ _ _ _ _ _ _ _ _ _ _ _)
          isplitl [HL]
          · unfold owns; iexists _; isplitr
            swap; · iexact HL
            ipureintro; exact View.read_writes_of_cover _ _ _ _ _ (lcoverMid c _ _ _ _ _ _ _ _ _ _ _ _ _ _ _ _ _ _ _ _ _ _ _)
          unfold owns; iexists _; isplitr
          swap; · iexact HA
          ipureintro; exact View.read_writes_of_cover _ _ _ _ _ (acoverMid c _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      iexists _; iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = Phi1 V c 0 (Nat.zero_le _) from rfl, Phi1_zero V c 0 _ rfl]
  exact PhiA1_split c

/-- After the last point the invariant gives it back. -/
theorem hout1 (c : Dev nD) : (dat1 V c).Φ (Fin.last cfg1.N) ⊢ Pipeline.ΦA spec1 c := by
  rw [show (dat1 V c).Φ (Fin.last cfg1.N) = Phi1 V c cfg1.N (le_refl _) from rfl, Phi1_zero V c _ _ (by rw [show cfg1.N = 64 from N_1])]
  exact PhiA1_join c

end Cert.KernelIdeal.Frame

end
-- ==== Proof.KIRun.lean ====
/-
  The whole program as two pipelined regions run one after the other. The unscoped buffers' contents at the three
  boundaries: as launched; after the projection stage (its three result arrays at what its write-backs leave,
  every other buffer as launched); after the attention stage (its result array at what its write-backs leave). Each
  region is entered from the contents the one before left. The run: every weakly fair execution terminates,
  nothing faults, the four argument arrays end as launched and the result array ends at the attention stage's
  written-back blocks.
-/
import proofs.«162099_j9010841387309_2_alg».proof.Proof.KIRegion0
import proofs.«162099_j9010841387309_2_alg».proof.Proof.KIRegion1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => m (c, b)
abbrev V0e : (c : Dev nD) → (b : Ref sig .tc) → Buf (Elt F) ((c : Thread nD τ).loc b) := fun c b => W0 m c b
/-- After the projection stage. -/
def W1 (c : Dev nD) : Valuation τ sig (Elt F) :=
  Pipeline.withArrays spec0 c (W0 m c) fun w => (dat0 (V0e m) c).arrAt w cfg0.N
theorem W1_arr (c : Dev nD) (w : Fin cfg0.W) :
    W1 m c (Proc.devRef .tc (Pipeline.arrRef spec0 w)) = (dat0 (V0e m) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m c (Proc.devRef .tc b) = W0 m c (Proc.devRef .tc b) := by
  unfold W1; exact Pipeline.withArrays_of_ne spec0 c _ _ b hb
abbrev V1e : (c : Dev nD) → (b : Ref sig .tc) → Buf (Elt F) ((c : Thread nD τ).loc b) := fun c b => W1 m c b
theorem hF0 (c : Dev nD) (w : Fin cfg0.W) : (dat0 (V0e m) c).arrAt w cfg0.N = V1e m c (Pipeline.arrRef spec0 w) :=
  (W1_arr m c w).symm
theorem hrest0 (c : Dev nD) : ∀ b, b ∉ Finset.univ.image (Pipeline.arrRef spec0) → V1e m c b = V0e m c b :=
  fun b hb => W1_of_ne m c b fun w e => hb (Finset.mem_image.mpr ⟨w, Finset.mem_univ _, e⟩)
/-- After the attention stage. -/
def W2 (c : Dev nD) : Valuation τ sig (Elt F) :=
  Pipeline.withArrays spec1 c (W1 m c) fun w => (dat1 (V1e m) c).arrAt w cfg1.N
theorem W2_arr (c : Dev nD) (w : Fin cfg1.W) :
    W2 m c (Proc.devRef .tc (Pipeline.arrRef spec1 w)) = (dat1 (V1e m) c).arrAt w cfg1.N := by
  unfold W2; exact Pipeline.withArrays_arr spec1 launch1.win.arr_inj c _ _ w
theorem W2_of_ne (c : Dev nD) (b : Ref sig .tc) (hb : ∀ w, Pipeline.arrRef spec1 w ≠ b) :
    W2 m c (Proc.devRef .tc b) = W1 m c (Proc.devRef .tc b) := by
  unfold W2; exact Pipeline.withArrays_of_ne spec1 c _ _ b hb
abbrev V2e : (c : Dev nD) → (b : Ref sig .tc) → Buf (Elt F) ((c : Thread nD τ).loc b) := fun c b => W2 m c b
theorem hF1 (c : Dev nD) (w : Fin cfg1.W) : (dat1 (V1e m) c).arrAt w cfg1.N = V2e m c (Pipeline.arrRef spec1 w) :=
  (W2_arr m c w).symm
theorem hrest1 (c : Dev nD) : ∀ b, b ∉ Finset.univ.image (Pipeline.arrRef spec1) → V2e m c b = V1e m c b :=
  fun b hb => W2_of_ne m c b fun w e => hb (Finset.mem_image.mpr ⟨w, Finset.mem_univ _, e⟩)

/-! ### The arguments end as launched: the projection stage only reads them, the attention stage bypasses them -/

theorem W2_main_arg0 (c : Dev nD) : W2 m c (Proc.devRef .tc main_arg0) = m ((c : Thread nD τ).loc main_arg0) :=
  calc W2 m c (Proc.devRef .tc main_arg0)
    _ = W1 m c (Proc.devRef .tc main_arg0) := W2_of_ne m c main_arg0 (by decide)
    _ = W0 m c (Proc.devRef .tc main_arg0) := (W1_arr m c 0).trans (((dat0 (V0e m) c).arrAt_in 0 rfl _).trans (A_eq0 (V0e m) c 0))
    _ = m ((c : Thread nD τ).loc main_arg0) := rfl
theorem W2_main_arg1 (c : Dev nD) : W2 m c (Proc.devRef .tc main_arg1) = m ((c : Thread nD τ).loc main_arg1) :=
  calc W2 m c (Proc.devRef .tc main_arg1)
    _ = W1 m c (Proc.devRef .tc main_arg1) := W2_of_ne m c main_arg1 (by decide)
    _ = W0 m c (Proc.devRef .tc main_arg1) := (W1_arr m c 1).trans (((dat0 (V0e m) c).arrAt_in 1 rfl _).trans (A_eq0 (V0e m) c 1))
    _ = m ((c : Thread nD τ).loc main_arg1) := rfl
theorem W2_main_arg2 (c : Dev nD) : W2 m c (Proc.devRef .tc main_arg2) = m ((c : Thread nD τ).loc main_arg2) :=
  calc W2 m c (Proc.devRef .tc main_arg2)
    _ = W1 m c (Proc.devRef .tc main_arg2) := W2_of_ne m c main_arg2 (by decide)
    _ = W0 m c (Proc.devRef .tc main_arg2) := (W1_arr m c 2).trans (((dat0 (V0e m) c).arrAt_in 2 rfl _).trans (A_eq0 (V0e m) c 2))
    _ = m ((c : Thread nD τ).loc main_arg2) := rfl
theorem W2_main_arg3 (c : Dev nD) : W2 m c (Proc.devRef .tc main_arg3) = m ((c : Thread nD τ).loc main_arg3) :=
  calc W2 m c (Proc.devRef .tc main_arg3)
    _ = W1 m c (Proc.devRef .tc main_arg3) := W2_of_ne m c main_arg3 (by decide)
    _ = W0 m c (Proc.devRef .tc main_arg3) := (W1_arr m c 3).trans (((dat0 (V0e m) c).arrAt_in 3 rfl _).trans (A_eq0 (V0e m) c 3))
    _ = m ((c : Thread nD τ).loc main_arg3) := rfl

/-- The result array ends at what the attention stage's write-backs leave. -/
theorem W2_main_v1 (c : Dev nD) : W2 m c (Proc.devRef .tc main_v1) = (dat1 (V1e m) c).arrAt 3 cfg1.N := W2_arr m c 3

/-! ## The proof data family and the thread state -/

abbrev adm : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) adm p) c
  | ⟨0, _⟩ => fun c => dat0 (V0e m) c
  | ⟨1, _⟩ => fun c => dat1 (V1e m) c
abbrev 𝒱₀ : Variants := Variants.none
abbrev L : GSem nD τ sig → Finset Unit := fun _ => ∅
abbrev lv : GSem nD τ sig → Unit → ℕ := fun _ _ => 0
/-- What rides beside the buffers through both regions: the generator register at some state, nothing owed. -/
abbrev R (c : Dev nD) : sProp 𝕄 := iprop((∃ r, prngReg c r) ∗ ∃ W, owes (c : Thread nD τ) (0 : CellTallies nD τ sig Unit) W)
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W2 m c) ∗ ∃ r, prngReg c r)

/-! ## The regions as segments -/

set_option backward.isDefEq.respectTransparency.types false in
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0e m) c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W1 m c) ∗ R c)
  X c := iprop(∃ r, prngReg c r)
  Y c := iprop(∃ r, prngReg c r)
  Z c := Pipeline.unscopedRest (Ix := Unit) (Name := ℕ) (U := UR sig nD τ) (Lvl := ℕ) spec0 c (V0e m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V0e m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V0e m c) (V1e m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V1e m) c).loose
  hwaits := Pipeline.hwaits_of_owed_zero _ _ _ _ L lv 1 fun _ _ => rfl
  pre c := iprop(StableHlo.held (c : Thread nD τ) (Pipeline.ucRefs τ sig) (W1 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V1e m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V1e m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (show _ ⊢ (Pipeline.ΦA spec1 c : sProp 𝕄) from ?_).trans (hin1 (V1e m) c)
    unfold Pipeline.ΦA
    iintro ⟨Hp, -, Hr⟩
    isplitl [Hr]; · iexact Hr
    iexact Hp
  hout c := by
    rw [Pipeline.ownSems0_none]
    refine (hout1 (V1e m) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V1e m c) (V2e m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The run -/

abbrev segs : List (Pipeline.Seg (pcfgs (F := F)) adm (pdats m) () defs₀ 𝒱₀ L lv) :=
  [ .region (reg0 m), .region (reg1 m) ]
theorem main_run (c : Dev nD) : main (F := F) c = Pipeline.Seg.run (segs m) := (main_chain c).trans (by chain_rfl)

set_option backward.isDefEq.respectTransparency.types false in
/-- From any memory with zero counters every weakly fair execution terminates, nothing faulting, and every final
    state has the result array at the attention stage's written-back blocks and the argument arrays as launched. -/
theorem run : θ_run defs (onTc (τ := τ) (main (F := F))) ⟨m, fun _ => 0, ρ⟩ (fun r => ∀ c : Dev nD,
      r.2.mem ((c.tc : Thread nD τ).loc main_v1) = (dat1 (V1e m) c).arrAt 3 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W2 m c b)
    (hfin := fun c s' => by
      iintro ⟨⟨Hh, -⟩, HSI⟩
      unfold StableHlo.held
      imodintro
      iapply (pointsTo_read_all (Pipeline.ucRefs τ sig) (fun b => (((c : Thread nD τ)).1, b)) (W2 m c) s')
      isplitl [Hh] <;> iassumption)
    (hQ := fun s h c =>
      ⟨(h c _ (mem_uc main_v1 (by decide))).trans (W2_main_v1 m c),
       (h c _ (mem_uc main_arg0 (by decide))).trans (W2_main_arg0 m c),
       (h c _ (mem_uc main_arg1 (by decide))).trans (W2_main_arg1 m c),
       (h c _ (mem_uc main_arg2 (by decide))).trans (W2_main_arg2 m c),
       (h c _ (mem_uc main_arg3 (by decide))).trans (W2_main_arg3 m c)⟩)

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => (h c).2) (run m ρ)

end Cert.KernelIdeal.Frame

end
-- ==== Proof.KIPieces.lean ====
/-
  What each run of the attention body leaves, read back as values: every store of the body writes a whole buffer,
  so a buffer ends holding the payload of its last store, whose loads read whole buffers too — the carried
  buffers as the point found them (or, where k = 0, as the reset stores just left them), and at k = 3 the
  numerator and denominator as the same point's stores left them.
-/
import proofs.«162099_j9010841387309_2_alg».proof.Proof.KIRegion1
import Idealize.ShloMosaic.Lib.Pipeline.Value
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hz2 : (![0, 0] : Fin 2 → Nat) = fun _ => 0 := funext fun a => by fin_cases a <;> rfl
theorem hz3 : (![0, 0, 0] : Fin 3 → Nat) = fun _ => 0 := funext fun a => by fin_cases a <;> rfl

section
variable (c : Dev nD) (i : grid1.Coords) (arg3 : Memref sig .tc .vmem S1x1024x64 .bf16) (harg3 : arg3.IsWhole) (arg4 : Memref sig .tc .vmem S1x64x1024 .bf16) (harg4 : arg4.IsWhole)
    (arg5 : Memref sig .tc .vmem S1x1024x64 .bf16) (harg5 : arg5.IsWhole) (arg6 : Memref sig .tc .vmem S1x1024x64 .f32) (harg6 : arg6.IsWhole)
    (arg7 : Memref sig .tc .vmem S1024x1 .f32) (harg7 : arg7.IsWhole) (arg8 : Memref sig .tc .vmem S1024x1 .f32) (harg8 : arg8.IsWhole)
    (arg9 : Memref sig .tc .vmem S1024x64 .f32) (harg9 : arg9.IsWhole) (x0 : Vec F S1x1024x64 .bf16) (x1 : Vec F S1x64x1024 .bf16) (x2 : Vec F S1x1024x64 .bf16)

/-! ## k = 1, 2 -/

section Mid
variable (xm xl : Vec F S1024x1 .f32) (xa : Vec F S1024x64 .f32) (hc0 : ¬cond1_0 i) (hc1 : ¬cond1_1 i)

theorem mMid_eq : mMid c i arg3 harg3 arg4 harg4 arg5 harg5 arg6 harg6 arg7 harg7 arg8 harg8 arg9 harg9 x0 x1 x2 xm xl xa hc0 hc1 = k1_pay2 (k1_pay9 x0 x1 xm) := by
  unfold mMid
  rw [View.read_writes_eq_canon _ _ _ (mcoverMid c i arg3 harg3 arg4 harg4 arg5 harg5 arg6 harg6 arg7 harg7 arg8 harg8 arg9 harg9 x0 x1 x2 xm xl xa hc0 hc1)]
  unfold runMid
  dsimp only
  sl_unfold_words
  rw [View.canon_unit_zero hz2]
  simp only [View.readAt_eq_ld, harg3.read_unread, harg4.read_unread, harg5.read_unread, harg7.read_unread, harg8.read_unread, harg9.read_unread,
    View.ld_unit_zero (S := S1x1024x64) hz3, View.ld_unit_zero (S := S1x64x1024) hz3, View.ld_unit_zero (S := S1024x1) hz2, View.ld_unit_zero (S := S1024x64) hz2]

theorem lMid_eq : lMid c i arg3 harg3 arg4 harg4 arg5 harg5 arg6 harg6 arg7 harg7 arg8 harg8 arg9 harg9 x0 x1 x2 xm xl xa hc0 hc1 = k1_pay12 x0 x1 xm xm xl := by
  unfold lMid
  rw [View.read_writes_eq_canon _ _ _ (lcoverMid c i arg3 harg3 arg4 harg4 arg5 harg5 arg6 harg6 arg7 harg7 arg8 harg8 arg9 harg9 x0 x1 x2 xm xl xa hc0 hc1)]
  unfold runMid
  dsimp only
  sl_unfold_words
  rw [View.canon_unit_zero hz2]
  simp only [View.readAt_eq_ld, harg3.read_unread, harg4.read_unread, harg5.read_unread, harg7.read_unread, harg8.read_unread, harg9.read_unread,
    View.ld_unit_zero (S := S1x1024x64) hz3, View.ld_unit_zero (S := S1x64x1024) hz3, View.ld_unit_zero (S := S1024x1) hz2, View.ld_unit_zero (S := S1024x64) hz2]

theorem aMid_eq : aMid c i arg3 harg3 arg4 harg4 arg5 harg5 arg6 harg6 arg7 harg7 arg8 harg8 arg9 harg9 x0 x1 x2 xm xl xa hc0 hc1
    = k1_pay1 (k1_pay7 x2) (k1_pay10 x0 x1 xm xm) (k1_pay11 x0 x1 xm) xa := by
  unfold aMid
  rw [View.read_writes_eq_canon _ _ _ (acoverMid c i arg3 harg3 arg4 harg4 arg5 harg5 arg6 harg6 arg7 harg7 arg8 harg8 arg9 harg9 x0 x1 x2 xm xl xa hc0 hc1)]
  unfold runMid
  dsimp only
  sl_unfold_words
  rw [View.canon_unit_zero hz2]
  simp only [View.readAt_eq_ld, harg3.read_unread, harg4.read_unread, harg5.read_unread, harg7.read_unread, harg8.read_unread, harg9.read_unread,
    View.ld_unit_zero (S := S1x1024x64) hz3, View.ld_unit_zero (S := S1x64x1024) hz3, View.ld_unit_zero (S := S1024x1) hz2, View.ld_unit_zero (S := S1024x64) hz2]

end Mid

/-! ## k = 0 -/

section First
variable (hc0 : cond1_0 i) (hc1 : ¬cond1_1 i)

theorem mFirst_eq : mFirst c i arg3 harg3 arg4 harg4 arg5 harg5 arg6 harg6 arg7 harg7 arg8 harg8 arg9 harg9 x0 x1 x2 hc0 hc1 = k1_pay2 (k1_pay9 x0 x1 k1_pay4) := by
  unfold mFirst
  rw [View.read_writes_eq_canon _ _ _ (mcoverFirst c i arg3 harg3 arg4 harg4 arg5 harg5 arg6 harg6 arg7 harg7 arg8 harg8 arg9 harg9 x0 x1 x2 hc0 hc1)]
  unfold runFirst
  dsimp only
  sl_unfold_words
  rw [View.canon_cons_unit_zero (S := S1024x1) hz2]
  simp only [View.readCov_unit_zero (S := S1024x1) _ hz2, View.readCov_unit_zero (S := S1024x64) _ hz2]
  simp only [View.readAt_eq_ld, harg3.read_unread, harg4.read_unread, harg5.read_unread, harg7.read_unread, harg8.read_unread, harg9.read_unread,
    View.ld_unit_zero (S := S1x1024x64) hz3, View.ld_unit_zero (S := S1x64x1024) hz3, View.ld_unit_zero (S := S1024x1) hz2, View.ld_unit_zero (S := S1024x64) hz2]

theorem lFirst_eq : lFirst c i arg3 harg3 arg4 harg4 arg5 harg5 arg6 harg6 arg7 harg7 arg8 harg8 arg9 harg9 x0 x1 x2 hc0 hc1 = k1_pay12 x0 x1 k1_pay4 k1_pay4 k1_pay5 := by
  unfold lFirst
  rw [View.read_writes_eq_canon _ _ _ (lcoverFirst c i arg3 harg3 arg4 harg4 arg5 harg5 arg6 harg6 arg7 harg7 arg8 harg8 arg9 harg9 x0 x1 x2 hc0 hc1)]
  unfold runFirst
  dsimp only
  sl_unfold_words
  rw [View.canon_cons_unit_zero (S := S1024x1) hz2]
  simp only [View.readCov_unit_zero (S := S1024x1) _ hz2, View.readCov_unit_zero (S := S1024x64) _ hz2]
  simp only [View.readAt_eq_ld, harg3.read_unread, harg4.read_unread, harg5.read_unread, harg7.read_unread, harg8.read_unread, harg9.read_unread,
    View.ld_unit_zero (S := S1x1024x64) hz3, View.ld_unit_zero (S := S1x64x1024) hz3, View.ld_unit_zero (S := S1024x1) hz2, View.ld_unit_zero (S := S1024x64) hz2]

theorem aFirst_eq : aFirst c i arg3 harg3 arg4 harg4 arg5 harg5 arg6 harg6 arg7 harg7 arg8 harg8 arg9 harg9 x0 x1 x2 hc0 hc1
    = k1_pay1 (k1_pay7 x2) (k1_pay10 x0 x1 k1_pay4 k1_pay4) (k1_pay11 x0 x1 k1_pay4) k1_pay6 := by
  unfold aFirst
  rw [View.read_writes_eq_canon _ _ _ (acoverFirst c i arg3 harg3 arg4 harg4 arg5 harg5 arg6 harg6 arg7 harg7 arg8 harg8 arg9 harg9 x0 x1 x2 hc0 hc1)]
  unfold runFirst
  dsimp only
  sl_unfold_words
  rw [View.canon_cons_unit_zero (S := S1024x64) hz2]
  simp only [View.readCov_unit_zero (S := S1024x1) _ hz2, View.readCov_unit_zero (S := S1024x64) _ hz2]
  simp only [View.readAt_eq_ld, harg3.read_unread, harg4.read_unread, harg5.read_unread, harg7.read_unread, harg8.read_unread, harg9.read_unread,
    View.ld_unit_zero (S := S1x1024x64) hz3, View.ld_unit_zero (S := S1x64x1024) hz3, View.ld_unit_zero (S := S1024x1) hz2, View.ld_unit_zero (S := S1024x64) hz2]

end First

/-! ## k = 3 -/

section Last
variable (xm xl : Vec F S1024x1 .f32) (xa : Vec F S1024x64 .f32) (hc0 : ¬cond1_0 i) (hc1 : cond1_1 i)

theorem oLast_eq : oLast c i arg3 harg3 arg4 harg4 arg5 harg5 arg6 harg6 arg7 harg7 arg8 harg8 arg9 harg9 x0 x1 x2 xm xl xa hc0 hc1
    = k1_pay3 (k1_pay1 (k1_pay7 x2) (k1_pay10 x0 x1 xm xm) (k1_pay11 x0 x1 xm) xa) (k1_pay12 x0 x1 xm xm xl) := by
  unfold oLast
  rw [View.read_writes_eq_canon _ _ _ (ocoverLast c i arg3 harg3 arg4 harg4 arg5 harg5 arg6 harg6 arg7 harg7 arg8 harg8 arg9 harg9 x0 x1 x2 xm xl xa hc0 hc1)]
  unfold runLast
  dsimp only
  sl_unfold_words
  rw [View.canon_unit_zero hz3]
  simp only [View.readCov_unit_zero (S := S1024x1) _ hz2, View.readCov_unit_zero (S := S1024x64) _ hz2]
  simp only [View.readAt_eq_ld, harg3.read_unread, harg4.read_unread, harg5.read_unread, harg7.read_unread, harg8.read_unread, harg9.read_unread,
    View.ld_unit_zero (S := S1x1024x64) hz3, View.ld_unit_zero (S := S1x64x1024) hz3, View.ld_unit_zero (S := S1024x1) hz2, View.ld_unit_zero (S := S1024x64) hz2]
theorem mcoverLast (hc0 : ¬cond1_0 i) (hc1 : cond1_1 i) (y : S1024x1.Idx) :
    ∃ pc ∈ (runLast c i arg3 harg3 arg4 harg4 arg5 harg5 arg6 harg6 arg7 harg7 arg8 harg8 arg9 harg9 hc0 hc1 x0 x1 x2 xm xl xa).2.1, y ∈ pc.1.set :=
  View.cover_of_tiledL (runLast c i arg3 harg3 arg4 harg4 arg5 harg5 arg6 harg6 arg7 harg7 arg8 harg8 arg9 harg9 hc0 hc1 x0 x1 x2 xm xl xa).2.1 S1024x1.size (by sl_kernel_rfl) y
theorem lcoverLast (hc0 : ¬cond1_0 i) (hc1 : cond1_1 i) (y : S1024x1.Idx) :
    ∃ pc ∈ (runLast c i arg3 harg3 arg4 harg4 arg5 harg5 arg6 harg6 arg7 harg7 arg8 harg8 arg9 harg9 hc0 hc1 x0 x1 x2 xm xl xa).2.2.1, y ∈ pc.1.set :=
  View.cover_of_tiledL (runLast c i arg3 harg3 arg4 harg4 arg5 harg5 arg6 harg6 arg7 harg7 arg8 harg8 arg9 harg9 hc0 hc1 x0 x1 x2 xm xl xa).2.2.1 S1024x1.size (by sl_kernel_rfl) y
theorem acoverLast (hc0 : ¬cond1_0 i) (hc1 : cond1_1 i) (y : S1024x64.Idx) :
    ∃ pc ∈ (runLast c i arg3 harg3 arg4 harg4 arg5 harg5 arg6 harg6 arg7 harg7 arg8 harg8 arg9 harg9 hc0 hc1 x0 x1 x2 xm xl xa).2.2.2.1, y ∈ pc.1.set :=
  View.cover_of_tiledL (runLast c i arg3 harg3 arg4 harg4 arg5 harg5 arg6 harg6 arg7 harg7 arg8 harg8 arg9 harg9 hc0 hc1 x0 x1 x2 xm xl xa).2.2.2.1 S1024x64.size (by sl_kernel_rfl) y

theorem mLast_eq : mLast c i arg3 harg3 arg4 harg4 arg5 harg5 arg6 harg6 arg7 harg7 arg8 harg8 arg9 harg9 x0 x1 x2 xm xl xa hc0 hc1 = k1_pay2 (k1_pay9 x0 x1 xm) := by
  unfold mLast
  rw [View.read_writes_eq_canon _ _ _ (mcoverLast c i arg3 harg3 arg4 harg4 arg5 harg5 arg6 harg6 arg7 harg7 arg8 harg8 arg9 harg9 x0 x1 x2 xm xl xa hc0 hc1)]
  unfold runLast
  dsimp only
  sl_unfold_words
  rw [View.canon_unit_zero hz2]
  simp only [View.readAt_eq_ld, harg3.read_unread, harg4.read_unread, harg5.read_unread, harg7.read_unread, harg8.read_unread, harg9.read_unread,
    View.ld_unit_zero (S := S1x1024x64) hz3, View.ld_unit_zero (S := S1x64x1024) hz3, View.ld_unit_zero (S := S1024x1) hz2, View.ld_unit_zero (S := S1024x64) hz2]

theorem lLast_eq : lLast c i arg3 harg3 arg4 harg4 arg5 harg5 arg6 harg6 arg7 harg7 arg8 harg8 arg9 harg9 x0 x1 x2 xm xl xa hc0 hc1 = k1_pay12 x0 x1 xm xm xl := by
  unfold lLast
  rw [View.read_writes_eq_canon _ _ _ (lcoverLast c i arg3 harg3 arg4 harg4 arg5 harg5 arg6 harg6 arg7 harg7 arg8 harg8 arg9 harg9 x0 x1 x2 xm xl xa hc0 hc1)]
  unfold runLast
  dsimp only
  sl_unfold_words
  rw [View.canon_unit_zero hz2]
  simp only [View.readAt_eq_ld, harg3.read_unread, harg4.read_unread, harg5.read_unread, harg7.read_unread, harg8.read_unread, harg9.read_unread,
    View.ld_unit_zero (S := S1x1024x64) hz3, View.ld_unit_zero (S := S1x64x1024) hz3, View.ld_unit_zero (S := S1024x1) hz2, View.ld_unit_zero (S := S1024x64) hz2]

theorem aLast_eq : aLast c i arg3 harg3 arg4 harg4 arg5 harg5 arg6 harg6 arg7 harg7 arg8 harg8 arg9 harg9 x0 x1 x2 xm xl xa hc0 hc1
    = k1_pay1 (k1_pay7 x2) (k1_pay10 x0 x1 xm xm) (k1_pay11 x0 x1 xm) xa := by
  unfold aLast
  rw [View.read_writes_eq_canon _ _ _ (acoverLast c i arg3 harg3 arg4 harg4 arg5 harg5 arg6 harg6 arg7 harg7 arg8 harg8 arg9 harg9 x0 x1 x2 xm xl xa hc0 hc1)]
  unfold runLast
  dsimp only
  sl_unfold_words
  rw [View.canon_unit_zero hz2]
  simp only [View.readAt_eq_ld, harg3.read_unread, harg4.read_unread, harg5.read_unread, harg7.read_unread, harg8.read_unread, harg9.read_unread,
    View.ld_unit_zero (S := S1x1024x64) hz3, View.ld_unit_zero (S := S1x64x1024) hz3, View.ld_unit_zero (S := S1024x1) hz2, View.ld_unit_zero (S := S1024x64) hz2]

end Last

end

end Cert.KernelIdeal.Frame

end
-- ==== Proof.AttnSpec.lean ====
/-
  The function both programs compute, stated once over coordinates, with no program in sight.

  Inputs: x : [4, 4096, 1024] (batch, position, embedding) and three weight matrices [1024, 64].
  A PROJECTION of x by W at (b, t, h) is the sum over the embedding axis of x (b, t, e) * W (e, h).
  The SCORE of query position q against key position j in batch b is the sum over the 64 head
  coordinates of (query projection) * (key projection), times the literal 1/8.
  ATTENTION at (b, q, h): with M the largest score of row q (a maximum started from -inf), every
  score is shifted by M and exponentiated, the exponentials are divided by their sum Z (a sum
  started from the literal 0), and the quotients weigh the value projections of the 4096 keys.

  The same row can be swept in four blocks of 1024 keys, carrying a running maximum m, a running
  denominator l and a running numerator acc: a block rescales what was carried by exp (m_old - m_new)
  and adds its own exponentials shifted by m_new (`step`, `online`); the quotient acc / l after
  the fourth block is the attention value (`AttnLaws.online_eq_attn`, for finite inputs).
-/
import Idealize.ShloMosaic.PureOps.Ideal
import Idealize.ShloMosaic.PureOps.Ideal.Laws
import Idealize.ShloMosaic.Lib.ValueIdx

noncomputable section

namespace Cert.AttnSpec

open Idealize.ShloMosaic Idealize.ShloMosaic.ValueIdx

/-- The three float literals of both programs, as the extended reals their patterns denote. -/
abbrev negInf : EReal := Ideal.ofBits .f32 0xFF800000#32
abbrev zero : EReal := Ideal.ofBits .f32 0x00000000#32
abbrev scale : EReal := Ideal.ofBits .f32 0x3E000000#32

abbrev XIdx : Type := (⟨3, ![4, 4096, 1024]⟩ : Shape).Idx
abbrev WIdx : Type := (⟨2, ![1024, 64]⟩ : Shape).Idx

/-- Row (b, t) of x against column h of W. -/
def proj (x : XIdx → EReal) (W : WIdx → EReal) (b : Fin 4) (t : Fin 4096) (h : Fin 64) : EReal :=
  ∑ e : Fin 1024, x (ix3 b t e) * W (ix2 e h)

/-- Query position q against key position j, scaled by 1/8. -/
def score (x : XIdx → EReal) (Wq Wk : WIdx → EReal) (b : Fin 4) (q j : Fin 4096) : EReal :=
  (∑ h : Fin 64, proj x Wq b q h * proj x Wk b j h) * scale

/-- Softmax of row q of the scores, applied to the value projections. -/
def attn (x : XIdx → EReal) (Wq Wk Wv : WIdx → EReal) (b : Fin 4) (q : Fin 4096) (h : Fin 64) : EReal :=
  let M := max negInf (Finset.univ.fold max negInf (fun j : Fin 4096 => score x Wq Wk b q j))
  let Z := zero + ∑ j : Fin 4096, Ideal.exp (score x Wq Wk b q j - M)
  ∑ j : Fin 4096, Ideal.div (Ideal.exp (score x Wq Wk b q j - M)) Z * proj x Wv b j h

/-- Key position c of block k. -/
def key (k : Fin 4) (c : Fin 1024) : Fin 4096 := ⟨1024 * k.val + c.val, by omega⟩

/-- One block's update of (running maximum, running denominator, running numerator), from the block's
    1024 scores `s` and 1024 values `v`. -/
def step (st : EReal × EReal × EReal) (s v : Fin 1024 → EReal) : EReal × EReal × EReal :=
  (max st.1 (Finset.univ.fold max negInf s),
   Ideal.exp (st.1 - max st.1 (Finset.univ.fold max negInf s)) * st.2.1
     + ∑ c : Fin 1024, Ideal.exp (s c - max st.1 (Finset.univ.fold max negInf s)),
   Ideal.exp (st.1 - max st.1 (Finset.univ.fold max negInf s)) * st.2.2
     + ∑ c : Fin 1024, Ideal.exp (s c - max st.1 (Finset.univ.fold max negInf s)) * v c)

/-- The carried triple after blocks 0..k of a row with scores `S` and values `V` over the 4096 keys. -/
def online (S V : Fin 4096 → EReal) : (k : ℕ) → k < 4 → EReal × EReal × EReal
  | 0, h => step (negInf, zero, zero) (fun c => S (key ⟨0, h⟩ c)) (fun c => V (key ⟨0, h⟩ c))
  | k + 1, h => step (online S V k (Nat.lt_of_succ_lt h)) (fun c => S (key ⟨k + 1, h⟩ c)) (fun c => V (key ⟨k + 1, h⟩ c))

/-- The blockwise value of attention at (b, q, h): numerator over denominator after the fourth block. -/
def attnOnline (x : XIdx → EReal) (Wq Wk Wv : WIdx → EReal) (b : Fin 4) (q : Fin 4096) (h : Fin 64) : EReal :=
  Ideal.div (online (score x Wq Wk b q) (fun j => proj x Wv b j h) 3 (by decide)).2.2
    (online (score x Wq Wk b q) (fun j => proj x Wv b j h) 3 (by decide)).2.1

end Cert.AttnSpec

end
-- ==== Proof.KIPayloads.lean ====
/-
  The arithmetic of the two kernel bodies, read one element at a time at the extended reals.

  Each payload is a whole-array expression in the arrays a kernel body has loaded. Read at one index given by coordinates
  it is an expression in those arrays at indices given by coordinates:

    * a contraction into the zero accumulator is the sum, over the one contracted axis, of the products of the two
      operands' entries (three shapes of contraction occur: matmul_qk_apply, matmul_pv_apply, matmul_kt_apply);
    * a cast that drops or adds a unit axis, and a column [a, 1] broadcast along its unit axis, re-index without changing values;
    * a reduction along the lane axis of a [1024, 1024] array is, in row r, a fold of max from -inf or a sum over the
      1024 entries of that row;
    * a narrowing of the number format is the identity on extended reals.

  First kernel: the three projection blocks (k0_pay2_apply, k0_pay3_apply, k0_pay4_apply). Second kernel: the block's
  scores (pay8_apply), the new running maximum (pay9_apply), the rescaling factor (pay10_apply), the block's exponentials
  (pay11_apply), the new running denominator (pay12_apply) and numerator (pay1_apply), the final quotient (pay3_apply), the
  three initial values (pay4_apply, pay5_apply, pay6_apply) and two re-indexings (pay7_apply, pay2_eq).
-/
import proofs.«162099_j9010841387309_2_alg».proof.Proof.Gen.KernelIdeal.Skeleton
import proofs.«162099_j9010841387309_2_alg».proof.Proof.AttnSpec
import Idealize.ShloMosaic.Lib.ValueLayout
import Idealize.ShloMosaic.PureOps.Ideal.Laws

noncomputable section

namespace Cert.KIPayloads

open Cert.KernelIdeal Cert.KernelIdeal.Gen Cert.AttnSpec Idealize.ShloMosaic ValueIdx

/-! ## The three contractions into the zero accumulator, read at an index -/

theorem lhs_qk_non (i : S1024x1024.Idx) (q : dot_S1024x64_S64x1024_S1024x1024_1_0_0_1_n_n.contr.Idx) :
    (dot_S1024x64_S64x1024_S1024x1024_1_0_0_1_n_n.lhsIdx i q 0).val = (i 0).val := by
  unfold DotDims.lhsIdx
  rw [dif_neg (show ¬(0 : Fin S1024x64.rank) ∈ dot_S1024x64_S64x1024_S1024x1024_1_0_0_1_n_n.lhsBatch by decide), dif_pos (show (0 : Fin S1024x64.rank) ∈ dot_S1024x64_S64x1024_S1024x1024_1_0_0_1_n_n.lhsNonContracting by decide)]
  rfl
theorem rhs_qk_non (i : S1024x1024.Idx) (q : dot_S1024x64_S64x1024_S1024x1024_1_0_0_1_n_n.contr.Idx) :
    (dot_S1024x64_S64x1024_S1024x1024_1_0_0_1_n_n.rhsIdx i q 1).val = (i 1).val := by
  unfold DotDims.rhsIdx
  rw [dif_neg (show ¬(1 : Fin S64x1024.rank) ∈ dot_S1024x64_S64x1024_S1024x1024_1_0_0_1_n_n.rhsBatch by decide), dif_pos (show (1 : Fin S64x1024.rank) ∈ dot_S1024x64_S64x1024_S1024x1024_1_0_0_1_n_n.rhsNonContracting by decide)]
  rfl

/-- Rows of a [1024, 64] array against columns of a [64, 1024] array: entry (r, c) is the sum over the 64 shared coordinates. -/
theorem matmul_qk_apply (lhs : FVec Ideal S1024x64 .bf16) (rhs : FVec Ideal S64x1024 .bf16) (r : Fin 1024) (c : Fin 1024) :
    matmul (F := Ideal) dot_S1024x64_S64x1024_S1024x1024_1_0_0_1_n_n none lhs rhs (constant (F := Ideal) S1024x1024 .f32 0x00000000#32) (ix2 r c)
      = ∑ k : Fin 64, lhs (ix2 r k) * rhs (ix2 k c) := by
  simp only [matmul]
  rw [Ideal.matmul_constant_zero_apply, ← Equiv.sum_comp (contrEquiv1 dot_S1024x64_S64x1024_S1024x1024_1_0_0_1_n_n 64 rfl rfl).symm]
  refine Finset.sum_congr rfl fun k _ => ?_
  have hk := contrEquiv1_symm_val dot_S1024x64_S64x1024_S1024x1024_1_0_0_1_n_n 64 rfl rfl k
  have el : dot_S1024x64_S64x1024_S1024x1024_1_0_0_1_n_n.lhsIdx (ix2 r c) ((contrEquiv1 dot_S1024x64_S64x1024_S1024x1024_1_0_0_1_n_n 64 rfl rfl).symm k) = ix2 r k := funext fun a => Fin.ext (by
    match a with
    | ⟨0, _⟩ => exact lhs_qk_non _ _
    | ⟨1, _⟩ => exact (dot_S1024x64_S64x1024_S1024x1024_1_0_0_1_n_n.lhsIdx_val_of_single rfl _ _).trans hk)
  have er : dot_S1024x64_S64x1024_S1024x1024_1_0_0_1_n_n.rhsIdx (ix2 r c) ((contrEquiv1 dot_S1024x64_S64x1024_S1024x1024_1_0_0_1_n_n 64 rfl rfl).symm k) = ix2 k c := funext fun a => Fin.ext (by
    match a with
    | ⟨0, _⟩ => exact (dot_S1024x64_S64x1024_S1024x1024_1_0_0_1_n_n.rhsIdx_val_of_single rfl _ _).trans hk
    | ⟨1, _⟩ => exact rhs_qk_non _ _)
  rw [el, er]

theorem lhs_pv_non (i : S1024x64.Idx) (q : dot_S1024x1024_S1024x64_S1024x64_1_0_0_1_n_n.contr.Idx) :
    (dot_S1024x1024_S1024x64_S1024x64_1_0_0_1_n_n.lhsIdx i q 0).val = (i 0).val := by
  unfold DotDims.lhsIdx
  rw [dif_neg (show ¬(0 : Fin S1024x1024.rank) ∈ dot_S1024x1024_S1024x64_S1024x64_1_0_0_1_n_n.lhsBatch by decide), dif_pos (show (0 : Fin S1024x1024.rank) ∈ dot_S1024x1024_S1024x64_S1024x64_1_0_0_1_n_n.lhsNonContracting by decide)]
  rfl
theorem rhs_pv_non (i : S1024x64.Idx) (q : dot_S1024x1024_S1024x64_S1024x64_1_0_0_1_n_n.contr.Idx) :
    (dot_S1024x1024_S1024x64_S1024x64_1_0_0_1_n_n.rhsIdx i q 1).val = (i 1).val := by
  unfold DotDims.rhsIdx
  rw [dif_neg (show ¬(1 : Fin S1024x64.rank) ∈ dot_S1024x1024_S1024x64_S1024x64_1_0_0_1_n_n.rhsBatch by decide), dif_pos (show (1 : Fin S1024x64.rank) ∈ dot_S1024x1024_S1024x64_S1024x64_1_0_0_1_n_n.rhsNonContracting by decide)]
  rfl

/-- Rows of a [1024, 1024] array against columns of a [1024, 64] array: entry (r, h) is the sum over the 1024 shared coordinates. -/
theorem matmul_pv_apply (lhs : FVec Ideal S1024x1024 .bf16) (rhs : FVec Ideal S1024x64 .bf16) (r : Fin 1024) (h : Fin 64) :
    matmul (F := Ideal) dot_S1024x1024_S1024x64_S1024x64_1_0_0_1_n_n none lhs rhs (constant (F := Ideal) S1024x64 .f32 0x00000000#32) (ix2 r h)
      = ∑ k : Fin 1024, lhs (ix2 r k) * rhs (ix2 k h) := by
  simp only [matmul]
  rw [Ideal.matmul_constant_zero_apply, ← Equiv.sum_comp (contrEquiv1 dot_S1024x1024_S1024x64_S1024x64_1_0_0_1_n_n 1024 rfl rfl).symm]
  refine Finset.sum_congr rfl fun k _ => ?_
  have hk := contrEquiv1_symm_val dot_S1024x1024_S1024x64_S1024x64_1_0_0_1_n_n 1024 rfl rfl k
  have el : dot_S1024x1024_S1024x64_S1024x64_1_0_0_1_n_n.lhsIdx (ix2 r h) ((contrEquiv1 dot_S1024x1024_S1024x64_S1024x64_1_0_0_1_n_n 1024 rfl rfl).symm k) = ix2 r k := funext fun a => Fin.ext (by
    match a with
    | ⟨0, _⟩ => exact lhs_pv_non _ _
    | ⟨1, _⟩ => exact (dot_S1024x1024_S1024x64_S1024x64_1_0_0_1_n_n.lhsIdx_val_of_single rfl _ _).trans hk)
  have er : dot_S1024x1024_S1024x64_S1024x64_1_0_0_1_n_n.rhsIdx (ix2 r h) ((contrEquiv1 dot_S1024x1024_S1024x64_S1024x64_1_0_0_1_n_n 1024 rfl rfl).symm k) = ix2 k h := funext fun a => Fin.ext (by
    match a with
    | ⟨0, _⟩ => exact (dot_S1024x1024_S1024x64_S1024x64_1_0_0_1_n_n.rhsIdx_val_of_single rfl _ _).trans hk
    | ⟨1, _⟩ => exact rhs_pv_non _ _)
  rw [el, er]

theorem lhs_kt_non (i : S64x1024.Idx) (q : dot_S1024x64_S1024x1024_S64x1024_0_1_1_0_n_n.contr.Idx) :
    (dot_S1024x64_S1024x1024_S64x1024_0_1_1_0_n_n.lhsIdx i q 1).val = (i 0).val := by
  unfold DotDims.lhsIdx
  rw [dif_neg (show ¬(1 : Fin S1024x64.rank) ∈ dot_S1024x64_S1024x1024_S64x1024_0_1_1_0_n_n.lhsBatch by decide), dif_pos (show (1 : Fin S1024x64.rank) ∈ dot_S1024x64_S1024x1024_S64x1024_0_1_1_0_n_n.lhsNonContracting by decide)]
  rfl
theorem rhs_kt_non (i : S64x1024.Idx) (q : dot_S1024x64_S1024x1024_S64x1024_0_1_1_0_n_n.contr.Idx) :
    (dot_S1024x64_S1024x1024_S64x1024_0_1_1_0_n_n.rhsIdx i q 0).val = (i 1).val := by
  unfold DotDims.rhsIdx
  rw [dif_neg (show ¬(0 : Fin S1024x1024.rank) ∈ dot_S1024x64_S1024x1024_S64x1024_0_1_1_0_n_n.rhsBatch by decide), dif_pos (show (0 : Fin S1024x1024.rank) ∈ dot_S1024x64_S1024x1024_S64x1024_0_1_1_0_n_n.rhsNonContracting by decide)]
  rfl

/-- Columns of a [1024, 64] array against rows of a [1024, 1024] array, both contracted on their 1024-long axis: entry (h, r) is the sum over it. -/
theorem matmul_kt_apply (lhs : FVec Ideal S1024x64 .bf16) (rhs : FVec Ideal S1024x1024 .bf16) (h : Fin 64) (r : Fin 1024) :
    matmul (F := Ideal) dot_S1024x64_S1024x1024_S64x1024_0_1_1_0_n_n none lhs rhs (constant (F := Ideal) S64x1024 .f32 0x00000000#32) (ix2 h r)
      = ∑ k : Fin 1024, lhs (ix2 k h) * rhs (ix2 r k) := by
  simp only [matmul]
  rw [Ideal.matmul_constant_zero_apply, ← Equiv.sum_comp (contrEquiv1 dot_S1024x64_S1024x1024_S64x1024_0_1_1_0_n_n 1024 rfl rfl).symm]
  refine Finset.sum_congr rfl fun k _ => ?_
  have hk := contrEquiv1_symm_val dot_S1024x64_S1024x1024_S64x1024_0_1_1_0_n_n 1024 rfl rfl k
  have el : dot_S1024x64_S1024x1024_S64x1024_0_1_1_0_n_n.lhsIdx (ix2 h r) ((contrEquiv1 dot_S1024x64_S1024x1024_S64x1024_0_1_1_0_n_n 1024 rfl rfl).symm k) = ix2 k h := funext fun a => Fin.ext (by
    match a with
    | ⟨0, _⟩ => exact (dot_S1024x64_S1024x1024_S64x1024_0_1_1_0_n_n.lhsIdx_val_of_single rfl _ _).trans hk
    | ⟨1, _⟩ => exact lhs_kt_non _ _)
  have er : dot_S1024x64_S1024x1024_S64x1024_0_1_1_0_n_n.rhsIdx (ix2 h r) ((contrEquiv1 dot_S1024x64_S1024x1024_S64x1024_0_1_1_0_n_n 1024 rfl rfl).symm k) = ix2 r k := funext fun a => Fin.ext (by
    match a with
    | ⟨0, _⟩ => exact rhs_kt_non _ _
    | ⟨1, _⟩ => exact (dot_S1024x64_S1024x1024_S64x1024_0_1_1_0_n_n.rhsIdx_val_of_single rfl _ _).trans hk)
  rw [el, er]

/-! ## Two layout operations on a column [a, 1], read at an index -/

/-- An `[a]` array cast to the column `[a, 1]` reads, at `(i, u)`, the operand at `i`. -/
theorem shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry at `p`. -/
theorem broadcastTo_a1_ab_apply {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

/-- Row `r` of a [1024, 1024] array with coordinate `k` put back on the reduced lane axis is the index (r, k). -/
theorem lift_lane (hR : S1024x1024.Reduces [1] S1024) (r : Fin 1024) (k : Fin (S1024x1024.size 1)) :
    hR.lift (ix1 r) k = ix2 r (⟨k.val, k.isLt⟩ : Fin 1024) := by
  funext c; apply Fin.ext
  fin_cases c <;> rfl

/-! ## The second kernel's payloads -/

/-- The block's scaled scores: entry (r, c) is the sum over the 64 head coordinates of the query block's row r times the
    transposed key block's column c, times the literal 1/8. -/
theorem pay8_apply (q : Vec Ideal S1x1024x64 .bf16) (kt : Vec Ideal S1x64x1024 .bf16) (r c : Fin 1024) :
    k1_pay8 (F := Ideal) q kt (ix2 r c) = (∑ h : Fin 64, q (ix3 0 r h) * kt (ix3 0 h c)) * scale := by
  unfold k1_pay8
  refine (mulf_apply _ _ _).trans ?_
  refine congrArg₂ (· * ·) ((matmul_qk_apply _ _ r c).trans (Finset.sum_congr rfl fun h _ => ?_)) rfl
  rw [shapeCast_1ab_ab_apply, shapeCast_1ab_ab_apply]

/-- The new running maximum of row r: the old one against the largest of the block's 1024 scores of that row (a fold of
    max started from -inf). -/
theorem pay9_apply (q : Vec Ideal S1x1024x64 .bf16) (kt : Vec Ideal S1x64x1024 .bf16) (m : Vec Ideal S1024x1 .f32) (r : Fin 1024) :
    k1_pay9 (F := Ideal) q kt m (ix2 r 0)
      = max (m (ix2 r 0)) (Finset.univ.fold max negInf (fun c : Fin 1024 => k1_pay8 (F := Ideal) q kt (ix2 r c))) := by
  unfold k1_pay9
  refine (maximumf_apply _ _ _).trans (congrArg (max (m (ix2 r 0))) ?_)
  refine (shapeCast_a_a1_apply _ _ r 0).trans ?_
  refine (Ideal.multiReduction_maximumf_single _ _ reduces_S1024x1024_S1024 _ _ (ix1 r)).trans ?_
  have hf : (k1_pay8 (F := Ideal) q kt ∘ reduces_S1024x1024_S1024.lift (ix1 r)) = fun c : Fin 1024 => k1_pay8 (F := Ideal) q kt (ix2 r c) :=
    funext fun k => congrArg (k1_pay8 (F := Ideal) q kt) (lift_lane reduces_S1024x1024_S1024 r k)
  exact congrArg (fun f => Finset.fold max negInf f (Finset.univ : Finset (Fin 1024))) hf

/-- The rescaling factor of row r: the exponential of a carried maximum minus the new one. -/
theorem pay10_apply (q : Vec Ideal S1x1024x64 .bf16) (kt : Vec Ideal S1x64x1024 .bf16) (m m' : Vec Ideal S1024x1 .f32) (r : Fin 1024) :
    k1_pay10 (F := Ideal) q kt m m' (ix2 r 0) = Ideal.exp (m' (ix2 r 0) - k1_pay9 (F := Ideal) q kt m (ix2 r 0)) := rfl

/-- The block's exponentials: each score shifted by its row's new running maximum. -/
theorem pay11_apply (q : Vec Ideal S1x1024x64 .bf16) (kt : Vec Ideal S1x64x1024 .bf16) (m : Vec Ideal S1024x1 .f32) (r c : Fin 1024) :
    k1_pay11 (F := Ideal) q kt m (ix2 r c)
      = Ideal.exp (k1_pay8 (F := Ideal) q kt (ix2 r c) - k1_pay9 (F := Ideal) q kt m (ix2 r 0)) := by
  unfold k1_pay11
  show Ideal.exp (k1_pay8 (F := Ideal) q kt (ix2 r c) - broadcastTo S1024x1024 (k1_pay9 (F := Ideal) q kt m) broadcasts_S1024x1_S1024x1024 (ix2 r c)) = _
  rw [broadcastTo_a1_ab_apply]

/-- The new running denominator of row r: the carried one rescaled, plus the sum of the row's 1024 exponentials. -/
theorem pay12_apply (q : Vec Ideal S1x1024x64 .bf16) (kt : Vec Ideal S1x64x1024 .bf16) (m m' l : Vec Ideal S1024x1 .f32) (r : Fin 1024) :
    k1_pay12 (F := Ideal) q kt m m' l (ix2 r 0)
      = k1_pay10 (F := Ideal) q kt m m' (ix2 r 0) * l (ix2 r 0) + ∑ c : Fin 1024, k1_pay11 (F := Ideal) q kt m (ix2 r c) := by
  unfold k1_pay12
  rw [shapeCast_self]
  refine (addf_apply _ _ _).trans (congrArg₂ (· + ·) (mulf_apply _ _ _) ?_)
  refine (shapeCast_a_a1_apply _ _ r 0).trans ?_
  refine (Ideal.multiReduction_add_single _ _ reduces_S1024x1024_S1024 _ _ (ix1 r)).trans ?_
  exact Finset.sum_congr rfl fun k _ => congrArg (k1_pay11 (F := Ideal) q kt m) (lift_lane reduces_S1024x1024_S1024 r k)

/-- The new running numerator at (r, h): the carried one rescaled by row r's factor, plus the sum over the block's 1024 keys
    of weight times value. -/
theorem pay1_apply (v8 : FVec Ideal S1024x64 .bf16) (a : FVec Ideal S1024x1 .f32) (p : FVec Ideal S1024x1024 .f32) (acc : Vec Ideal S1024x64 .f32)
    (r : Fin 1024) (h : Fin 64) :
    k1_pay1 (F := Ideal) v8 a p acc (ix2 r h) = a (ix2 r 0) * acc (ix2 r h) + ∑ c : Fin 1024, p (ix2 r c) * v8 (ix2 c h) := by
  unfold k1_pay1
  rw [shapeCast_self]
  refine (addf_apply _ _ _).trans (congrArg₂ (· + ·) ?_ ?_)
  · refine (mulf_apply _ _ _).trans (congrArg (· * acc (ix2 r h)) ?_)
    exact broadcastTo_a1_ab_apply a broadcasts_S1024x1_S1024x64 r h
  · exact matmul_pv_apply _ _ r h

/-- The value block with its leading unit axis dropped. -/
theorem pay7_apply (v : Vec Ideal S1x1024x64 .bf16) (c : Fin 1024) (h : Fin 64) :
    k1_pay7 (F := Ideal) v (ix2 c h) = v (ix3 0 c h) := by
  unfold k1_pay7
  exact shapeCast_1ab_ab_apply v _ c h

/-- A cast of a column to its own shape changes nothing. -/
theorem pay2_eq (m : FVec Ideal S1024x1 .f32) : k1_pay2 (F := Ideal) m = m := by
  unfold k1_pay2
  exact shapeCast_self m _

/-- The result block at (0, r, h): the numerator at (r, h) over row r's denominator. -/
theorem pay3_apply (acc : Vec Ideal S1024x64 .f32) (l : Vec Ideal S1024x1 .f32) (r : Fin 1024) (h : Fin 64) :
    k1_pay3 (F := Ideal) acc l (ix3 0 r h) = Ideal.div (acc (ix2 r h)) (l (ix2 r 0)) := by
  unfold k1_pay3
  refine (shapeCast_ab_1ab_apply _ _ 0 r h).trans ?_
  refine (divf_apply _ _ _).trans (congrArg (Ideal.div (acc (ix2 r h))) ?_)
  exact broadcastTo_a1_ab_apply l broadcasts_S1024x1_S1024x64 r h

/-- The initial running maximum is -inf in every row. -/
theorem pay4_apply (r : Fin 1024) : k1_pay4 (F := Ideal) (ix2 r 0) = negInf := by
  unfold k1_pay4
  rw [shapeCast_self]
  rfl

/-- The initial running denominator is 0 in every row. -/
theorem pay5_apply (r : Fin 1024) : k1_pay5 (F := Ideal) (ix2 r 0) = zero := by
  unfold k1_pay5
  rw [shapeCast_self]
  rfl

/-- The initial running numerator is 0 everywhere. -/
theorem pay6_apply (r : Fin 1024) (h : Fin 64) : k1_pay6 (F := Ideal) (ix2 r h) = zero := by
  unfold k1_pay6
  rw [shapeCast_self]
  rfl

/-! ## The first kernel's payloads -/

/-- The input block with its leading unit axis dropped (and a format change that is the identity on extended reals). -/
theorem k0_pay1_apply (x0 : Vec Ideal S1x1024x1024 .f32) (r e : Fin 1024) :
    k0_pay1 (F := Ideal) x0 (ix2 r e) = x0 (ix3 0 r e) := by
  unfold k0_pay1
  exact shapeCast_1ab_ab_apply x0 _ r e

/-- A projection block at (0, r, h): row r of the input block against column h of the weights, over the 1024 embedding
    coordinates (the format changes in between are the identity on extended reals). -/
theorem k0_pay2_apply (x0 : Vec Ideal S1x1024x1024 .f32) (w : Vec Ideal S1024x64 .f32) (r : Fin 1024) (h : Fin 64) :
    k0_pay2 (F := Ideal) x0 w (ix3 0 r h) = ∑ e : Fin 1024, x0 (ix3 0 r e) * w (ix2 e h) := by
  unfold k0_pay2
  refine (shapeCast_ab_1ab_apply _ _ 0 r h).trans ?_
  refine (matmul_pv_apply _ _ r h).trans (Finset.sum_congr rfl fun e _ => ?_)
  exact congrArg (· * w (ix2 e h)) (k0_pay1_apply x0 r e)

/-- The same for the second weight matrix the kernel projects by in this orientation. -/
theorem k0_pay3_apply (x0 : Vec Ideal S1x1024x1024 .f32) (w : Vec Ideal S1024x64 .f32) (r : Fin 1024) (h : Fin 64) :
    k0_pay3 (F := Ideal) x0 w (ix3 0 r h) = ∑ e : Fin 1024, x0 (ix3 0 r e) * w (ix2 e h) := by
  unfold k0_pay3
  refine (shapeCast_ab_1ab_apply _ _ 0 r h).trans ?_
  refine (matmul_pv_apply _ _ r h).trans (Finset.sum_congr rfl fun e _ => ?_)
  exact congrArg (· * w (ix2 e h)) (k0_pay1_apply x0 r e)

/-- The transposed projection block at (0, h, r): column h of the weights against row r of the input block. -/
theorem k0_pay4_apply (x0 : Vec Ideal S1x1024x1024 .f32) (w : Vec Ideal S1024x64 .f32) (r : Fin 1024) (h : Fin 64) :
    k0_pay4 (F := Ideal) x0 w (ix3 0 h r) = ∑ e : Fin 1024, w (ix2 e h) * x0 (ix3 0 r e) := by
  unfold k0_pay4
  refine (shapeCast_ab_1ab_apply _ _ 0 h r).trans ?_
  refine (matmul_kt_apply _ _ h r).trans (Finset.sum_congr rfl fun e _ => ?_)
  exact congrArg (w (ix2 e h) * ·) (k0_pay1_apply x0 r e)

end Cert.KIPayloads

end
-- ==== Proof.KIAttnArray.lean ====
/-
  The attention stage's blocks and its output array, by coordinates.

  The stage runs over 64 grid points t = 16 b + 4 i + k (batch b, query block i, key block k; k the fastest).
  At point t the query window's block is rows 1024 i .. 1024 i + 1023 of batch b of the query projection, the
  key window's block is columns 1024 k .. 1024 k + 1023 of batch b of the transposed key projection, and the
  value window's block is rows 1024 k .. 1024 k + 1023 of batch b of the value projection: on each axis an element
  of a block sits in the array at (block index) * (block size) + (its own coordinate), and the block indices are
  decided once over the 64 points.  The output window's block, at (b, i), is written back at the points with
  k = 3 only; those 16 blocks of 1024 rows tile the [4, 4096, 64] output, position (b, R, h) lying in the block of
  the point 16 b + 4 (R / 1024) + 3.  So if at every such point the output block's buffer holds rows
  1024 i .. 1024 i + 1023 of batch b of one array G, the output array ends holding G.
-/
import proofs.«162099_j9010841387309_2_alg».proof.Proof.KIRegion1
import proofs.«162099_j9010841387309_2_alg».proof.Proof.AttnSpec
import Idealize.ShloMosaic.Lib.Pipeline.Value

set_option maxRecDepth 16384

noncomputable section

namespace Cert.KIAttnArray

open Cert.KernelIdeal Cert.KernelIdeal.Gen Cert.KernelIdeal.Frame
open Idealize.ShloMosaic Idealize.ShloMosaic.TcCoe Idealize.ShloMosaic.ValueIdx
open Idealize.SL Idealize.SL.Sem

variable (V : (c : Dev nD) → (b : Ref sig .tc) → Buf (Elt Ideal) ((c : Thread nD τ).loc b)) (c : Dev nD)

/-! ## The grid point's coordinates -/

/-- The attention grid has 64 points. -/
theorem lt64 (t : Fin cfg1.N) : t.val < 64 := lt_of_lt_of_eq t.isLt (show cfg1.N = 64 from N_1)

/-- Point t = 16 b + 4 i + k: its batch b, ... -/
def bOf (t : Fin cfg1.N) : Fin 4 := ⟨t.val / 16, by have := lt64 t; omega⟩
/-- ... its query block i, ... -/
def iOf (t : Fin cfg1.N) : Fin 4 := ⟨(t.val / 4) % 4, Nat.mod_lt _ (by norm_num)⟩
/-- ... and its key block k. -/
def kOf (t : Fin cfg1.N) : Fin 4 := ⟨t.val % 4, Nat.mod_lt _ (by norm_num)⟩

/-- Row r of the point's query block, as a position among the 4096. -/
def rowOf (t : Fin cfg1.N) (r : Fin 1024) : Fin 4096 := Cert.AttnSpec.key (iOf t) r
/-- Offset cc of the point's key block, as a position among the 4096. -/
def keyOf (t : Fin cfg1.N) (cc : Fin 1024) : Fin 4096 := Cert.AttnSpec.key (kOf t) cc

theorem bOf_val (t : Fin cfg1.N) : (bOf t).val = t.val / 16 := rfl
theorem rowOf_val (t : Fin cfg1.N) (r : Fin 1024) : (rowOf t r).val = 1024 * ((t.val / 4) % 4) + r.val := rfl
theorem keyOf_val (t : Fin cfg1.N) (cc : Fin 1024) : (keyOf t cc).val = 1024 * (t.val % 4) + cc.val := rfl

/-! ## The windows' block indices, decided over the grid -/

theorem idx1_0 : ∀ t : Fin cfg1.N, win1_0.index t 0 = t.val / 16 ∧ win1_0.index t 1 = (t.val / 4) % 4 ∧ win1_0.index t 2 = 0 :=
  (by decide +kernel : ∀ t : Fin grid1.N, win1_0.index t 0 = t.val / 16 ∧ win1_0.index t 1 = (t.val / 4) % 4 ∧ win1_0.index t 2 = 0)
theorem idx1_1 : ∀ t : Fin cfg1.N, win1_1.index t 0 = t.val / 16 ∧ win1_1.index t 1 = 0 ∧ win1_1.index t 2 = t.val % 4 :=
  (by decide +kernel : ∀ t : Fin grid1.N, win1_1.index t 0 = t.val / 16 ∧ win1_1.index t 1 = 0 ∧ win1_1.index t 2 = t.val % 4)
theorem idx1_2 : ∀ t : Fin cfg1.N, win1_2.index t 0 = t.val / 16 ∧ win1_2.index t 1 = t.val % 4 ∧ win1_2.index t 2 = 0 :=
  (by decide +kernel : ∀ t : Fin grid1.N, win1_2.index t 0 = t.val / 16 ∧ win1_2.index t 1 = t.val % 4 ∧ win1_2.index t 2 = 0)
theorem idx1_3 : ∀ t : Fin cfg1.N, win1_3.index t 0 = t.val / 16 ∧ win1_3.index t 1 = (t.val / 4) % 4 ∧ win1_3.index t 2 = 0 :=
  (by decide +kernel : ∀ t : Fin grid1.N, win1_3.index t 0 = t.val / 16 ∧ win1_3.index t 1 = (t.val / 4) % 4 ∧ win1_3.index t 2 = 0)

/-! ## The input windows' blocks, element by element -/

/-- The query block at point t is rows 1024 i .. 1024 i + 1023 of batch b of the query projection. -/
theorem blk_q (t : Fin cfg1.N) (r : Fin 1024) (h : Fin 64) :
    (iblk1 V c 0 t : Vec Ideal S1x1024x64 .bf16) (ix3 0 r h) = V c main_v0_0 (ix3 (bOf t) (rowOf t r) h) := by
  obtain ⟨e0, e1, e2⟩ := idx1_0 t
  unfold iblk1
  rw [View.read_apply]
  show V c main_v0_0 _ = V c main_v0_0 _
  congr 1
  funext a
  apply Fin.ext
  match a with
  | ⟨0, _⟩ => show win1_0.index t 0 * 1 + 1 * (0 : Fin 1).val = t.val / 16; rw [e0]; simp
  | ⟨1, _⟩ => show win1_0.index t 1 * 1024 + 1 * r.val = 1024 * ((t.val / 4) % 4) + r.val; rw [e1]; omega
  | ⟨2, _⟩ => show win1_0.index t 2 * 64 + 1 * h.val = h.val; rw [e2]; omega

/-- The transposed key block at point t is columns 1024 k .. 1024 k + 1023 of batch b of the transposed key projection. -/
theorem blk_kt (t : Fin cfg1.N) (h : Fin 64) (cc : Fin 1024) :
    (iblk1 V c 1 t : Vec Ideal S1x64x1024 .bf16) (ix3 0 h cc) = V c main_v0_1 (ix3 (bOf t) h (keyOf t cc)) := by
  obtain ⟨e0, e1, e2⟩ := idx1_1 t
  unfold iblk1
  rw [View.read_apply]
  show V c main_v0_1 _ = V c main_v0_1 _
  congr 1
  funext a
  apply Fin.ext
  match a with
  | ⟨0, _⟩ => show win1_1.index t 0 * 1 + 1 * (0 : Fin 1).val = t.val / 16; rw [e0]; simp
  | ⟨1, _⟩ => show win1_1.index t 1 * 64 + 1 * h.val = h.val; rw [e1]; omega
  | ⟨2, _⟩ => show win1_1.index t 2 * 1024 + 1 * cc.val = 1024 * (t.val % 4) + cc.val; rw [e2]; omega

/-- The value block at point t is rows 1024 k .. 1024 k + 1023 of batch b of the value projection. -/
theorem blk_v (t : Fin cfg1.N) (cc : Fin 1024) (h : Fin 64) :
    (iblk1 V c 2 t : Vec Ideal S1x1024x64 .bf16) (ix3 0 cc h) = V c main_v0_2 (ix3 (bOf t) (keyOf t cc) h) := by
  obtain ⟨e0, e1, e2⟩ := idx1_2 t
  unfold iblk1
  rw [View.read_apply]
  show V c main_v0_2 _ = V c main_v0_2 _
  congr 1
  funext a
  apply Fin.ext
  match a with
  | ⟨0, _⟩ => show win1_2.index t 0 * 1 + 1 * (0 : Fin 1).val = t.val / 16; rw [e0]; simp
  | ⟨1, _⟩ => show win1_2.index t 1 * 1024 + 1 * cc.val = 1024 * (t.val % 4) + cc.val; rw [e1]; omega
  | ⟨2, _⟩ => show win1_2.index t 2 * 64 + 1 * h.val = h.val; rw [e2]; omega

/-! ## The output array after the region -/

/-- An index of the output array is in point t's block iff each coordinate is in the block's range on its axis. -/
theorem mem_blk3 (t : Fin cfg1.N) (i : S4x4096x64.Idx) :
    i ∈ ((cfg1.win 3).blk t).view.set ↔ ∀ a : Fin 3, win1_3.index t a * S1x1024x64.size a ≤ (i a).val
      ∧ (i a).val < win1_3.index t a * S1x1024x64.size a + S1x1024x64.size a := by
  show i ∈ ((View.whole main_v1).slice (win1_3.rect t)).set ↔ _
  rw [View.set_slice_whole, Rect.mem_set_unit]
  exact Iff.rfl

/-- What a point with k = 3 writes back is its block of G, when the output block's buffer there holds G's rows
    1024 i .. 1024 i + 1023 of batch b. -/
theorem flushed3_eq (G : S4x4096x64.Idx → EReal)
    (hG : ∀ (t : Fin cfg1.N), t.val % 4 = 3 → ∀ (r : Fin 1024) (h : Fin 64),
      (stAt V c t.val t.isLt).1 (ix3 0 r h) = G (ix3 (bOf t) (rowOf t r) h))
    (t : Fin cfg1.N) (hf : (cfg1.win 3).flush t = true) :
    (dat1 (F := Ideal) V c).flushed 3 t = ((cfg1.win 3).blk t).view.read (Elt Ideal) G := by
  have h3 : t.val % 4 = 3 := (flush1_3 t).mp hf
  obtain ⟨e0, e1, e2⟩ := idx1_3 t
  show (cfg1.win 3).cut (grid1.coords t) ((dat1 V c).after 3 t) = _
  rw [after1_3]
  funext y
  rw [View.read_apply]
  have hy : (cfg1.win 3).xinj (grid1.coords t) y
      = ix3 (0 : Fin 1) (⟨(y 1).val, (y 1).isLt⟩ : Fin 1024) (⟨(y 2).val, (y 2).isLt⟩ : Fin 64) := by
    funext a
    apply Fin.ext
    match a with
    | ⟨0, _⟩ => show (y 0).val = 0; have h0 : (y 0).val < 1 := (y 0).isLt; omega
    | ⟨1, _⟩ => rfl
    | ⟨2, _⟩ => rfl
  show (stAt V c t.val t.isLt).1 ((cfg1.win 3).xinj (grid1.coords t) y) = G _
  rw [hy, hG t h3]
  congr 1
  funext a
  apply Fin.ext
  match a with
  | ⟨0, _⟩ => show t.val / 16 = win1_3.index t 0 * 1 + 1 * (y 0).val; rw [e0]; have h0 : (y 0).val < 1 := (y 0).isLt; omega
  | ⟨1, _⟩ => show 1024 * ((t.val / 4) % 4) + (y 1).val = win1_3.index t 1 * 1024 + 1 * (y 1).val; rw [e1]; omega
  | ⟨2, _⟩ => show (y 2).val = win1_3.index t 2 * 64 + 1 * (y 2).val; rw [e2]; omega

/-- The output array after the region is G: every position (b, R, h) lies in the block of the point
    16 b + 4 (R / 1024) + 3, which writes back. -/
theorem final_of_blocks (G : S4x4096x64.Idx → EReal)
    (hG : ∀ (t : Fin cfg1.N), t.val % 4 = 3 → ∀ (r : Fin 1024) (h : Fin 64),
      (stAt V c t.val t.isLt).1 (ix3 0 r h) = G (ix3 (bOf t) (rowOf t r) h)) :
    (dat1 (F := Ideal) V c).arrAt 3 cfg1.N = G := by
  refine (dat1 (F := Ideal) V c).arrAt_eq_of_cover 3 G (flushed3_eq V c G hG) fun i => ?_
  have h0 : (i 0).val < 4 := (i 0).isLt
  have h1 : (i 1).val < 4096 := (i 1).isLt
  have h2 : (i 2).val < 64 := (i 2).isLt
  let t : Fin cfg1.N := ⟨16 * (i 0).val + 4 * ((i 1).val / 1024) + 3,
    lt_of_lt_of_eq (by omega : 16 * (i 0).val + 4 * ((i 1).val / 1024) + 3 < 64) (show cfg1.N = 64 from N_1).symm⟩
  have htv : t.val = 16 * (i 0).val + 4 * ((i 1).val / 1024) + 3 := rfl
  obtain ⟨e0, e1, e2⟩ := idx1_3 t
  refine ⟨t, (flush1_3 t).mpr (by rw [htv]; omega), ?_⟩
  rw [mem_blk3]
  intro a
  match a with
  | ⟨0, _⟩ => show win1_3.index t 0 * 1 ≤ (i 0).val ∧ (i 0).val < win1_3.index t 0 * 1 + 1; rw [e0, htv]; omega
  | ⟨1, _⟩ => show win1_3.index t 1 * 1024 ≤ (i 1).val ∧ (i 1).val < win1_3.index t 1 * 1024 + 1024; rw [e1, htv]; omega
  | ⟨2, _⟩ => show win1_3.index t 2 * 64 ≤ (i 2).val ∧ (i 2).val < win1_3.index t 2 * 64 + 64; rw [e2]; omega

end Cert.KIAttnArray

end
-- ==== Proof.KIValue.lean ====
/-
  The attention stage's value at the exact instance. For a grid point (batch b, query block i, key block k), row r
  of the query block and head coordinate h, the three carried buffers hold the running triple of the blockwise
  sweep of row (b, 1024 i + r) after key blocks 0..k: each point applies one `step` to what the point before left
  (from the reset triple where k = 0), its 1024 scores being the query block's row against the key block's
  columns and its values the value block's column h. At k = 3 the output block holds numerator / denominator.
  So the result array is, index by index, the blockwise value of the arrays the stage found; and for the arrays
  the projection stage left, that is the blockwise attention of the arguments.
-/
import proofs.«162099_j9010841387309_2_alg».proof.Proof.KIPieces
import proofs.«162099_j9010841387309_2_alg».proof.Proof.KIPayloads
import proofs.«162099_j9010841387309_2_alg».proof.Proof.KIAttnArray
import proofs.«162099_j9010841387309_2_alg».proof.Proof.AttnSpec
import Idealize.ShloMosaic.Lib.Pipeline.Value

set_option maxRecDepth 16384

noncomputable section

namespace Cert.KIValue

open Cert.KernelIdeal Cert.KernelIdeal.Gen Cert.KernelIdeal.Frame Cert.AttnSpec Cert.KIPayloads
open Idealize.ShloMosaic Idealize.ShloMosaic.TcCoe Idealize.ShloMosaic.ValueIdx Idealize.SL.Sem
open Idealize.ShloMosaic.Pipeline (Dat)

/-! ## One block's update, read at a row and a head coordinate -/

theorem step_at (q : Vec Ideal S1x1024x64 .bf16) (kt : Vec Ideal S1x64x1024 .bf16) (v : Vec Ideal S1x1024x64 .bf16)
    (m0 l0 : Vec Ideal S1024x1 .f32) (a0 : Vec Ideal S1024x64 .f32) (r : Fin 1024) (h : Fin 64)
    (S Vc : Fin 1024 → EReal) (hS : ∀ c, k1_pay8 q kt (ix2 r c) = S c) (hV : ∀ c, v (ix3 0 c h) = Vc c) :
    (k1_pay2 (k1_pay9 q kt m0) (ix2 r 0), k1_pay12 q kt m0 m0 l0 (ix2 r 0),
       k1_pay1 (k1_pay7 v) (k1_pay10 q kt m0 m0) (k1_pay11 q kt m0) a0 (ix2 r h))
      = step (m0 (ix2 r 0), l0 (ix2 r 0), a0 (ix2 r h)) S Vc := by
  unfold step
  rw [pay2_eq, pay12_apply, pay1_apply, pay10_apply, pay9_apply]
  simp only [pay11_apply, pay9_apply, pay7_apply, hS, hV]

/-! ## The sweep's recursion, at an index known only by an equation -/

theorem online_zero (S V : Fin 4096 → EReal) (k : ℕ) (hk : k < 4) (h0 : k = 0) :
    online S V k hk = step (negInf, zero, zero) (fun c => S (key ⟨k, hk⟩ c)) (fun c => V (key ⟨k, hk⟩ c)) := by
  subst h0; rfl
theorem online_pos (S V : Fin 4096 → EReal) (k : ℕ) (hk : k < 4) (k' : ℕ) (hk' : k' < 4) (h : k = k' + 1) :
    online S V k hk = step (online S V k' hk') (fun c => S (key ⟨k, hk⟩ c)) (fun c => V (key ⟨k, hk⟩ c)) := by
  subst h; rfl

/-! ## The scores of a row, from the two projection arrays the stage finds -/

/-- Query row (b, q) against key position j: the 64 products of the query projection and the transposed key
    projection, scaled. -/
def scoreOf (Q : S4x4096x64.Idx → EReal) (KT : S4x64x4096.Idx → EReal) (b : Fin 4) (q j : Fin 4096) : EReal :=
  (∑ h : Fin 64, Q (ix3 b q h) * KT (ix3 b h j)) * scale

section Sweep
variable (V : (c : Dev nD) → (b : Ref sig .tc) → Buf (Elt Ideal) ((c : Thread nD τ).loc b)) (c : Dev nD)

/-- The batch of position `n`, and the array row of row `r` of its query block. -/
abbrev bAt (n : ℕ) (hn : n < cfg1.N) : Fin 4 := ⟨n / 16, by have : cfg1.N = 64 := N_1; omega⟩
abbrev rowAt (n : ℕ) (r : Fin 1024) : Fin 4096 := ⟨1024 * ((n / 4) % 4) + r.val, by have := r.isLt; omega⟩

/-- The 1024 scores of point `t`'s key block against row `r` of its query block are scores of the array row. -/
theorem scores_at (t : Fin cfg1.N) (r c' : Fin 1024) :
    k1_pay8 (iblk1 V c 0 t : Vec Ideal S1x1024x64 .bf16) (iblk1 V c 1 t : Vec Ideal S1x64x1024 .bf16) (ix2 r c')
      = scoreOf (V c main_v0_0) (V c main_v0_1) (bAt t.val t.isLt) (rowAt t.val r) (key ⟨t.val % 4, Nat.mod_lt _ (by decide)⟩ c') := by
  rw [pay8_apply]
  unfold scoreOf
  refine congrArg (· * scale) (Finset.sum_congr rfl fun h _ => ?_)
  rw [Cert.KIAttnArray.blk_q V c t r h, Cert.KIAttnArray.blk_kt V c t h c']
  rfl

/-- The value block's column `h` at point `t` is the value projection's column at the key positions of block `k`. -/
theorem values_at (t : Fin cfg1.N) (c' : Fin 1024) (h : Fin 64) :
    (iblk1 V c 2 t : Vec Ideal S1x1024x64 .bf16) (ix3 0 c' h)
      = V c main_v0_2 (ix3 (bAt t.val t.isLt) (key ⟨t.val % 4, Nat.mod_lt _ (by decide)⟩ c') h) := by
  rw [Cert.KIAttnArray.blk_v V c t c' h]
  rfl

/-- THE INVARIANT: after position `n` the carried buffers hold, at row `r` (and head coordinate `h`), the sweep's
    triple after key blocks 0..n % 4 of the array row. By induction on the position. -/
theorem sweep_inv : ∀ (n : ℕ) (hn : n < cfg1.N) (r : Fin 1024) (h : Fin 64),
    ((stAt V c n hn).2.1 (ix2 r 0), (stAt V c n hn).2.2.1 (ix2 r 0), (stAt V c n hn).2.2.2 (ix2 r h))
      = online (scoreOf (V c main_v0_0) (V c main_v0_1) (bAt n hn) (rowAt n r)) (fun j => V c main_v0_2 (ix3 (bAt n hn) j h))
          (n % 4) (Nat.mod_lt _ (by decide)) := by
  intro n
  induction n with
  | zero =>
    intro hn r h
    rw [stAt_first V c ⟨0, hn⟩ rfl]
    dsimp only
    rw [mFirst_eq, lFirst_eq, aFirst_eq, online_zero _ _ _ _ rfl]
    rw [step_at _ _ _ _ _ _ r h _ _ (scores_at V c ⟨0, hn⟩ r) (fun c' => values_at V c ⟨0, hn⟩ c' h)]
    rw [pay4_apply, pay5_apply, pay6_apply]
    rfl
  | succ n ih =>
    intro hn r h
    have hN : cfg1.N = 64 := N_1
    by_cases h0 : (n + 1) % 4 = 0
    · rw [stAt_first V c ⟨n + 1, hn⟩ h0]
      dsimp only
      rw [mFirst_eq, lFirst_eq, aFirst_eq, online_zero _ _ _ _ h0]
      rw [step_at _ _ _ _ _ _ r h _ _ (scores_at V c ⟨n + 1, hn⟩ r) (fun c' => values_at V c ⟨n + 1, hn⟩ c' h)]
      rw [pay4_apply, pay5_apply, pay6_apply]
    · have hprev := ih (Nat.lt_of_succ_lt hn) r h
      have hb : bAt n (Nat.lt_of_succ_lt hn) = bAt (n + 1) hn := Fin.ext (by show n / 16 = (n + 1) / 16; omega)
      have hr : rowAt n r = rowAt (n + 1) r := Fin.ext (by show 1024 * ((n / 4) % 4) + r.val = 1024 * (((n + 1) / 4) % 4) + r.val; omega)
      rw [hb, hr] at hprev
      rw [online_pos _ _ ((n + 1) % 4) _ (n % 4) (Nat.mod_lt _ (by decide)) (by omega)]
      rw [← hprev]
      by_cases h1 : (n + 1) % 4 = 3
      · rw [stAt_last V c ⟨n + 1, hn⟩ h0 h1]
        dsimp only
        rw [mLast_eq, lLast_eq, aLast_eq]
        exact step_at _ _ _ _ _ _ r h _ _ (scores_at V c ⟨n + 1, hn⟩ r) (fun c' => values_at V c ⟨n + 1, hn⟩ c' h)
      · rw [stAt_mid V c ⟨n + 1, hn⟩ h0 h1]
        dsimp only
        rw [mMid_eq, lMid_eq, aMid_eq]
        exact step_at _ _ _ _ _ _ r h _ _ (scores_at V c ⟨n + 1, hn⟩ r) (fun c' => values_at V c ⟨n + 1, hn⟩ c' h)

/-- The blockwise value of the arrays the stage finds, at (b, q, h). -/
def sweepOut (b : Fin 4) (q : Fin 4096) (h : Fin 64) : EReal :=
  Ideal.div (online (scoreOf (V c main_v0_0) (V c main_v0_1) b q) (fun j => V c main_v0_2 (ix3 b j h)) 3 (by decide)).2.2
    (online (scoreOf (V c main_v0_0) (V c main_v0_1) b q) (fun j => V c main_v0_2 (ix3 b j h)) 3 (by decide)).2.1

/-- Where k = 3 the output block holds numerator / denominator of the finished sweep. -/
theorem out_at (t : Fin cfg1.N) (h3 : t.val % 4 = 3) (r : Fin 1024) (h : Fin 64) :
    (stAt V c t.val t.isLt).1 (ix3 0 r h) = sweepOut V c (bAt t.val t.isLt) (rowAt t.val r) h := by
  have h0 : ¬t.val % 4 = 0 := by omega
  have hinv := sweep_inv V c t.val t.isLt r h
  rw [stAt_last V c t h0 h3] at hinv ⊢
  dsimp only at hinv ⊢
  rw [oLast_eq, pay3_apply]
  rw [mLast_eq, lLast_eq, aLast_eq] at hinv
  unfold sweepOut
  have e : online (scoreOf (V c main_v0_0) (V c main_v0_1) (bAt t.val t.isLt) (rowAt t.val r)) (fun j => V c main_v0_2 (ix3 (bAt t.val t.isLt) j h)) 3 (by decide)
      = online (scoreOf (V c main_v0_0) (V c main_v0_1) (bAt t.val t.isLt) (rowAt t.val r)) (fun j => V c main_v0_2 (ix3 (bAt t.val t.isLt) j h)) (t.val % 4) (Nat.mod_lt _ (by decide)) := by
    congr 1; exact h3.symm
  rw [e, ← hinv]

/-- So the result array, index by index, is the blockwise value of the arrays the stage found. -/
theorem result_array :
    (dat1 (F := Ideal) V c).arrAt 3 cfg1.N = fun idx => sweepOut V c (idx 0) (idx 1) (idx 2) :=
  Cert.KIAttnArray.final_of_blocks V c _ fun t h3 r h => out_at V c t h3 r h

end Sweep

end Cert.KIValue

end
-- ==== Proof.KIProjArrays.lean ====
/-
  The projection stage's three result arrays, each as ONE function of the argument arrays, index by index.

  The stage runs over 16 grid points, point t being (batch t / 4, row block t % 4). At each point the body reads the
  [1024, 1024] block of x at rows 1024 (t % 4) … of batch t / 4 and the three whole weight matrices, and writes back one
  block of each result array: blocks (t / 4, t % 4, 0) of the query and value projections [4, 4096, 64] and block
  (t / 4, 0, t % 4) of the transposed key projection [4, 64, 4096].

  For each result array: what point t writes back is its block of one whole-array function G of the arguments (the
  payload at a block index is a sum over the 1024 embedding coordinates of products of the blocks' entries, and each
  block entry is the array's entry at block index × block size + the coordinate inside the block); the blocks of the 16
  points cover the array (index (b, q, ·) lies in the block of the point of batch b and row block q / 1024); hence the
  array after the stage is G.
-/
import proofs.«162099_j9010841387309_2_alg».proof.Proof.KIRegion0
import proofs.«162099_j9010841387309_2_alg».proof.Proof.KIPayloads
import proofs.«162099_j9010841387309_2_alg».proof.Proof.AttnSpec
import Idealize.ShloMosaic.Lib.Pipeline.Value

noncomputable section

namespace Cert.KIProjArrays

open Cert.KernelIdeal Cert.KernelIdeal.Gen Cert.KernelIdeal.Frame Cert.AttnSpec Cert.KIPayloads
open Idealize.ShloMosaic Idealize.ShloMosaic.TcCoe Idealize.SL.Sem ValueIdx
open Idealize.ShloMosaic.Pipeline (Dat)

variable (V : (c : Dev nD) → (b : Ref sig .tc) → Buf (Elt Ideal) ((c : Thread nD τ).loc b))

/-! ## Shared facts -/

theorem hz3 : (![0, 0, 0] : Fin 3 → Nat) = fun _ => 0 := funext fun a => by fin_cases a <;> rfl
theorem hz2 : (![0, 0] : Fin 2 → Nat) = fun _ => 0 := funext fun a => by fin_cases a <;> rfl

/-- The block indices over the 16 grid points, point `t` being (batch t / 4, row block t % 4): the input x and the query
    and value projections are at block (t / 4, t % 4, 0), the transposed key projection at (t / 4, 0, t % 4), and the
    three weight matrices are one block each. -/
theorem idx_facts : ∀ t : Fin cfg0.N,
    win0_0.index t (0 : Fin 3) = t.val / 4 ∧ win0_0.index t (1 : Fin 3) = t.val % 4 ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 3) = t.val / 4 ∧ win0_4.index t (1 : Fin 3) = t.val % 4 ∧ win0_4.index t (2 : Fin 3) = 0
    ∧ win0_5.index t (0 : Fin 3) = t.val / 4 ∧ win0_5.index t (1 : Fin 3) = 0 ∧ win0_5.index t (2 : Fin 3) = t.val % 4
    ∧ win0_6.index t (0 : Fin 3) = t.val / 4 ∧ win0_6.index t (1 : Fin 3) = t.val % 4 ∧ win0_6.index t (2 : Fin 3) = 0 :=
  (by decide +kernel : ∀ t : Fin grid0.N, _)

/-- The grid point of batch `b` and row block `i`. -/
def pointOf (b : Fin 4) (i : Fin 4) : Fin cfg0.N := ⟨4 * b.val + i.val, by show _ < grid0.N; rw [N_0]; omega⟩

/-! ## One element of a block, over any input block and weight block that read the arrays X and W where stated -/

/-- If row `r` of the input block is row `q` of batch `b` of X, and column `h` of the weight block is column `h` of W, the
    first projection payload at (0, r, h) is the projection of X by W at (b, q, h). -/
theorem k0_pay2_block (X : XIdx → EReal) (W : WIdx → EReal) (x0 : Vec Ideal S1x1024x1024 .f32) (w : Vec Ideal S1024x64 .f32)
    (b : Fin 4) (q : Fin 4096) (r : Fin 1024) (h : Fin 64)
    (hx : ∀ e : Fin 1024, x0 (ix3 0 r e) = X (ix3 b q e)) (hw : ∀ e : Fin 1024, w (ix2 e h) = W (ix2 e h)) :
    k0_pay2 (F := Ideal) x0 w (ix3 0 r h) = proj X W b q h := by
  rw [k0_pay2_apply]
  unfold proj
  exact Finset.sum_congr rfl fun e _ => by rw [hx, hw]

/-- The same for the other payload of that orientation. -/
theorem k0_pay3_block (X : XIdx → EReal) (W : WIdx → EReal) (x0 : Vec Ideal S1x1024x1024 .f32) (w : Vec Ideal S1024x64 .f32)
    (b : Fin 4) (q : Fin 4096) (r : Fin 1024) (h : Fin 64)
    (hx : ∀ e : Fin 1024, x0 (ix3 0 r e) = X (ix3 b q e)) (hw : ∀ e : Fin 1024, w (ix2 e h) = W (ix2 e h)) :
    k0_pay3 (F := Ideal) x0 w (ix3 0 r h) = proj X W b q h := by
  rw [k0_pay3_apply]
  unfold proj
  exact Finset.sum_congr rfl fun e _ => by rw [hx, hw]

/-- The transposed payload at (0, h, r): the same sum with the factors in the other order. -/
theorem k0_pay4_block (X : XIdx → EReal) (W : WIdx → EReal) (x0 : Vec Ideal S1x1024x1024 .f32) (w : Vec Ideal S1024x64 .f32)
    (b : Fin 4) (q : Fin 4096) (r : Fin 1024) (h h' : Fin 64) (hh : h' = h)
    (hx : ∀ e : Fin 1024, x0 (ix3 0 r e) = X (ix3 b q e)) (hw : ∀ e : Fin 1024, w (ix2 e h) = W (ix2 e h)) :
    k0_pay4 (F := Ideal) x0 w (ix3 0 h r) = ∑ e : Fin 1024, W (ix2 e h') * X (ix3 b q e) := by
  subst hh
  rw [k0_pay4_apply]
  exact Finset.sum_congr rfl fun e _ => by rw [hx, hw]

/-! ## The query projection: window 4 -/

/-- The array of query projections: x projected by the first weight matrix. -/
abbrev qArr (c : Dev nD) : S4x4096x64.Idx → EReal :=
  fun idx => proj (V c main_arg0) (V c main_arg1) (idx 0) (idx 1) (idx 2)

/-- What point `t` writes back is its block of that array: the block's entry (0, r, h) is the projection of the input
    block's row r, which is row 1024 (t % 4) + r of batch t / 4, against column h of the whole weight matrix. -/
theorem flushed_q (c : Dev nD) (t : Fin cfg0.N) :
    (dat0 (F := Ideal) V c).flushed 4 t = ((cfg0.win 4).blk t).view.read (Elt Ideal) (qArr V c) := by
  show (cfg0.win 4).cut (grid0.coords t) ((dat0 (F := Ideal) V c).after 4 t) = _
  rw [after0_4]
  unfold out0_4
  rw [View.canon_unit_zero hz3]
  simp only [View.ld_unit_zero (S := S1x1024x1024) hz3, View.ld_unit_zero (S := S1024x64) hz2]
  obtain ⟨a00, a01, a02, a10, a11, a20, a21, a30, a31, a40, a41, a42, a50, a51, a52, a60, a61, a62⟩ := idx_facts t
  funext y
  have hy0 : (y 0).val < 1 := (y 0).isLt
  have hy1 : (y 1).val < 1024 := (y 1).isLt
  have hy2 : (y 2).val < 64 := (y 2).isLt
  have hxinj : (win0 4).xinj (grid0.coords t) y = ix3 (0 : Fin 1) (⟨(y 1).val, hy1⟩ : Fin 1024) (⟨(y 2).val, hy2⟩ : Fin 64) :=
    funext fun a => Fin.ext (by
      match a with
      | ⟨0, _⟩ => show (y 0).val = 0; omega
      | ⟨1, _⟩ => rfl
      | ⟨2, _⟩ => rfl)
  have eh : ((cfg0.win 4).blk t).view.emb y 2 = (⟨(y 2).val, hy2⟩ : Fin 64) := Fin.ext (by
    show win0_4.index t (2 : Fin 3) * 64 + 1 * (y 2).val = (y 2).val
    omega)
  refine (congrArg (k0_pay2 (F := Ideal) (iblk0 V c 0 t) (iblk0 V c 1 t)) hxinj).trans ?_
  refine (k0_pay2_block (V c main_arg0) (V c main_arg1) (iblk0 V c 0 t) (iblk0 V c 1 t)
    (((cfg0.win 4).blk t).view.emb y 0) (((cfg0.win 4).blk t).view.emb y 1) ⟨(y 1).val, hy1⟩ ⟨(y 2).val, hy2⟩ ?_ ?_).trans ?_
  · intro e
    show V c main_arg0 (((cfg0.win 0).blk t).view.emb (ix3 (0 : Fin 1) (⟨(y 1).val, hy1⟩ : Fin 1024) e)) = V c main_arg0 _
    refine congrArg (V c main_arg0) (funext fun a => Fin.ext ?_)
    match a with
    | ⟨0, _⟩ => show win0_0.index t (0 : Fin 3) * 1 + 1 * 0 = win0_4.index t (0 : Fin 3) * 1 + 1 * (y 0).val; omega
    | ⟨1, _⟩ => show win0_0.index t (1 : Fin 3) * 1024 + 1 * (y 1).val = win0_4.index t (1 : Fin 3) * 1024 + 1 * (y 1).val; omega
    | ⟨2, _⟩ => show win0_0.index t (2 : Fin 3) * 1024 + 1 * e.val = e.val; omega
  · intro e
    show V c main_arg1 (((cfg0.win 1).blk t).view.emb (ix2 e (⟨(y 2).val, hy2⟩ : Fin 64))) = V c main_arg1 _
    refine congrArg (V c main_arg1) (funext fun a => Fin.ext ?_)
    match a with
    | ⟨0, _⟩ => show win0_1.index t (0 : Fin 2) * 1024 + 1 * e.val = e.val; omega
    | ⟨1, _⟩ => show win0_1.index t (1 : Fin 2) * 64 + 1 * (y 2).val = (y 2).val; omega
  · show _ = proj (V c main_arg0) (V c main_arg1) (((cfg0.win 4).blk t).view.emb y 0) (((cfg0.win 4).blk t).view.emb y 1) (((cfg0.win 4).blk t).view.emb y 2)
    rw [eh]

/-- An index of the array is in point `t`'s block iff each coordinate is in the block's range on its axis. -/
theorem mem_blk_q (t : Fin cfg0.N) (i : S4x4096x64.Idx) :
    i ∈ ((cfg0.win 4).blk t).view.set ↔ ∀ a : Fin 3, win0_4.index t a * S1x1024x64.size a ≤ (i a).val ∧ (i a).val < win0_4.index t a * S1x1024x64.size a + S1x1024x64.size a := by
  show i ∈ ((View.whole main_v0_0).slice (win0_4.rect t)).set ↔ _
  rw [View.set_slice_whole, Rect.mem_set_unit]
  exact Iff.rfl

/-- Every index (b, q, h) of the array is in the block of the point of batch b and row block q / 1024. -/
theorem cover_q (i : S4x4096x64.Idx) : ∃ t : Fin cfg0.N, (cfg0.win 4).flush t = true ∧ i ∈ ((cfg0.win 4).blk t).view.set := by
  have h0 : (i 0).val < 4 := (i 0).isLt
  have h1 : (i 1).val < 4096 := (i 1).isLt
  have h2 : (i 2).val < 64 := (i 2).isLt
  refine ⟨pointOf ⟨(i 0).val, h0⟩ ⟨(i 1).val / 1024, by omega⟩, flush0_4 _, ?_⟩
  obtain ⟨a00, a01, a02, a10, a11, a20, a21, a30, a31, a40, a41, a42, a50, a51, a52, a60, a61, a62⟩ := idx_facts (pointOf ⟨(i 0).val, h0⟩ ⟨(i 1).val / 1024, by omega⟩)
  have hv : (pointOf ⟨(i 0).val, h0⟩ ⟨(i 1).val / 1024, by omega⟩).val = 4 * (i 0).val + (i 1).val / 1024 := rfl
  rw [mem_blk_q]
  intro a
  match a with
  | ⟨0, _⟩ => show win0_4.index _ (0 : Fin 3) * 1 ≤ (i 0).val ∧ (i 0).val < win0_4.index _ (0 : Fin 3) * 1 + 1; omega
  | ⟨1, _⟩ => show win0_4.index _ (1 : Fin 3) * 1024 ≤ (i 1).val ∧ (i 1).val < win0_4.index _ (1 : Fin 3) * 1024 + 1024; omega
  | ⟨2, _⟩ => show win0_4.index _ (2 : Fin 3) * 64 ≤ (i 2).val ∧ (i 2).val < win0_4.index _ (2 : Fin 3) * 64 + 64; omega

/-- THE QUERY PROJECTION after the stage: the projection of x by the first weight matrix, index by index. -/
theorem arr4 (c : Dev nD) :
    (dat0 (F := Ideal) V c).arrAt 4 cfg0.N
      = fun idx => Cert.AttnSpec.proj (V c main_arg0) (V c main_arg1) (idx 0) (idx 1) (idx 2) :=
  (dat0 (F := Ideal) V c).arrAt_eq_of_cover 4 (qArr V c) (fun t _ => flushed_q V c t) cover_q

/-! ## The value projection: window 6 -/

/-- The array of value projections: x projected by the third weight matrix. -/
abbrev vArr (c : Dev nD) : S4x4096x64.Idx → EReal :=
  fun idx => proj (V c main_arg0) (V c main_arg3) (idx 0) (idx 1) (idx 2)

/-- What point `t` writes back is its block of that array: the block's entry (0, r, h) is the projection of the input
    block's row r, which is row 1024 (t % 4) + r of batch t / 4, against column h of the whole weight matrix. -/
theorem flushed_v (c : Dev nD) (t : Fin cfg0.N) :
    (dat0 (F := Ideal) V c).flushed 6 t = ((cfg0.win 6).blk t).view.read (Elt Ideal) (vArr V c) := by
  show (cfg0.win 6).cut (grid0.coords t) ((dat0 (F := Ideal) V c).after 6 t) = _
  rw [after0_6]
  unfold out0_6
  rw [View.canon_unit_zero hz3]
  simp only [View.ld_unit_zero (S := S1x1024x1024) hz3, View.ld_unit_zero (S := S1024x64) hz2]
  obtain ⟨a00, a01, a02, a10, a11, a20, a21, a30, a31, a40, a41, a42, a50, a51, a52, a60, a61, a62⟩ := idx_facts t
  funext y
  have hy0 : (y 0).val < 1 := (y 0).isLt
  have hy1 : (y 1).val < 1024 := (y 1).isLt
  have hy2 : (y 2).val < 64 := (y 2).isLt
  have hxinj : (win0 6).xinj (grid0.coords t) y = ix3 (0 : Fin 1) (⟨(y 1).val, hy1⟩ : Fin 1024) (⟨(y 2).val, hy2⟩ : Fin 64) :=
    funext fun a => Fin.ext (by
      match a with
      | ⟨0, _⟩ => show (y 0).val = 0; omega
      | ⟨1, _⟩ => rfl
      | ⟨2, _⟩ => rfl)
  have eh : ((cfg0.win 6).blk t).view.emb y 2 = (⟨(y 2).val, hy2⟩ : Fin 64) := Fin.ext (by
    show win0_6.index t (2 : Fin 3) * 64 + 1 * (y 2).val = (y 2).val
    omega)
  refine (congrArg (k0_pay3 (F := Ideal) (iblk0 V c 0 t) (iblk0 V c 3 t)) hxinj).trans ?_
  refine (k0_pay3_block (V c main_arg0) (V c main_arg3) (iblk0 V c 0 t) (iblk0 V c 3 t)
    (((cfg0.win 6).blk t).view.emb y 0) (((cfg0.win 6).blk t).view.emb y 1) ⟨(y 1).val, hy1⟩ ⟨(y 2).val, hy2⟩ ?_ ?_).trans ?_
  · intro e
    show V c main_arg0 (((cfg0.win 0).blk t).view.emb (ix3 (0 : Fin 1) (⟨(y 1).val, hy1⟩ : Fin 1024) e)) = V c main_arg0 _
    refine congrArg (V c main_arg0) (funext fun a => Fin.ext ?_)
    match a with
    | ⟨0, _⟩ => show win0_0.index t (0 : Fin 3) * 1 + 1 * 0 = win0_6.index t (0 : Fin 3) * 1 + 1 * (y 0).val; omega
    | ⟨1, _⟩ => show win0_0.index t (1 : Fin 3) * 1024 + 1 * (y 1).val = win0_6.index t (1 : Fin 3) * 1024 + 1 * (y 1).val; omega
    | ⟨2, _⟩ => show win0_0.index t (2 : Fin 3) * 1024 + 1 * e.val = e.val; omega
  · intro e
    show V c main_arg3 (((cfg0.win 3).blk t).view.emb (ix2 e (⟨(y 2).val, hy2⟩ : Fin 64))) = V c main_arg3 _
    refine congrArg (V c main_arg3) (funext fun a => Fin.ext ?_)
    match a with
    | ⟨0, _⟩ => show win0_3.index t (0 : Fin 2) * 1024 + 1 * e.val = e.val; omega
    | ⟨1, _⟩ => show win0_3.index t (1 : Fin 2) * 64 + 1 * (y 2).val = (y 2).val; omega
  · show _ = proj (V c main_arg0) (V c main_arg3) (((cfg0.win 6).blk t).view.emb y 0) (((cfg0.win 6).blk t).view.emb y 1) (((cfg0.win 6).blk t).view.emb y 2)
    rw [eh]

/-- An index of the array is in point `t`'s block iff each coordinate is in the block's range on its axis. -/
theorem mem_blk_v (t : Fin cfg0.N) (i : S4x4096x64.Idx) :
    i ∈ ((cfg0.win 6).blk t).view.set ↔ ∀ a : Fin 3, win0_6.index t a * S1x1024x64.size a ≤ (i a).val ∧ (i a).val < win0_6.index t a * S1x1024x64.size a + S1x1024x64.size a := by
  show i ∈ ((View.whole main_v0_2).slice (win0_6.rect t)).set ↔ _
  rw [View.set_slice_whole, Rect.mem_set_unit]
  exact Iff.rfl

/-- Every index (b, q, h) of the array is in the block of the point of batch b and row block q / 1024. -/
theorem cover_v (i : S4x4096x64.Idx) : ∃ t : Fin cfg0.N, (cfg0.win 6).flush t = true ∧ i ∈ ((cfg0.win 6).blk t).view.set := by
  have h0 : (i 0).val < 4 := (i 0).isLt
  have h1 : (i 1).val < 4096 := (i 1).isLt
  have h2 : (i 2).val < 64 := (i 2).isLt
  refine ⟨pointOf ⟨(i 0).val, h0⟩ ⟨(i 1).val / 1024, by omega⟩, flush0_6 _, ?_⟩
  obtain ⟨a00, a01, a02, a10, a11, a20, a21, a30, a31, a40, a41, a42, a50, a51, a52, a60, a61, a62⟩ := idx_facts (pointOf ⟨(i 0).val, h0⟩ ⟨(i 1).val / 1024, by omega⟩)
  have hv : (pointOf ⟨(i 0).val, h0⟩ ⟨(i 1).val / 1024, by omega⟩).val = 4 * (i 0).val + (i 1).val / 1024 := rfl
  rw [mem_blk_v]
  intro a
  match a with
  | ⟨0, _⟩ => show win0_6.index _ (0 : Fin 3) * 1 ≤ (i 0).val ∧ (i 0).val < win0_6.index _ (0 : Fin 3) * 1 + 1; omega
  | ⟨1, _⟩ => show win0_6.index _ (1 : Fin 3) * 1024 ≤ (i 1).val ∧ (i 1).val < win0_6.index _ (1 : Fin 3) * 1024 + 1024; omega
  | ⟨2, _⟩ => show win0_6.index _ (2 : Fin 3) * 64 ≤ (i 2).val ∧ (i 2).val < win0_6.index _ (2 : Fin 3) * 64 + 64; omega

/-- THE VALUE PROJECTION after the stage: the projection of x by the third weight matrix, index by index. -/
theorem arr6 (c : Dev nD) :
    (dat0 (F := Ideal) V c).arrAt 6 cfg0.N
      = fun idx => Cert.AttnSpec.proj (V c main_arg0) (V c main_arg3) (idx 0) (idx 1) (idx 2) :=
  (dat0 (F := Ideal) V c).arrAt_eq_of_cover 6 (vArr V c) (fun t _ => flushed_v V c t) cover_v

/-! ## The transposed key projection: window 5 -/

/-- The array of transposed key projections: at (b, h, j), column h of the second weight matrix against row j of batch b of x. -/
abbrev ktArr (c : Dev nD) : S4x64x4096.Idx → EReal :=
  fun idx => ∑ e : Fin 1024, HMul.hMul (α := EReal) (β := EReal) (γ := EReal) (V c main_arg2 (ix2 e (idx 1))) (V c main_arg0 (ix3 (idx 0) (idx 2) e))

/-- What point `t` writes back is its block of that array: the block's entry (0, h, r) pairs column h of the whole weight
    matrix with the input block's row r, which is row 1024 (t % 4) + r of batch t / 4. -/
theorem flushed_kt (c : Dev nD) (t : Fin cfg0.N) :
    (dat0 (F := Ideal) V c).flushed 5 t = ((cfg0.win 5).blk t).view.read (Elt Ideal) (ktArr V c) := by
  show (cfg0.win 5).cut (grid0.coords t) ((dat0 (F := Ideal) V c).after 5 t) = _
  rw [after0_5]
  unfold out0_5
  rw [View.canon_unit_zero hz3]
  simp only [View.ld_unit_zero (S := S1x1024x1024) hz3, View.ld_unit_zero (S := S1024x64) hz2]
  obtain ⟨a00, a01, a02, a10, a11, a20, a21, a30, a31, a40, a41, a42, a50, a51, a52, a60, a61, a62⟩ := idx_facts t
  funext y
  have hy0 : (y 0).val < 1 := (y 0).isLt
  have hy1 : (y 1).val < 64 := (y 1).isLt
  have hy2 : (y 2).val < 1024 := (y 2).isLt
  have hxinj : (win0 5).xinj (grid0.coords t) y = ix3 (0 : Fin 1) (⟨(y 1).val, hy1⟩ : Fin 64) (⟨(y 2).val, hy2⟩ : Fin 1024) :=
    funext fun a => Fin.ext (by
      match a with
      | ⟨0, _⟩ => show (y 0).val = 0; omega
      | ⟨1, _⟩ => rfl
      | ⟨2, _⟩ => rfl)
  have eh : ((cfg0.win 5).blk t).view.emb y 1 = (⟨(y 1).val, hy1⟩ : Fin 64) := Fin.ext (by
    show win0_5.index t (1 : Fin 3) * 64 + 1 * (y 1).val = (y 1).val
    omega)
  refine (congrArg (k0_pay4 (F := Ideal) (iblk0 V c 0 t) (iblk0 V c 2 t)) hxinj).trans ?_
  refine k0_pay4_block (V c main_arg0) (V c main_arg2) (iblk0 V c 0 t) (iblk0 V c 2 t)
    (((cfg0.win 5).blk t).view.emb y 0) (((cfg0.win 5).blk t).view.emb y 2) ⟨(y 2).val, hy2⟩ ⟨(y 1).val, hy1⟩
    (((cfg0.win 5).blk t).view.emb y 1) eh ?_ ?_
  · intro e
    show V c main_arg0 (((cfg0.win 0).blk t).view.emb (ix3 (0 : Fin 1) (⟨(y 2).val, hy2⟩ : Fin 1024) e)) = V c main_arg0 _
    refine congrArg (V c main_arg0) (funext fun a => Fin.ext ?_)
    match a with
    | ⟨0, _⟩ => show win0_0.index t (0 : Fin 3) * 1 + 1 * 0 = win0_5.index t (0 : Fin 3) * 1 + 1 * (y 0).val; omega
    | ⟨1, _⟩ => show win0_0.index t (1 : Fin 3) * 1024 + 1 * (y 2).val = win0_5.index t (2 : Fin 3) * 1024 + 1 * (y 2).val; omega
    | ⟨2, _⟩ => show win0_0.index t (2 : Fin 3) * 1024 + 1 * e.val = e.val; omega
  · intro e
    show V c main_arg2 (((cfg0.win 2).blk t).view.emb (ix2 e (⟨(y 1).val, hy1⟩ : Fin 64))) = V c main_arg2 _
    refine congrArg (V c main_arg2) (funext fun a => Fin.ext ?_)
    match a with
    | ⟨0, _⟩ => show win0_2.index t (0 : Fin 2) * 1024 + 1 * e.val = e.val; omega
    | ⟨1, _⟩ => show win0_2.index t (1 : Fin 2) * 64 + 1 * (y 1).val = (y 1).val; omega

/-- An index of the array is in point `t`'s block iff each coordinate is in the block's range on its axis. -/
theorem mem_blk_kt (t : Fin cfg0.N) (i : S4x64x4096.Idx) :
    i ∈ ((cfg0.win 5).blk t).view.set ↔ ∀ a : Fin 3, win0_5.index t a * S1x64x1024.size a ≤ (i a).val ∧ (i a).val < win0_5.index t a * S1x64x1024.size a + S1x64x1024.size a := by
  show i ∈ ((View.whole main_v0_1).slice (win0_5.rect t)).set ↔ _
  rw [View.set_slice_whole, Rect.mem_set_unit]
  exact Iff.rfl

/-- Every index (b, h, j) of the array is in the block of the point of batch b and row block j / 1024. -/
theorem cover_kt (i : S4x64x4096.Idx) : ∃ t : Fin cfg0.N, (cfg0.win 5).flush t = true ∧ i ∈ ((cfg0.win 5).blk t).view.set := by
  have h0 : (i 0).val < 4 := (i 0).isLt
  have h1 : (i 1).val < 64 := (i 1).isLt
  have h2 : (i 2).val < 4096 := (i 2).isLt
  refine ⟨pointOf ⟨(i 0).val, h0⟩ ⟨(i 2).val / 1024, by omega⟩, flush0_5 _, ?_⟩
  obtain ⟨a00, a01, a02, a10, a11, a20, a21, a30, a31, a40, a41, a42, a50, a51, a52, a60, a61, a62⟩ := idx_facts (pointOf ⟨(i 0).val, h0⟩ ⟨(i 2).val / 1024, by omega⟩)
  have hv : (pointOf ⟨(i 0).val, h0⟩ ⟨(i 2).val / 1024, by omega⟩).val = 4 * (i 0).val + (i 2).val / 1024 := rfl
  rw [mem_blk_kt]
  intro a
  match a with
  | ⟨0, _⟩ => show win0_5.index _ (0 : Fin 3) * 1 ≤ (i 0).val ∧ (i 0).val < win0_5.index _ (0 : Fin 3) * 1 + 1; omega
  | ⟨1, _⟩ => show win0_5.index _ (1 : Fin 3) * 64 ≤ (i 1).val ∧ (i 1).val < win0_5.index _ (1 : Fin 3) * 64 + 64; omega
  | ⟨2, _⟩ => show win0_5.index _ (2 : Fin 3) * 1024 ≤ (i 2).val ∧ (i 2).val < win0_5.index _ (2 : Fin 3) * 1024 + 1024; omega

/-- THE TRANSPOSED KEY PROJECTION after the stage, index by index. -/
theorem arr5 (c : Dev nD) :
    (dat0 (F := Ideal) V c).arrAt 5 cfg0.N
      = fun idx => ∑ e : Fin 1024, HMul.hMul (α := EReal) (β := EReal) (γ := EReal) (V c main_arg2 (ix2 e (idx 1))) (V c main_arg0 (ix3 (idx 0) (idx 2) e)) :=
  (dat0 (F := Ideal) V c).arrAt_eq_of_cover 5 (ktArr V c) (fun t _ => flushed_kt V c t) cover_kt

/-- The same array read as the key projection transposed: its entry (b, h, j) is the projection of x by the second weight
    matrix at (b, j, h) (the two sums differ by the order of the factors). -/
theorem arr5_proj (c : Dev nD) :
    (dat0 (F := Ideal) V c).arrAt 5 cfg0.N
      = fun idx => Cert.AttnSpec.proj (V c main_arg0) (V c main_arg2) (idx 0) (idx 2) (idx 1) := by
  rw [arr5]
  funext idx
  unfold proj
  exact Finset.sum_congr rfl fun e _ => mul_comm _ _

end Cert.KIProjArrays

end
-- ==== Proof.AttnLaws.lean ====
/-
  The law that joins the blockwise sweep of a row of attention to the plain softmax-weighted sum,
  for inputs that are real numbers.

  With real inputs every projection and every score is a real number.  A maximum started from -inf
  over a nonempty family of reals is a real.  After each block the carried triple is
  (m, sum of exp (s_j - m), sum of exp (s_j - m) * v_j) over the keys seen so far, for SOME real m:
  a block multiplies what was carried by exp (m_old - m_new), and
  exp (m_old - m_new) * exp (s - m_old) = exp (s - m_new).  The quotient of the last two components
  does not depend on m, because replacing m by M multiplies both by exp (M - m) > 0; so it equals the
  softmax-weighted sum, whose shift M is the row maximum.  The four blocks of 1024 keys
  (key k c = 1024 k + c) partition the 4096 keys.
-/
import proofs.«162099_j9010841387309_2_alg».proof.Proof.AttnSpec

noncomputable section

namespace Cert.AttnLaws

open Cert.AttnSpec Idealize.ShloMosaic Idealize.ShloMosaic.ValueIdx

/-! ## The three literals -/

/-- The pattern 0xFF800000 (sign 1, exponent all ones, fraction 0) is -inf. -/
theorem negInf_eq : negInf = ⊥ := by
  simp [negInf, Ideal.ofBits, Ideal.ieee]

/-- The pattern 0x00000000 is 0. -/
theorem zero_eq : zero = 0 := Ideal.ofBits_zero_f32

/-- The pattern 0x3E000000 (sign 0, exponent 124, fraction 0) is 2^23 * 2^(124 - 127 - 23) = 1/8. -/
theorem scale_eq : scale = (((1 / 8 : ℝ)) : EReal) := by
  simp [scale, Ideal.ofBits, Ideal.ieee]
  rw [← EReal.coe_mul]
  norm_num

/-! ## Coercion through finite sums and maxima -/

/-- The coercion of a finite sum of reals is the sum of the coercions. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The coercion of the larger of two reals is the larger of the coercions. -/
theorem coe_max (x y : ℝ) : ((max x y : ℝ) : EReal) = max (x : EReal) (y : EReal) :=
  (EReal.coe_strictMono.monotone).map_max

/-- A maximum started from -inf over a nonempty finite family of reals is a real. -/
theorem fold_max_coe {ι : Type*} (s : Finset ι) (hs : s.Nonempty) (f : ι → ℝ) :
    ∃ r : ℝ, s.fold max negInf (fun i => (f i : EReal)) = (r : EReal) := by
  rw [negInf_eq]
  obtain ⟨i0, hi0⟩ := hs
  have htop : s.fold max ⊥ (fun i => (f i : EReal)) ≠ ⊤ := by
    apply ne_of_lt
    rw [Finset.fold_max_lt]
    exact ⟨bot_lt_top, fun i _ => EReal.coe_lt_top _⟩
  have hbot : s.fold max ⊥ (fun i => (f i : EReal)) ≠ ⊥ := by
    apply ne_of_gt
    rw [Finset.lt_fold_max]
    exact Or.inr ⟨i0, hi0, EReal.bot_lt_coe _⟩
  exact ⟨_, (EReal.coe_toReal htop hbot).symm⟩

/-! ## One block of the sweep on real data -/

/-- The first block, from the state (-inf, 0, 0): exp (-inf - m) = 0 annihilates what was carried, and the
    new maximum is the block's own maximum, a real. -/
theorem step_init (f g : Fin 1024 → ℝ) :
    ∃ m : ℝ, step (negInf, zero, zero) (fun c => (f c : EReal)) (fun c => (g c : EReal))
      = ((m : EReal), ((∑ c, Real.exp (f c - m) : ℝ) : EReal),
          ((∑ c, Real.exp (f c - m) * g c : ℝ) : EReal)) := by
  obtain ⟨r, hr⟩ := fold_max_coe Finset.univ Finset.univ_nonempty f
  refine ⟨r, ?_⟩
  unfold step
  simp only [hr]
  simp only [negInf_eq, zero_eq, max_bot_left, EReal.bot_sub, Ideal.exp_bot, zero_mul, zero_add,
    ← EReal.coe_sub, Ideal.exp_coe, ← EReal.coe_mul, ← coe_sum]

/-- A later block, from a real state (m, l, a): the new maximum m' is real, and both carried sums are
    multiplied by exp (m - m') before the block's own exponentials, shifted by m', are added. -/
theorem step_real (m l a : ℝ) (f g : Fin 1024 → ℝ) :
    ∃ m' : ℝ, step ((m : EReal), (l : EReal), (a : EReal)) (fun c => (f c : EReal)) (fun c => (g c : EReal))
      = ((m' : EReal), ((Real.exp (m - m') * l + ∑ c, Real.exp (f c - m') : ℝ) : EReal),
          ((Real.exp (m - m') * a + ∑ c, Real.exp (f c - m') * g c : ℝ) : EReal)) := by
  obtain ⟨r, hr⟩ := fold_max_coe Finset.univ Finset.univ_nonempty f
  refine ⟨max m r, ?_⟩
  unfold step
  simp only [hr]
  simp only [← coe_max, ← EReal.coe_sub, Ideal.exp_coe, ← EReal.coe_mul, ← coe_sum, ← EReal.coe_add]

/-! ## The keys seen after k blocks -/

/-- The keys of block k: those whose position divided by 1024 is k. -/
def blk (k : ℕ) : Finset (Fin 4096) := Finset.univ.filter (fun j => j.val / 1024 = k)

/-- The keys of blocks 0..k. -/
def seen (k : ℕ) : Finset (Fin 4096) := Finset.univ.filter (fun j => j.val / 1024 ≤ k)

theorem seen_zero : seen 0 = blk 0 := by
  ext j
  simp only [seen, blk, Finset.mem_filter, Finset.mem_univ, true_and]
  omega

theorem seen_succ (k : ℕ) : seen (k + 1) = seen k ∪ blk (k + 1) := by
  ext j
  simp only [seen, blk, Finset.mem_union, Finset.mem_filter, Finset.mem_univ, true_and]
  omega

theorem disjoint_seen_blk (k : ℕ) : Disjoint (seen k) (blk (k + 1)) := by
  rw [Finset.disjoint_left]
  intro j h1 h2
  simp only [seen, blk, Finset.mem_filter, Finset.mem_univ, true_and] at h1 h2
  omega

/-- Four blocks of 1024 cover the 4096 keys. -/
theorem seen_three : seen 3 = Finset.univ := by
  ext j
  simp only [seen, Finset.mem_filter, Finset.mem_univ, true_and, iff_true]
  have := j.isLt
  omega

/-- Summing over block k is summing over its 1024 offsets c, at the key 1024 k + c. -/
theorem sum_blk (k : ℕ) (hk : k < 4) (F : Fin 4096 → ℝ) :
    ∑ j ∈ blk k, F j = ∑ c : Fin 1024, F (key ⟨k, hk⟩ c) := by
  symm
  refine Finset.sum_nbij' (key ⟨k, hk⟩) (fun j => ⟨j.val % 1024, Nat.mod_lt _ (by norm_num)⟩) ?_ ?_ ?_ ?_ ?_
  · intro c _
    simp only [blk, Finset.mem_filter, Finset.mem_univ, true_and, key]
    have := c.isLt
    omega
  · intro j _
    exact Finset.mem_univ _
  · intro c _
    apply Fin.ext
    simp only [key]
    have := c.isLt
    omega
  · intro j hj
    simp only [blk, Finset.mem_filter, Finset.mem_univ, true_and] at hj
    apply Fin.ext
    simp only [key]
    omega
  · intro c _
    rfl

/-! ## The invariant of the sweep -/

/-- The carried triple is (m, Σ exp (S j - m), Σ exp (S j - m) * V j) over the keys j in T, for some real m. -/
def Inv (S V : Fin 4096 → ℝ) (T : Finset (Fin 4096)) (st : EReal × EReal × EReal) : Prop :=
  ∃ m : ℝ, st = ((m : EReal), ((∑ j ∈ T, Real.exp (S j - m) : ℝ) : EReal),
    ((∑ j ∈ T, Real.exp (S j - m) * V j : ℝ) : EReal))

/-- After blocks 0..k the invariant holds over the keys of those blocks: what was carried with shift m is
    rescaled to the new shift m' by exp (m - m') * exp (s - m) = exp (s - m'). -/
theorem inv_online (S V : Fin 4096 → ℝ) : ∀ (k : ℕ) (hk : k < 4),
    Inv S V (seen k) (online (fun j => (S j : EReal)) (fun j => (V j : EReal)) k hk)
  | 0, hk => by
    obtain ⟨m, hm⟩ := step_init (fun c => S (key ⟨0, hk⟩ c)) (fun c => V (key ⟨0, hk⟩ c))
    refine ⟨m, ?_⟩
    rw [seen_zero, sum_blk 0 hk, sum_blk 0 hk]
    exact hm
  | k + 1, hk => by
    obtain ⟨m, hm⟩ := inv_online S V k (Nat.lt_of_succ_lt hk)
    obtain ⟨m', hm'⟩ := step_real m (∑ j ∈ seen k, Real.exp (S j - m)) (∑ j ∈ seen k, Real.exp (S j - m) * V j)
      (fun c => S (key ⟨k + 1, hk⟩ c)) (fun c => V (key ⟨k + 1, hk⟩ c))
    refine ⟨m', ?_⟩
    have h1 : Real.exp (m - m') * ∑ j ∈ seen k, Real.exp (S j - m) = ∑ j ∈ seen k, Real.exp (S j - m') := by
      rw [Finset.mul_sum]
      refine Finset.sum_congr rfl fun j _ => ?_
      rw [← Real.exp_add]
      congr 1
      ring
    have h2 : Real.exp (m - m') * ∑ j ∈ seen k, Real.exp (S j - m) * V j
        = ∑ j ∈ seen k, Real.exp (S j - m') * V j := by
      rw [Finset.mul_sum]
      refine Finset.sum_congr rfl fun j _ => ?_
      rw [← mul_assoc, ← Real.exp_add]
      congr 2
      ring
    rw [seen_succ, Finset.sum_union (disjoint_seen_blk k), Finset.sum_union (disjoint_seen_blk k),
      sum_blk (k + 1) hk, sum_blk (k + 1) hk, ← h1, ← h2]
    show step (online (fun j => (S j : EReal)) (fun j => (V j : EReal)) k (Nat.lt_of_succ_lt hk)) _ _ = _
    rw [hm]
    exact hm'

/-! ## The quotient after the fourth block -/

/-- Over real scores S and values V: numerator over denominator after the fourth block is the
    softmax-weighted sum.  Both sides are real; the sweep's shift m and the row maximum M differ by the common
    factor exp (M - m) > 0 of numerator and denominator, and (Σ e_j v_j) / Z = Σ (e_j / Z) v_j. -/
theorem online_eq_attn_real (S V : Fin 4096 → ℝ) :
    Ideal.div (online (fun j => (S j : EReal)) (fun j => (V j : EReal)) 3 (by decide)).2.2
        (online (fun j => (S j : EReal)) (fun j => (V j : EReal)) 3 (by decide)).2.1
      = ∑ j : Fin 4096,
          Ideal.div
            (Ideal.exp ((S j : EReal) - max negInf (Finset.univ.fold max negInf (fun i : Fin 4096 => (S i : EReal)))))
            (zero + ∑ i : Fin 4096,
              Ideal.exp ((S i : EReal) - max negInf (Finset.univ.fold max negInf (fun i : Fin 4096 => (S i : EReal)))))
            * (V j : EReal) := by
  obtain ⟨m, hm⟩ := inv_online S V 3 (by decide)
  rw [seen_three] at hm
  obtain ⟨M, hM⟩ := fold_max_coe Finset.univ Finset.univ_nonempty S
  rw [hm, hM]
  have hL : (0 : ℝ) < ∑ j, Real.exp (S j - m) :=
    Finset.sum_pos (fun j _ => Real.exp_pos _) Finset.univ_nonempty
  have hZ : (0 : ℝ) < ∑ j, Real.exp (S j - M) :=
    Finset.sum_pos (fun j _ => Real.exp_pos _) Finset.univ_nonempty
  simp only [negInf_eq, zero_eq, max_bot_left, zero_add, ← EReal.coe_sub, Ideal.exp_coe, ← coe_sum,
    Ideal.div_coe hL.ne', Ideal.div_coe hZ.ne', ← EReal.coe_mul]
  rw [EReal.coe_eq_coe_iff]
  have hc : ∀ j, Real.exp (S j - m) = Real.exp (M - m) * Real.exp (S j - M) := fun j => by
    rw [← Real.exp_add, show M - m + (S j - M) = S j - m from by ring]
  have hA : ∑ j, Real.exp (S j - m) * V j = Real.exp (M - m) * ∑ j, Real.exp (S j - M) * V j := by
    rw [Finset.mul_sum]
    exact Finset.sum_congr rfl fun j _ => by rw [hc j, mul_assoc]
  have hLL : ∑ j, Real.exp (S j - m) = Real.exp (M - m) * ∑ j, Real.exp (S j - M) := by
    rw [Finset.mul_sum]
    exact Finset.sum_congr rfl fun j _ => hc j
  have hR : ∑ j, Real.exp (S j - M) * (1 / ∑ i, Real.exp (S i - M)) * V j
      = (∑ j, Real.exp (S j - M) * V j) * (1 / ∑ i, Real.exp (S i - M)) := by
    rw [Finset.sum_mul]
    exact Finset.sum_congr rfl fun j _ => by ring
  rw [hA, hLL, hR]
  have hc0 : Real.exp (M - m) ≠ 0 := (Real.exp_pos _).ne'
  have hZ0 : (∑ i, Real.exp (S i - M)) ≠ 0 := hZ.ne'
  generalize (∑ j, Real.exp (S j - M) * V j) = A at *
  generalize (∑ i, Real.exp (S i - M)) = Z at *
  field_simp

/-! ## Real inputs: projections and scores are real -/

/-- The projection of real inputs, as a real number. -/
def projR (xr : XIdx → ℝ) (w : WIdx → ℝ) (b : Fin 4) (t : Fin 4096) (h : Fin 64) : ℝ :=
  ∑ e : Fin 1024, xr (ix3 b t e) * w (ix2 e h)

/-- The score of real inputs, as a real number; the literal scale is 1/8. -/
def scoreR (xr : XIdx → ℝ) (wq wk : WIdx → ℝ) (b : Fin 4) (q j : Fin 4096) : ℝ :=
  (∑ h : Fin 64, projR xr wq b q h * projR xr wk b j h) * (1 / 8)

/-- The coercion passes through the sum of products of a projection. -/
theorem proj_coe (xr : XIdx → ℝ) (w : WIdx → ℝ) (b : Fin 4) (t : Fin 4096) (h : Fin 64) :
    proj (fun i => (xr i : EReal)) (fun i => (w i : EReal)) b t h = ((projR xr w b t h : ℝ) : EReal) := by
  simp only [proj, projR, coe_sum, EReal.coe_mul]

/-- ... and through the sum of products and the scaling of a score. -/
theorem score_coe (xr : XIdx → ℝ) (wq wk : WIdx → ℝ) (b : Fin 4) (q j : Fin 4096) :
    score (fun i => (xr i : EReal)) (fun i => (wq i : EReal)) (fun i => (wk i : EReal)) b q j
      = ((scoreR xr wq wk b q j : ℝ) : EReal) := by
  simp only [score, scoreR, proj_coe, scale_eq, coe_sum, EReal.coe_mul]

/-! ## The law -/

/-- For inputs that are real numbers, numerator over denominator of the four-block sweep is the
    softmax-weighted sum over all 4096 keys. -/
theorem online_eq_attn (xr : XIdx → ℝ) (wq wk wv : WIdx → ℝ) (b : Fin 4) (q : Fin 4096) (h : Fin 64) :
    attnOnline (fun i => (xr i : EReal)) (fun i => (wq i : EReal)) (fun i => (wk i : EReal))
        (fun i => (wv i : EReal)) b q h
      = attn (fun i => (xr i : EReal)) (fun i => (wq i : EReal)) (fun i => (wk i : EReal))
        (fun i => (wv i : EReal)) b q h := by
  have hS : score (fun i => (xr i : EReal)) (fun i => (wq i : EReal)) (fun i => (wk i : EReal)) b q
      = fun j => ((scoreR xr wq wk b q j : ℝ) : EReal) := funext fun j => score_coe xr wq wk b q j
  simp only [attnOnline, attn, proj_coe]
  rw [hS]
  exact online_eq_attn_real (fun j => scoreR xr wq wk b q j) (fun j => projR xr wv b j h)

end Cert.AttnLaws

end
-- ==== Proof.FiniteInputs.lean ====
/-
  Under the precondition every input entry is a real number.

  The precondition is the conjunction, over the four input arrays, of "every element's absolute value is below
  +inf": an all-reduction by `and` of the elementwise comparison |x| < c, where c is the constant with the
  pattern 0x7F800000 broadcast to the array's shape.  A conjunction of one-bit words that is 1 has both
  conjuncts 1; an all-reduction by `and` that is 1 had a 1 at every element; the pattern 0x7F800000 is +inf; and
  at the extended reals |x| is max x (-x), which is +inf at both infinities.  So every element is neither +inf
  nor -inf: it is the coercion of a real.
-/
import proofs.«162099_j9010841387309_2_alg».proof.Defs
import proofs.«162099_j9010841387309_2_alg».proof.Proof.Gen.Pre_finite_inputs
import proofs.«162099_j9010841387309_2_alg».proof.Proof.AttnSpec
import Idealize.ShloMosaic.Lib.ReduceAll

noncomputable section

namespace Cert.FiniteInputs

open Idealize.ShloMosaic Idealize.SL.Sem Cert.Pre_finite_inputs

/-- The rank-0 shape has one index. -/
instance : Subsingleton S_.Idx := ⟨fun a b => funext fun d => d.elim0⟩

/-- The pattern 0x7F800000 (sign 0, exponent all ones, fraction 0) is +inf. -/
theorem posInf_eq : Ideal.ofBits .f32 0x7F800000#32 = ⊤ := by
  simp [Ideal.ofBits, Ideal.ieee]

/-- An extended real whose absolute value max x (-x) is below +inf is neither +inf nor -inf: it is a real. -/
theorem real_of_abs_lt_top (x : EReal) (h : max x (-x) < ⊤) : ∃ r : ℝ, x = (r : EReal) := by
  induction x using EReal.rec with
  | bot => simp at h
  | top => simp at h
  | coe r => exact ⟨r, rfl⟩

theorem ofBool_eq_one (b : Bool) : BitVec.ofBool b = 1#1 ↔ b = true := by cases b <;> decide

/-- The comparison |x| < +inf read back at one element. -/
theorem elem_real (x : EReal)
    (h : Ideal.cmp .olt (max x (-x)) (Ideal.ofBits .f32 0x7F800000#32) = 1#1) : ∃ r : ℝ, x = (r : EReal) := by
  rw [posInf_eq] at h
  unfold Ideal.cmp at h
  rw [ofBool_eq_one] at h
  exact real_of_abs_lt_top x (of_decide_eq_true h)

/-- An array every element of which passes the comparison is the coercion of a real array. -/
theorem array_real {s : Shape} (x : s.Idx → EReal)
    (h : ∀ i, Ideal.cmp .olt (max (x i) (-(x i))) (Ideal.ofBits .f32 0x7F800000#32) = 1#1) :
    ∃ xr : s.Idx → ℝ, x = fun i => (xr i : EReal) := by
  refine ⟨fun i => (x i).toReal, funext fun i => ?_⟩
  obtain ⟨r, hr⟩ := elem_real (x i) (h i)
  show x i = (((x i).toReal : ℝ) : EReal)
  rw [hr, EReal.toReal_coe]

/-- Under the precondition (each of the four arrays has every absolute value below +inf, on every device),
    every entry of the four input arrays is a real number. -/
theorem reals_of_pre [hPre : Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    ∃ (xr : Cert.AttnSpec.XIdx → ℝ) (wq wk wv : Cert.AttnSpec.WIdx → ℝ),
      m ((c.tc : Thread Cert.KernelIdeal.nD Cert.KernelIdeal.τ).loc Cert.KernelIdeal.main_arg0)
          = (fun i => (xr i : EReal))
      ∧ m ((c.tc : Thread Cert.KernelIdeal.nD Cert.KernelIdeal.τ).loc Cert.KernelIdeal.main_arg1)
          = (fun i => (wq i : EReal))
      ∧ m ((c.tc : Thread Cert.KernelIdeal.nD Cert.KernelIdeal.τ).loc Cert.KernelIdeal.main_arg2)
          = (fun i => (wk i : EReal))
      ∧ m ((c.tc : Thread Cert.KernelIdeal.nD Cert.KernelIdeal.τ).loc Cert.KernelIdeal.main_arg3)
          = (fun i => (wv i : EReal)) := by
  have e := congrFun (h c) ValueIdx.ix0
  dsimp only [Cert.Pre_finite_inputs.fn, Cert.Pre_finite_inputs.fn_part1] at e
  simp only [andi, IntOp.andi_eq_one] at e
  obtain ⟨⟨⟨e0, e1⟩, e2⟩, e3⟩ := e
  obtain ⟨xr, hx⟩ := array_real (s := S4x4096x1024)
    (m ((c.tc : Thread Cert.KernelIdeal.nD Cert.KernelIdeal.τ).loc Cert.KernelIdeal.main_arg0))
    (fun i => Host.reduce_andi_all _ _ _ _ _ e0 i)
  obtain ⟨wq, hq⟩ := array_real (s := S1024x64)
    (m ((c.tc : Thread Cert.KernelIdeal.nD Cert.KernelIdeal.τ).loc Cert.KernelIdeal.main_arg1))
    (fun i => Host.reduce_andi_all _ _ _ _ _ e1 i)
  obtain ⟨wk, hk⟩ := array_real (s := S1024x64)
    (m ((c.tc : Thread Cert.KernelIdeal.nD Cert.KernelIdeal.τ).loc Cert.KernelIdeal.main_arg2))
    (fun i => Host.reduce_andi_all _ _ _ _ _ e2 i)
  obtain ⟨wv, hv⟩ := array_real (s := S1024x64)
    (m ((c.tc : Thread Cert.KernelIdeal.nD Cert.KernelIdeal.τ).loc Cert.KernelIdeal.main_arg3))
    (fun i => Host.reduce_andi_all _ _ _ _ _ e3 i)
  exact ⟨xr, wq, wk, wv, hx, hq, hk, hv⟩

end Cert.FiniteInputs

end
-- ==== Proof.KIBridge.lean ====
/-
  The kernel's result array is attention of its arguments. The projection stage leaves the query, transposed
  key and value projections; the attention stage's blockwise value of those three arrays is then the blockwise
  attention of the arguments (the transposed key projection read at the transposed index); and for finite
  arguments the blockwise sweep is softmax attention.
-/
import proofs.«162099_j9010841387309_2_alg».proof.Proof.KIValue
import proofs.«162099_j9010841387309_2_alg».proof.Proof.KIProjArrays
import proofs.«162099_j9010841387309_2_alg».proof.Proof.KIRun
import proofs.«162099_j9010841387309_2_alg».proof.Proof.AttnLaws
import proofs.«162099_j9010841387309_2_alg».proof.Proof.FiniteInputs

set_option maxRecDepth 16384

noncomputable section

namespace Cert.KIBridge

open Cert.KernelIdeal Cert.KernelIdeal.Gen Cert.KernelIdeal.Frame Cert.AttnSpec Cert.KIValue
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (c : Dev nD)

/-- What the attention stage finds in the three projection arrays. -/
theorem found_q : V1e m c main_v0_0 = fun idx => proj (m ((c : Thread nD τ).loc main_arg0)) (m ((c : Thread nD τ).loc main_arg1)) (idx 0) (idx 1) (idx 2) :=
  (W1_arr m c 4).trans (Cert.KIProjArrays.arr4 (V0e m) c)
theorem found_v : V1e m c main_v0_2 = fun idx => proj (m ((c : Thread nD τ).loc main_arg0)) (m ((c : Thread nD τ).loc main_arg3)) (idx 0) (idx 1) (idx 2) :=
  (W1_arr m c 6).trans (Cert.KIProjArrays.arr6 (V0e m) c)
theorem found_kt : V1e m c main_v0_1 = fun idx => proj (m ((c : Thread nD τ).loc main_arg0)) (m ((c : Thread nD τ).loc main_arg2)) (idx 0) (idx 2) (idx 1) :=
  (W1_arr m c 5).trans (Cert.KIProjArrays.arr5_proj (V0e m) c)

/-- The scores the attention stage computes from what it finds are the specification's scores. -/
theorem scoreOf_found (b : Fin 4) (q : Fin 4096) :
    scoreOf (V1e m c main_v0_0) (V1e m c main_v0_1) b q
      = score (m ((c : Thread nD τ).loc main_arg0)) (m ((c : Thread nD τ).loc main_arg1)) (m ((c : Thread nD τ).loc main_arg2)) b q := by
  funext j
  unfold scoreOf score
  rw [found_q, found_kt]
  rfl

/-- The blockwise value of what the stage finds is the blockwise attention of the arguments. -/
theorem sweepOut_found (b : Fin 4) (q : Fin 4096) (h : Fin 64) :
    sweepOut (V1e m) c b q h
      = attnOnline (m ((c : Thread nD τ).loc main_arg0)) (m ((c : Thread nD τ).loc main_arg1)) (m ((c : Thread nD τ).loc main_arg2)) (m ((c : Thread nD τ).loc main_arg3)) b q h := by
  unfold sweepOut attnOnline
  rw [scoreOf_found, found_v]
  rfl

/-- Under the precondition the kernel's result array is softmax attention of the arguments, index by index. -/
theorem result_eq [hPre : Cert.Pre_finite_inputs.Facts] (hpre : Cert.Pre_KernelIdeal m) :
    (dat1 (F := Ideal) (V1e m) c).arrAt 3 cfg1.N
      = fun idx => attn (m ((c : Thread nD τ).loc main_arg0)) (m ((c : Thread nD τ).loc main_arg1)) (m ((c : Thread nD τ).loc main_arg2)) (m ((c : Thread nD τ).loc main_arg3)) (idx 0) (idx 1) (idx 2) := by
  rw [result_array]
  refine funext fun (idx : S4x4096x64.Idx) => ?_
  refine (sweepOut_found m c (idx 0) (idx 1) (idx 2)).trans ?_
  obtain ⟨xr, wq, wk, wv, hx, hq, hk, hv⟩ := Cert.FiniteInputs.reals_of_pre m hpre c
  rw [hx, hq, hk, hv]
  exact Cert.AttnLaws.online_eq_attn xr wq wk wv (idx 0) (idx 1) (idx 2)

end Cert.KIBridge

end
-- ==== Proof.RefAttn.lean ====
/-
  The reference program, read one element at a time, computes the attention of the specification.

  The reference is a chain of whole-array stages. Each stage, read at one index, is an expression in the previous stages
  at indices built from that index; this file follows the chain at the coordinates (b, q, h) of one result element:

    * the three projections are sums over the 1024 embedding coordinates of x (b, t, e) * W (e, h)      (proj_q / proj_k / proj_v);
    * a score is the sum over the 64 head coordinates of query projection times key projection, times 1/8   (score_eq);
    * the row maximum is a fold of max over the 4096 keys of row (b, q), started from -inf, and then once more
      max'ed with -inf                                                                                  (rowmax_fold, rowmax);
    * every score of the row is shifted by that maximum and exponentiated                                (expo);
    * the denominator is 0 plus the sum over the row's keys of those exponentials                        (denom);
    * the result is the sum over the keys of (exponential / denominator) times the value projection      (ref_eq_attn).

  Every index equation below says that a stage's index function, applied to an index given by coordinates, is again an
  index given by coordinates; each holds coordinate by coordinate by computation.
-/
import proofs.«162099_j9010841387309_2_alg».proof.Proof.Gen.ReferenceIdeal.Read
import proofs.«162099_j9010841387309_2_alg».proof.Proof.AttnSpec

noncomputable section

namespace Cert.RefAttn

open Cert.ReferenceIdeal Cert.ReferenceIdeal.Gen Cert.ReferenceIdeal.Read Cert.AttnSpec
open Idealize.ShloMosaic Idealize.ShloMosaic.ValueIdx Idealize.SL.Sem

abbrev XBuf : Type := (⟨S4x4096x1024, .f32⟩ : BufTy).Contents (Elt Ideal)
abbrev WBuf : Type := (⟨S1024x64, .f32⟩ : BufTy).Contents (Elt Ideal)

/-! ## The three projections -/

theorem lidx_v0 (b : Fin 4) (t : Fin 4096) (h : Fin 64) (e : Fin 1024) :
    lidx_main_v0 (ix3 b t h) e = ix3 b t e :=
  funext fun a => Fin.ext (by match a with | ⟨0, _⟩ => rfl | ⟨1, _⟩ => rfl | ⟨2, _⟩ => rfl)

theorem ridx_v0 (b : Fin 4) (t : Fin 4096) (h : Fin 64) (e : Fin 1024) :
    ridx_main_v0 (ix3 b t h) e = ix2 e h :=
  funext fun a => Fin.ext (by match a with | ⟨0, _⟩ => rfl | ⟨1, _⟩ => rfl)

theorem proj_q (x0 : XBuf) (x1 : WBuf) (b : Fin 4) (t : Fin 4096) (h : Fin 64) :
    val_main_v0 (F := Ideal) x0 x1 (ix3 b t h) = proj x0 x1 b t h := by
  rw [val_main_v0_apply]
  unfold proj
  refine Finset.sum_congr rfl fun e _ => ?_
  rw [lidx_v0, ridx_v0]

theorem proj_k (x0 : XBuf) (x2 : WBuf) (b : Fin 4) (t : Fin 4096) (h : Fin 64) :
    val_main_v1 (F := Ideal) x0 x2 (ix3 b t h) = proj x0 x2 b t h := proj_q x0 x2 b t h

theorem proj_v (x0 : XBuf) (x3 : WBuf) (b : Fin 4) (t : Fin 4096) (h : Fin 64) :
    val_main_v2 (F := Ideal) x0 x3 (ix3 b t h) = proj x0 x3 b t h := proj_q x0 x3 b t h

/-! ## The scaled scores -/

theorem lidx_v3 (b : Fin 4) (q j : Fin 4096) (h : Fin 64) :
    lidx_main_v3 (ix3 b q j) h = ix3 b q h :=
  funext fun a => Fin.ext (by match a with | ⟨0, _⟩ => rfl | ⟨1, _⟩ => rfl | ⟨2, _⟩ => rfl)

theorem ridx_v3 (b : Fin 4) (q j : Fin 4096) (h : Fin 64) :
    ridx_main_v3 (ix3 b q j) h = ix3 b j h :=
  funext fun a => Fin.ext (by match a with | ⟨0, _⟩ => rfl | ⟨1, _⟩ => rfl | ⟨2, _⟩ => rfl)

theorem score_eq (x0 : XBuf) (x1 x2 : WBuf) (b : Fin 4) (q j : Fin 4096) :
    val_main_v5 (F := Ideal) x0 x1 x2 (ix3 b q j) = score x0 x1 x2 b q j := by
  rw [val_main_v5_apply, val_main_v3_apply, val_main_v4_apply, val_main_cst_apply, Ideal.mulf_def, Ideal.ofBits_def]
  unfold score
  refine congrArg (· * scale) (Finset.sum_congr rfl fun h _ => ?_)
  rw [lidx_v3, ridx_v3, proj_q, proj_k]

/-! ## The row maximum -/

/-- Row (b, q) of the scores with key coordinate `k` put back on the reduced axis is the index (b, q, k). -/
theorem lift_row (hR : S4x4096x4096.Reduces [2] S4x4096) (b : Fin 4) (q : Fin 4096) (k : Fin (S4x4096x4096.size 2)) :
    hR.lift (ix2 b q) k = ix3 b q (⟨k.val, k.isLt⟩ : Fin 4096) := by
  funext c; apply Fin.ext
  fin_cases c <;> rfl

theorem rowmax_fold (x0 : XBuf) (x1 x2 : WBuf) (b : Fin 4) (q : Fin 4096) :
    val_main_v6 (F := Ideal) x0 x1 x2 (ix2 b q)
      = Finset.univ.fold max negInf (fun j : Fin 4096 => score x0 x1 x2 b q j) := by
  have hR : S4x4096x4096.Reduces [2] S4x4096 := by decide
  unfold val_main_v6
  rw [Host.reduce_eq_fold_single FloatOps.maximumf _ _ reducesTo_S4x4096x4096_S4x4096_d2 hR h_S_]
  have hf : (val_main_v5 (F := Ideal) x0 x1 x2 ∘ hR.lift (ix2 b q)) = fun j : Fin 4096 => score x0 x1 x2 b q j :=
    funext fun k => (congrArg (val_main_v5 (F := Ideal) x0 x1 x2) (lift_row hR b q k)).trans (score_eq x0 x1 x2 b q _)
  exact congrArg (fun f => Finset.fold max negInf f (Finset.univ : Finset (Fin 4096))) hf

theorem rowmax (x0 : XBuf) (x1 x2 : WBuf) (b : Fin 4) (q : Fin 4096) :
    val_main_v8 (F := Ideal) x0 x1 x2 (ix2 b q)
      = max negInf (Finset.univ.fold max negInf (fun j : Fin 4096 => score x0 x1 x2 b q j)) := by
  rw [val_main_v8_apply, val_main_v7_apply, val_main_cst_1_apply, Ideal.maximumf_def, Ideal.ofBits_def, rowmax_fold]

/-! ## The shifted exponentials and their sum -/

theorem idx_v9_v10 (b : Fin 4) (q j : Fin 4096) :
    idx_main_v9 (idx_main_v10 (ix3 b q j)) = ix2 b q :=
  funext fun a => Fin.ext (by match a with | ⟨0, _⟩ => rfl | ⟨1, _⟩ => rfl)

theorem expo (x0 : XBuf) (x1 x2 : WBuf) (b : Fin 4) (q j : Fin 4096) :
    val_main_v12 (F := Ideal) x0 x1 x2 (ix3 b q j)
      = Ideal.exp (score x0 x1 x2 b q j
          - max negInf (Finset.univ.fold max negInf (fun j : Fin 4096 => score x0 x1 x2 b q j))) := by
  rw [val_main_v12_apply, val_main_v11_apply, val_main_v10_apply, val_main_v9_apply, idx_v9_v10,
    Ideal.hostUnary_exp_def, Ideal.subf_def, score_eq, rowmax]

theorem idx_v14_v15 (b : Fin 4) (q j : Fin 4096) :
    idx_main_v14 (idx_main_v15 (ix3 b q j)) = ix2 b q :=
  funext fun a => Fin.ext (by match a with | ⟨0, _⟩ => rfl | ⟨1, _⟩ => rfl)

theorem idx_v13 (b : Fin 4) (q k : Fin 4096) :
    idx_main_v13 (ix2 b q) k = ix3 b q k :=
  funext fun a => Fin.ext (by match a with | ⟨0, _⟩ => rfl | ⟨1, _⟩ => rfl | ⟨2, _⟩ => rfl)

theorem denom (x0 : XBuf) (x1 x2 : WBuf) (b : Fin 4) (q j : Fin 4096) :
    val_main_v15 (F := Ideal) x0 x1 x2 (ix3 b q j)
      = zero + ∑ k : Fin 4096, Ideal.exp (score x0 x1 x2 b q k
          - max negInf (Finset.univ.fold max negInf (fun j : Fin 4096 => score x0 x1 x2 b q j))) := by
  rw [val_main_v15_apply, val_main_v14_apply, idx_v14_v15, val_main_v13_apply, val_main_cst_2_apply, Ideal.ofBits_def]
  refine congrArg (zero + ·) (Finset.sum_congr rfl fun k _ => ?_)
  rw [idx_v13, expo]

/-! ## The weighted values -/

theorem lidx_v17 (b : Fin 4) (q : Fin 4096) (h : Fin 64) (j : Fin 4096) :
    lidx_main_v17 (ix3 b q h) j = ix3 b q j :=
  funext fun a => Fin.ext (by match a with | ⟨0, _⟩ => rfl | ⟨1, _⟩ => rfl | ⟨2, _⟩ => rfl)

theorem ridx_v17 (b : Fin 4) (q : Fin 4096) (h : Fin 64) (j : Fin 4096) :
    ridx_main_v17 (ix3 b q h) j = ix3 b j h :=
  funext fun a => Fin.ext (by match a with | ⟨0, _⟩ => rfl | ⟨1, _⟩ => rfl | ⟨2, _⟩ => rfl)

theorem ref_eq_attn (x0 : (⟨Cert.ReferenceIdeal.S4x4096x1024, .f32⟩ : BufTy).Contents (Elt Ideal))
    (x1 x2 x3 : (⟨Cert.ReferenceIdeal.S1024x64, .f32⟩ : BufTy).Contents (Elt Ideal)) (b : Fin 4) (q : Fin 4096) (h : Fin 64) :
    Cert.ReferenceIdeal.Read.val_main_v17 (F := Ideal) x0 x1 x2 x3 (ValueIdx.ix3 b q h) = Cert.AttnSpec.attn x0 x1 x2 x3 b q h := by
  rw [val_main_v17_apply]
  unfold attn
  refine Finset.sum_congr rfl fun j _ => ?_
  rw [lidx_v17, ridx_v17, val_main_v16_apply, Ideal.hostDivf_def, expo, denom, proj_v]

end Cert.RefAttn

end
-- ==== Proof.lean ====
/-
  The certificate: a two-stage attention kernel — a query / key / value projection of x, then attention of
  each query row swept over four blocks of 1024 keys with a running maximum, denominator and numerator —
  against softmax attention written directly, at the exact extended-real reading.

  The three frames: the kernel's (at the word-level and at the exact instance) is its two pipelined regions run
  one after the other, every argument array only read; the reference's is its run with the result dropped.
  The idealization rewrote nothing. The value claim: at the exact instance the kernel's result array is,
  index by index, numerator / denominator of the four-block sweep of the projections, which for finite inputs
  is the softmax-weighted sum of the value projections; the reference's last stage, read at an index, is that
  same function of arguments that agree.
-/
import proofs.«162099_j9010841387309_2_alg».proof.Defs
import proofs.«162099_j9010841387309_2_alg».proof.Proof.Gen.Kernel
import proofs.«162099_j9010841387309_2_alg».proof.Proof.Gen.KernelIdeal
import proofs.«162099_j9010841387309_2_alg».proof.Proof.Gen.ReferenceIdeal
import proofs.«162099_j9010841387309_2_alg».proof.Proof.Gen.ReferenceIdeal.Read
import proofs.«162099_j9010841387309_2_alg».proof.Proof.Gen.Pre_finite_inputs
import proofs.«162099_j9010841387309_2_alg».proof.Proof.KRun
import proofs.«162099_j9010841387309_2_alg».proof.Proof.KIRun
import proofs.«162099_j9010841387309_2_alg».proof.Proof.KIBridge
import proofs.«162099_j9010841387309_2_alg».proof.Proof.RefAttn
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Frame.frame m ρ
theorem frame_ki : Cert.frame_KernelIdeal := fun m ρ _ => Cert.KernelIdeal.Frame.frame m ρ
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- Both programs end with softmax attention of arguments that agree. -/
theorem algebraic : Cert.algebraic_KernelIdeal_ReferenceIdeal := by
  intro m ρ m' ρ' hpre hagree
  refine ⟨fun c => fun idx => Cert.AttnSpec.attn (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)) (idx 0) (idx 1) (idx 2), ?_, ?_⟩
  · exact (θ_run Cert.KernelIdeal.defs _ _).mono
      (fun _ h c => ⟨(h c).1.trans (Cert.KIBridge.result_eq m c hpre), (h c).2⟩)
      (Cert.KernelIdeal.Frame.run (F := Ideal) m ρ)
  · refine (θ_run Cert.ReferenceIdeal.defs _ _).mono (fun _ h c => ⟨?_, (h c).2⟩)
      (Cert.ReferenceIdeal.Value.run (F := Ideal) m' ρ')
    rw [(h c).1, Cert.ReferenceIdeal.Read.val_main_v17_eq, (hagree c).1, (hagree c).2.1, (hagree c).2.2.1, (hagree c).2.2.2]
    funext idx
    rw [ValueIdx.eq_ix3 idx]
    exact Cert.RefAttn.ref_eq_attn _ _ _ _ _ _ _

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
